-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v90)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v90) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v133) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S2x800000 : Shape := ⟨2, ![2, 800000]⟩
abbrev S64x64 : Shape := ⟨2, ![64, 64]⟩
abbrev S64 : Shape := ⟨1, ![64]⟩
abbrev S64x1 : Shape := ⟨2, ![64, 1]⟩
abbrev S1 : Shape := ⟨1, ![1]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg8 : FVec F S64x1 .f32) (main_arg9 : FVec F S1 .f32) (main_v33 : IVec S_ 1) : IVec S_ 1 :=
  let main_v34 : FVec F S64x1 .f32 := Host.absf main_arg8
  let main_cst_12 : FVec F S_ .f32 := constant S_ .f32 0x7F800000#32
  let main_v35 : FVec F S64x1 .f32 := broadcastInDim S64x1 ![] bcast_S_S64x1 main_cst_12
  let main_v36 : IVec S64x1 1 := cmpf .olt main_v34 main_v35
  let main_c_13 : IVec S_ 1 := constantI S_ 1 1#1
  let main_v37 : IVec S_ 1 := (fun x v => Host.reduce IntOp.andi x v reducesTo_S64x1_S_d0_1 h_S_) main_v36 main_c_13
  let main_v38 : IVec S_ 1 := andi main_v33 main_v37
  let main_v39 : FVec F S1 .f32 := Host.absf main_arg9
  let main_cst_14 : FVec F S_ .f32 := constant S_ .f32 0x7F800000#32
  let main_v40 : FVec F S1 .f32 := broadcastInDim S1 ![] bcast_S_S1 main_cst_14
  let main_v41 : IVec S1 1 := cmpf .olt main_v39 main_v40
  let main_c_15 : IVec S_ 1 := constantI S_ 1 1#1
  let main_v42 : IVec S_ 1 := (fun x v => Host.reduce IntOp.andi x v reducesTo_S1_S_d0 h_S_) main_v41 main_c_15
  let main_v43 : IVec S_ 1 := andi main_v38 main_v42
  main_v43

def fn_part1 {F : FTy → Type} [FloatOps F] (main_arg5 : FVec F S64 .f32) (main_arg6 : FVec F S64x64 .f32) (main_arg7 : FVec F S64 .f32) (main_arg8 : FVec F S64x1 .f32) (main_arg9 : FVec F S1 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg6
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg8 main_arg9 main_v33

def fn {F : FTy → Type} [FloatOps F] (main_arg0 : FVec F S50000x64 .f32) (main_arg1 : IVec S2x800000 32) (main_arg2 : FVec F S64x64 .f32) (main_arg3 : FVec F S64 .f32) (main_arg4 : FVec F S64x64 .f32) (main_arg5 : FVec F S64 .f32) (main_arg6 : FVec F S64x64 .f32) (main_arg7 : FVec F S64 .f32) (main_arg8 : FVec F S64x1 .f32) (main_arg9 : FVec F S1 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S64x64 .f32 := Host.absf main_arg2
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg5 main_arg6 main_arg7 main_arg8 main_arg9 main_v13 main_v16
-- ==== Kernel.lean ====
abbrev S50000x64 : Shape := ⟨2, ![50000, 64]⟩
abbrev S2x800000 : Shape := ⟨2, ![2, 800000]⟩
abbrev S64x64 : Shape := ⟨2, ![64, 64]⟩
abbrev S64 : Shape := ⟨1, ![64]⟩
abbrev S64x1 : Shape := ⟨2, ![64, 1]⟩
abbrev S1 : Shape := ⟨1, ![1]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S1x64 : Shape := ⟨2, ![1, 64]⟩
abbrev S5000x64 : Shape := ⟨2, ![5000, 64]⟩
abbrev S800000x64 : Shape := ⟨2, ![800000, 64]⟩
abbrev S50000x1 : Shape := ⟨2, ![50000, 1]⟩
abbrev S5000x1 : Shape := ⟨2, ![5000, 1]⟩
abbrev S1x1 : Shape := ⟨2, ![1, 1]⟩

abbrev nBuf : Space → Nat
  | .hbm => 122
  | .vmem => 51
  | .smem => 0
  | _ => 0

abbrev bufTy : (tb : Table) → Fin (tcTables nBuf tb) → BufTy
  | .hbm, ⟨0, _⟩ => ⟨S50000x64, .f32⟩
  | .hbm, ⟨1, _⟩ => ⟨S2x800000, .i32⟩
  | .hbm, ⟨2, _⟩ => ⟨S64x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S64x1, .f32⟩
  | .hbm, ⟨9, _⟩ => ⟨S1, .f32⟩
  | .hbm, ⟨10, _⟩ => ⟨S1x800000, .i32⟩
  | .hbm, ⟨11, _⟩ => ⟨S800000, .i32⟩
  | .hbm, ⟨12, _⟩ => ⟨S1x800000, .i32⟩
  | .hbm, ⟨13, _⟩ => ⟨S800000, .i32⟩
  | .hbm, ⟨14, _⟩ => ⟨S_, .f32⟩
  | .hbm, ⟨15, _⟩ => ⟨S50000, .f32⟩
  | .hbm, ⟨16, _⟩ => ⟨S_, .i32⟩
  | .hbm, ⟨17, _⟩ => ⟨S800000, .i32⟩
  | .hbm, ⟨18, _⟩ => ⟨S800000, .i1⟩
  | .hbm, ⟨19, _⟩ => ⟨S_, .i32⟩
  | .hbm, ⟨20, _⟩ => ⟨S800000, .i32⟩
  | .hbm, ⟨21, _⟩ => ⟨S800000, .i32⟩
  | .hbm, ⟨22, _⟩ => ⟨S800000, .i32⟩
  | .hbm, ⟨23, _⟩ => ⟨S800000x1, .i32⟩
  | .hbm, ⟨24, _⟩ => ⟨S_, .f32⟩
  | .hbm, ⟨25, _⟩ => ⟨S800000, .f32⟩
  | .hbm, ⟨26, _⟩ => ⟨S50000, .f32⟩
  | .hbm, ⟨27, _⟩ => ⟨S_, .f32⟩
  | .hbm, ⟨28, _⟩ => ⟨S50000, .f32⟩
  | .hbm, ⟨29, _⟩ => ⟨S50000, .f32⟩
  | .hbm, ⟨30, _⟩ => ⟨S50000, .f32⟩
  | .hbm, ⟨31, _⟩ => ⟨S50000, .f32⟩
  | .hbm, ⟨32, _⟩ => ⟨S_, .i32⟩
  | .hbm, ⟨33, _⟩ => ⟨S800000, .i32⟩
  | .hbm, ⟨34, _⟩ => ⟨S800000, .i1⟩
  | .hbm, ⟨35, _⟩ => ⟨S_, .i32⟩
  | .hbm, ⟨36, _⟩ => ⟨S800000, .i32⟩
  | .hbm, ⟨37, _⟩ => ⟨S800000, .i32⟩
  | .hbm, ⟨38, _⟩ => ⟨S800000, .i32⟩
  | .hbm, ⟨39, _⟩ => ⟨S800000x1, .i32⟩
  | .hbm, ⟨40, _⟩ => ⟨S800000, .f32⟩
  | .hbm, ⟨41, _⟩ => ⟨S_, .i32⟩
  | .hbm, ⟨42, _⟩ => ⟨S800000, .i32⟩
  | .hbm, ⟨43, _⟩ => ⟨S800000, .i1⟩
  | .hbm, ⟨44, _⟩ => ⟨S_, .i32⟩
  | .hbm, ⟨45, _⟩ => ⟨S800000, .i32⟩
  | .hbm, ⟨46, _⟩ => ⟨S800000, .i32⟩
  | .hbm, ⟨47, _⟩ => ⟨S800000, .i32⟩
  | .hbm, ⟨48, _⟩ => ⟨S800000x1, .i32⟩
  | .hbm, ⟨49, _⟩ => ⟨S800000, .f32⟩
  | .hbm, ⟨50, _⟩ => ⟨S800000, .f32⟩
  | .hbm, ⟨51, _⟩ => ⟨S_, .f32⟩
  | .hbm, ⟨52, _⟩ => ⟨S64, .f32⟩
  | .hbm, ⟨53, _⟩ => ⟨S1x64, .f32⟩
  | .hbm, ⟨54, _⟩ => ⟨S50000x64, .f32⟩
  | .hbm, ⟨55, _⟩ => ⟨S_, .i32⟩
  | .hbm, ⟨56, _⟩ => ⟨S800000, .i32⟩
  | .hbm, ⟨57, _⟩ => ⟨S800000, .i1⟩
  | .hbm, ⟨58, _⟩ => ⟨S_, .i32⟩
  | .hbm, ⟨59, _⟩ => ⟨S800000, .i32⟩
  | .hbm, ⟨60, _⟩ => ⟨S800000, .i32⟩
  | .hbm, ⟨61, _⟩ => ⟨S800000, .i32⟩
  | .hbm, ⟨62, _⟩ => ⟨S800000x1, .i32⟩
  | .hbm, ⟨63, _⟩ => ⟨S800000x64, .f32⟩
  | .hbm, ⟨64, _⟩ => ⟨S800000x1, .f32⟩
  | .hbm, ⟨65, _⟩ => ⟨S800000x64, .f32⟩
  | .hbm, ⟨66, _⟩ => ⟨S800000x64, .f32⟩
  | .hbm, ⟨67, _⟩ => ⟨S_, .f32⟩
  | .hbm, ⟨68, _⟩ => ⟨S50000x64, .f32⟩
  | .hbm, ⟨69, _⟩ => ⟨S800000x1, .i32⟩
  | .hbm, ⟨70, _⟩ => ⟨S50000x64, .f32⟩
  | .hbm, ⟨71, _⟩ => ⟨S1x64, .f32⟩
  | .hbm, ⟨72, _⟩ => ⟨S50000x1, .f32⟩
  | .hbm, ⟨73, _⟩ => ⟨S50000x64, .f32⟩
  | .hbm, ⟨74, _⟩ => ⟨S_, .f32⟩
  | .hbm, ⟨75, _⟩ => ⟨S64, .f32⟩
  | .hbm, ⟨76, _⟩ => ⟨S1x64, .f32⟩
  | .hbm, ⟨77, _⟩ => ⟨S50000x64, .f32⟩
  | .hbm, ⟨78, _⟩ => ⟨S_, .i32⟩
  | .hbm, ⟨79, _⟩ => ⟨S800000, .i32⟩
  | .hbm, ⟨80, _⟩ => ⟨S800000, .i1⟩
  | .hbm, ⟨81, _⟩ => ⟨S_, .i32⟩
  | .hbm, ⟨82, _⟩ => ⟨S800000, .i32⟩
  | .hbm, ⟨83, _⟩ => ⟨S800000, .i32⟩
  | .hbm, ⟨84, _⟩ => ⟨S800000, .i32⟩
  | .hbm, ⟨85, _⟩ => ⟨S800000x1, .i32⟩
  | .hbm, ⟨86, _⟩ => ⟨S800000x64, .f32⟩
  | .hbm, ⟨87, _⟩ => ⟨S800000x1, .f32⟩
  | .hbm, ⟨88, _⟩ => ⟨S800000x64, .f32⟩
  | .hbm, ⟨89, _⟩ => ⟨S800000x64, .f32⟩
  | .hbm, ⟨90, _⟩ => ⟨S_, .f32⟩
  | .hbm, ⟨91, _⟩ => ⟨S50000x64, .f32⟩
  | .hbm, ⟨92, _⟩ => ⟨S800000x1, .i32⟩
  | .hbm, ⟨93, _⟩ => ⟨S50000x64, .f32⟩
  | .hbm, ⟨94, _⟩ => ⟨S1x64, .f32⟩
  | .hbm, ⟨95, _⟩ => ⟨S50000x1, .f32⟩
  | .hbm, ⟨96, _⟩ => ⟨S50000x64, .f32⟩
  | .hbm, ⟨97, _⟩ => ⟨S_, .f32⟩
  | .hbm, ⟨98, _⟩ => ⟨S64, .f32⟩
  | .hbm, ⟨99, _⟩ => ⟨S1x64, .f32⟩
  | .hbm, ⟨100, _⟩ => ⟨S50000x64, .f32⟩
  | .hbm, ⟨101, _⟩ => ⟨S_, .i32⟩
  | .hbm, ⟨102, _⟩ => ⟨S800000, .i32⟩
  | .hbm, ⟨103, _⟩ => ⟨S800000, .i1⟩
  | .hbm, ⟨104, _⟩ => ⟨S_, .i32⟩
  | .hbm, ⟨105, _⟩ => ⟨S800000, .i32⟩
  | .hbm, ⟨106, _⟩ => ⟨S800000, .i32⟩
  | .hbm, ⟨107, _⟩ => ⟨S800000, .i32⟩
  | .hbm, ⟨108, _⟩ => ⟨S800000x1, .i32⟩
  | .hbm, ⟨109, _⟩ => ⟨S800000x64, .f32⟩
  | .hbm, ⟨110, _⟩ => ⟨S800000x1, .f32⟩
  | .hbm, ⟨111, _⟩ => ⟨S800000x64, .f32⟩
  | .hbm, ⟨112, _⟩ => ⟨S800000x64, .f32⟩
  | .hbm, ⟨113, _⟩ => ⟨S_, .f32⟩
  | .hbm, ⟨114, _⟩ => ⟨S50000x64, .f32⟩
  | .hbm, ⟨115, _⟩ => ⟨S800000x1, .i32⟩
  | .hbm, ⟨116, _⟩ => ⟨S50000x64, .f32⟩
  | .hbm, ⟨117, _⟩ => ⟨S1x64, .f32⟩
  | .hbm, ⟨118, _⟩ => ⟨S50000x1, .f32⟩
  | .hbm, ⟨119, _⟩ => ⟨S50000x64, .f32⟩
  | .hbm, ⟨120, _⟩ => ⟨S1x1, .f32⟩
  | .hbm, ⟨121, _⟩ => ⟨S50000x1, .f32⟩
  | .local _ .vmem, ⟨0, _⟩ => ⟨S5000x64, .f32⟩
  | .local _ .vmem, ⟨1, _⟩ => ⟨S5000x64, .f32⟩
  | .local _ .vmem, ⟨2, _⟩ => ⟨S64x64, .f32⟩
  | .local _ .vmem, ⟨3, _⟩ => ⟨S1x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S5000x64, .f32⟩
  | .local _ .vmem, ⟨8, _⟩ => ⟨S5000x64, .f32⟩
  | .local _ .vmem, ⟨9, _⟩ => ⟨S5000x64, .f32⟩
  | .local _ .vmem, ⟨10, _⟩ => ⟨S5000x1, .f32⟩
  | .local _ .vmem, ⟨11, _⟩ => ⟨S5000x1, .f32⟩
  | .local _ .vmem, ⟨12, _⟩ => ⟨S1x64, .f32⟩
  | .local _ .vmem, ⟨13, _⟩ => ⟨S5000x64, .f32⟩
  | .local _ .vmem, ⟨14, _⟩ => ⟨S5000x64, .f32⟩
  | .local _ .vmem, ⟨15, _⟩ => ⟨S5000x64, .f32⟩
  | .local _ .vmem, ⟨16, _⟩ => ⟨S5000x64, .f32⟩
  | .local _ .vmem, ⟨17, _⟩ => ⟨S64x64, .f32⟩
  | .local _ .vmem, ⟨18, _⟩ => ⟨S1x64, .f32⟩
  | .local _ .vmem, ⟨19, _⟩ => ⟨S5000x64, .f32⟩
  | .local _ .vmem, ⟨20, _⟩ => ⟨S5000x64, .f32⟩
  | .local _ .vmem, ⟨21, _⟩ => ⟨S5000x64, .f32⟩
  | .local _ .vmem, ⟨22, _⟩ => ⟨S5000x64, .f32⟩
  | .local _ .vmem, ⟨23, _⟩ => ⟨S5000x64, .f32⟩
  | .local _ .vmem, ⟨24, _⟩ => ⟨S5000x64, .f32⟩
  | .local _ .vmem, ⟨25, _⟩ => ⟨S5000x1, .f32⟩
  | .local _ .vmem, ⟨26, _⟩ => ⟨S5000x1, .f32⟩
  | .local _ .vmem, ⟨27, _⟩ => ⟨S1x64, .f32⟩
  | .local _ .vmem, ⟨28, _⟩ => ⟨S5000x64, .f32⟩
  | .local _ .vmem, ⟨29, _⟩ => ⟨S5000x64, .f32⟩
  | .local _ .vmem, ⟨30, _⟩ => ⟨S5000x64, .f32⟩
  | .local _ .vmem, ⟨31, _⟩ => ⟨S5000x64, .f32⟩
  | .local _ .vmem, ⟨32, _⟩ => ⟨S64x64, .f32⟩
  | .local _ .vmem, ⟨33, _⟩ => ⟨S1x64, .f32⟩
  | .local _ .vmem, ⟨34, _⟩ => ⟨S5000x64, .f32⟩
  | .local _ .vmem, ⟨35, _⟩ => ⟨S5000x64, .f32⟩
  | .local _ .vmem, ⟨36, _⟩ => ⟨S5000x64, .f32⟩
  | .local _ .vmem, ⟨37, _⟩ => ⟨S5000x64, .f32⟩
  | .local _ .vmem, ⟨38, _⟩ => ⟨S5000x64, .f32⟩
  | .local _ .vmem, ⟨39, _⟩ => ⟨S5000x64, .f32⟩
  | .local _ .vmem, ⟨40, _⟩ => ⟨S5000x1, .f32⟩
  | .local _ .vmem, ⟨41, _⟩ => ⟨S5000x1, .f32⟩
  | .local _ .vmem, ⟨42, _⟩ => ⟨S1x64, .f32⟩
  | .local _ .vmem, ⟨43, _⟩ => ⟨S5000x64, .f32⟩
  | .local _ .vmem, ⟨44, _⟩ => ⟨S5000x64, .f32⟩
  | .local _ .vmem, ⟨45, _⟩ => ⟨S5000x64, .f32⟩
  | .local _ .vmem, ⟨46, _⟩ => ⟨S5000x64, .f32⟩
  | .local _ .vmem, ⟨47, _⟩ => ⟨S64x1, .f32⟩
  | .local _ .vmem, ⟨48, _⟩ => ⟨S1x1, .f32⟩
  | .local _ .vmem, ⟨49, _⟩ => ⟨S5000x1, .f32⟩
  | .local _ .vmem, ⟨50, _⟩ => ⟨S5000x1, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | _, _ => false

abbrev semScoped : Fin 0 → Bool
  | ⟨_, h⟩ => absurd h (Nat.not_lt_zero _)

abbrev dmaSemScoped : Fin 51 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | _ => false

abbrev sig : RefSig :=
  ofTc nBuf bufTy 0 51 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_c : Ref sig .tc := ⟨.hbm, 16, rfl⟩
abbrev main_v5 : Ref sig .tc := ⟨.hbm, 17, rfl⟩
abbrev main_v6 : Ref sig .tc := ⟨.hbm, 18, rfl⟩
abbrev main_c_0 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_1 : Ref sig .tc := ⟨.hbm, 24, rfl⟩
abbrev main_v11 : Ref sig .tc := ⟨.hbm, 25, rfl⟩
abbrev main_v12 : Ref sig .tc := ⟨.hbm, 26, rfl⟩
abbrev main_cst_2 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_c_3 : Ref sig .tc := ⟨.hbm, 32, rfl⟩
abbrev main_v17 : Ref sig .tc := ⟨.hbm, 33, rfl⟩
abbrev main_v18 : Ref sig .tc := ⟨.hbm, 34, rfl⟩
abbrev main_c_4 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_c_6 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_cst_7 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_c_8 : Ref sig .tc := ⟨.hbm, 55, rfl⟩
abbrev main_v35 : Ref sig .tc := ⟨.hbm, 56, rfl⟩
abbrev main_v36 : Ref sig .tc := ⟨.hbm, 57, rfl⟩
abbrev main_c_9 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_cst_10 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_cst_11 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_c_12 : Ref sig .tc := ⟨.hbm, 78, rfl⟩
abbrev main_v54 : Ref sig .tc := ⟨.hbm, 79, rfl⟩
abbrev main_v55 : Ref sig .tc := ⟨.hbm, 80, rfl⟩
abbrev main_c_13 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_cst_14 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_cst_15 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_c_16 : Ref sig .tc := ⟨.hbm, 101, rfl⟩
abbrev main_v73 : Ref sig .tc := ⟨.hbm, 102, rfl⟩
abbrev main_v74 : Ref sig .tc := ⟨.hbm, 103, rfl⟩
abbrev main_c_17 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_cst_18 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg4_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg2_0 : Ref sig .tc := ⟨.vmem, 18, rfl⟩
abbrev cc2_stg3_0 : Ref sig .tc := ⟨.vmem, 19, rfl⟩
abbrev cc2_stg3_1 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg1_1 : Ref sig .tc := ⟨.vmem, 24, rfl⟩
abbrev cc3_stg2_0 : Ref sig .tc := ⟨.vmem, 25, rfl⟩
abbrev cc3_stg2_1 : Ref sig .tc := ⟨.vmem, 26, rfl⟩
abbrev cc3_stg3_0 : Ref sig .tc := ⟨.vmem, 27, rfl⟩
abbrev cc3_stg4_0 : Ref sig .tc := ⟨.vmem, 28, rfl⟩
abbrev cc3_stg4_1 : Ref sig .tc := ⟨.vmem, 29, rfl⟩
abbrev cc4_stg0_0 : Ref sig .tc := ⟨.vmem, 30, rfl⟩
abbrev cc4_stg0_1 : Ref sig .tc := ⟨.vmem, 31, rfl⟩
abbrev cc4_stg1_0 : Ref sig .tc := ⟨.vmem, 32, rfl⟩
abbrev cc4_stg2_0 : Ref sig .tc := ⟨.vmem, 33, rfl⟩
abbrev cc4_stg3_0 : Ref sig .tc := ⟨.vmem, 34, rfl⟩
abbrev cc4_stg3_1 : Ref sig .tc := ⟨.vmem, 35, rfl⟩
abbrev cc5_stg0_0 : Ref sig .tc := ⟨.vmem, 36, rfl⟩
abbrev cc5_stg0_1 : Ref sig .tc := ⟨.vmem, 37, rfl⟩
abbrev cc5_stg1_0 : Ref sig .tc := ⟨.vmem, 38, rfl⟩
abbrev cc5_stg1_1 : Ref sig .tc := ⟨.vmem, 39, rfl⟩
abbrev cc5_stg2_0 : Ref sig .tc := ⟨.vmem, 40, rfl⟩
abbrev cc5_stg2_1 : Ref sig .tc := ⟨.vmem, 41, rfl⟩
abbrev cc5_stg3_0 : Ref sig .tc := ⟨.vmem, 42, rfl⟩
abbrev cc5_stg4_0 : Ref sig .tc := ⟨.vmem, 43, rfl⟩
abbrev cc5_stg4_1 : Ref sig .tc := ⟨.vmem, 44, rfl⟩
abbrev cc6_stg0_0 : Ref sig .tc := ⟨.vmem, 45, rfl⟩
abbrev cc6_stg0_1 : Ref sig .tc := ⟨.vmem, 46, rfl⟩
abbrev cc6_stg1_0 : Ref sig .tc := ⟨.vmem, 47, rfl⟩
abbrev cc6_stg2_0 : Ref sig .tc := ⟨.vmem, 48, rfl⟩
abbrev cc6_stg3_0 : Ref sig .tc := ⟨.vmem, 49, rfl⟩
abbrev cc6_stg3_1 : Ref sig .tc := ⟨.vmem, 50, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem4_0 : DmaSem sig := 13
abbrev cc1_sem4_1 : DmaSem sig := 14
abbrev cc2_sem0_0 : DmaSem sig := 15
abbrev cc2_sem0_1 : DmaSem sig := 16
abbrev cc2_sem1_0 : DmaSem sig := 17
abbrev cc2_sem2_0 : DmaSem sig := 18
abbrev cc2_sem3_0 : DmaSem sig := 19
abbrev cc2_sem3_1 : DmaSem sig := 20
abbrev cc3_sem0_0 : DmaSem sig := 21
abbrev cc3_sem0_1 : DmaSem sig := 22
abbrev cc3_sem1_0 : DmaSem sig := 23
abbrev cc3_sem1_1 : DmaSem sig := 24
abbrev cc3_sem2_0 : DmaSem sig := 25
abbrev cc3_sem2_1 : DmaSem sig := 26
abbrev cc3_sem3_0 : DmaSem sig := 27
abbrev cc3_sem4_0 : DmaSem sig := 28
abbrev cc3_sem4_1 : DmaSem sig := 29
abbrev cc4_sem0_0 : DmaSem sig := 30
abbrev cc4_sem0_1 : DmaSem sig := 31
abbrev cc4_sem1_0 : DmaSem sig := 32
abbrev cc4_sem2_0 : DmaSem sig := 33
abbrev cc4_sem3_0 : DmaSem sig := 34
abbrev cc4_sem3_1 : DmaSem sig := 35
abbrev cc5_sem0_0 : DmaSem sig := 36
abbrev cc5_sem0_1 : DmaSem sig := 37
abbrev cc5_sem1_0 : DmaSem sig := 38
abbrev cc5_sem1_1 : DmaSem sig := 39
abbrev cc5_sem2_0 : DmaSem sig := 40
abbrev cc5_sem2_1 : DmaSem sig := 41
abbrev cc5_sem3_0 : DmaSem sig := 42
abbrev cc5_sem4_0 : DmaSem sig := 43
abbrev cc5_sem4_1 : DmaSem sig := 44
abbrev cc6_sem0_0 : DmaSem sig := 45
abbrev cc6_sem0_1 : DmaSem sig := 46
abbrev cc6_sem1_0 : DmaSem sig := 47
abbrev cc6_sem2_0 : DmaSem sig := 48
abbrev cc6_sem3_0 : DmaSem sig := 49
abbrev cc6_sem3_1 : DmaSem sig := 50

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S5000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S5000x64 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S64x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S5000x64 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S5000x64 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S5000x1 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 1 → Memref sig .tc .vmem S1x64 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 2 → Memref sig .tc .vmem S5000x64 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

abbrev grid6 : Pipeline.Grid := ⟨1, ![10], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x64 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S64x1 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x1 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 2 → Memref sig .tc .vmem S5000x1 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S50000 : S_.BroadcastsInDim S50000 (![] : Fin 0 → Fin S50000.rank)
  bcast_S_S800000 : S_.BroadcastsInDim S800000 (![] : Fin 0 → Fin S800000.rank)
  bcast_S800000_S800000x1_0 : S800000.BroadcastsInDim S800000x1 (![0] : Fin 1 → Fin S800000x1.rank)
  bcast_S_S64 : S_.BroadcastsInDim S64 (![] : Fin 0 → Fin S64.rank)
  shapeCasts_S64_S1x64 : S64.ShapeCasts S1x64
  inb_S5000x64_S5000x64_0_0 : ∀ a, (![0, 0] : Fin 2 → Nat) a + S5000x64.size a ≤ S5000x64.size a
  h_S5000x64 : 0 < S5000x64.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  bcast_S800000x1_S800000x64_0_1 : S800000x1.BroadcastsInDim S800000x64 (![0, 1] : Fin 2 → Fin S800000x64.rank)
  bcast_S_S50000x64 : S_.BroadcastsInDim S50000x64 (![] : Fin 0 → Fin S50000x64.rank)
  shapeCasts_S50000_S50000x1 : S50000.ShapeCasts S50000x1
  shapeCasts_S5000x64_S5000x64 : S5000x64.ShapeCasts S5000x64
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x64 : S5000x1.Broadcasts S5000x64
  shapeCasts_S1_S1x1 : S1.ShapeCasts S1x1
  inb_S64x1_S64x1_0_0 : ∀ a, (![0, 0] : Fin 2 → Nat) a + S64x1.size a ≤ S64x1.size a
  h_S64x1 : 0 < S64x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S5000x1 : S1x1.Broadcasts S5000x1
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  dot_S5000x64_S64x64_S5000x64_1_0_0_1_n_n_wf : DotDims.WF S5000x64 S64x64 S5000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S5000x64_S64x1_S5000x1_1_0_0_1_n_n_wf : DotDims.WF S5000x64 S64x1 S5000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S50000x64.size a
  hwx0_0 : ∀ i : grid0.Coords, EltTy.bits .f32 = 32 ∨ (Rect.block (s := S50000x64) S5000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x64.size a ≤ S50000x64.size a
  hwx0_3 : ∀ i : grid0.Coords, EltTy.bits .f32 = 32 ∨ (Rect.block (s := S50000x64) S5000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S50000x64.size a
  hwx1_0 : ∀ i : grid1.Coords, EltTy.bits .f32 = 32 ∨ (Rect.block (s := S50000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S50000x64.size a
  hwx1_1 : ∀ i : grid1.Coords, EltTy.bits .f32 = 32 ∨ (Rect.block (s := S50000x64) S5000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S50000x1.size a
  hwx1_2 : ∀ i : grid1.Coords, EltTy.bits .f32 = 32 ∨ (Rect.block (s := S50000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x64.size a ≤ S50000x64.size a
  hwx1_4 : ∀ i : grid1.Coords, EltTy.bits .f32 = 32 ∨ (Rect.block (s := S50000x64) S5000x64.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S50000x64.size a
  hwx2_0 : ∀ i : grid2.Coords, EltTy.bits .f32 = 32 ∨ (Rect.block (s := S50000x64) S5000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x64.size a ≤ S64x64.size a
  hwx2_1 : ∀ i : grid2.Coords, EltTy.bits .f32 = 32 ∨ (Rect.block (s := S64x64) S64x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x64.size a ≤ S50000x64.size a
  hwx2_3 : ∀ i : grid2.Coords, EltTy.bits .f32 = 32 ∨ (Rect.block (s := S50000x64) S5000x64.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S50000x64.size a
  hwx3_0 : ∀ i : grid3.Coords, EltTy.bits .f32 = 32 ∨ (Rect.block (s := S50000x64) S5000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x64.size a ≤ S50000x64.size a
  hwx3_1 : ∀ i : grid3.Coords, EltTy.bits .f32 = 32 ∨ (Rect.block (s := S50000x64) S5000x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x1.size a ≤ S50000x1.size a
  hwx3_2 : ∀ i : grid3.Coords, EltTy.bits .f32 = 32 ∨ (Rect.block (s := S50000x1) S5000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x64.size a ≤ S1x64.size a
  hwx3_3 : ∀ i : grid3.Coords, EltTy.bits .f32 = 32 ∨ (Rect.block (s := S1x64) S1x64.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S5000x64.size a ≤ S50000x64.size a
  hwx3_4 : ∀ i : grid3.Coords, EltTy.bits .f32 = 32 ∨ (Rect.block (s := S50000x64) S5000x64.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x64.size a ≤ S50000x64.size a
  hwx4_0 : ∀ i : grid4.Coords, EltTy.bits .f32 = 32 ∨ (Rect.block (s := S50000x64) S5000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S64x64.size a ≤ S64x64.size a
  hwx4_1 : ∀ i : grid4.Coords, EltTy.bits .f32 = 32 ∨ (Rect.block (s := S64x64) S64x64.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x64.size a ≤ S1x64.size a
  hwx4_2 : ∀ i : grid4.Coords, EltTy.bits .f32 = 32 ∨ (Rect.block (s := S1x64) S1x64.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S5000x64.size a ≤ S50000x64.size a
  hwx4_3 : ∀ i : grid4.Coords, EltTy.bits .f32 = 32 ∨ (Rect.block (s := S50000x64) S5000x64.size (cc4_transform_3 i) (hinb4_3 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x64.size a ≤ S50000x64.size a
  hwx5_0 : ∀ i : grid5.Coords, EltTy.bits .f32 = 32 ∨ (Rect.block (s := S50000x64) S5000x64.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S5000x64.size a ≤ S50000x64.size a
  hwx5_1 : ∀ i : grid5.Coords, EltTy.bits .f32 = 32 ∨ (Rect.block (s := S50000x64) S5000x64.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S5000x1.size a ≤ S50000x1.size a
  hwx5_2 : ∀ i : grid5.Coords, EltTy.bits .f32 = 32 ∨ (Rect.block (s := S50000x1) S5000x1.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x64.size a ≤ S1x64.size a
  hwx5_3 : ∀ i : grid5.Coords, EltTy.bits .f32 = 32 ∨ (Rect.block (s := S1x64) S1x64.size (cc5_transform_3 i) (hinb5_3 i)).WholeWords (EltTy.packing .f32)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S5000x64.size a ≤ S50000x64.size a
  hwx5_4 : ∀ i : grid5.Coords, EltTy.bits .f32 = 32 ∨ (Rect.block (s := S50000x64) S5000x64.size (cc5_transform_4 i) (hinb5_4 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x64.size a ≤ S50000x64.size a
  hwx6_0 : ∀ i : grid6.Coords, EltTy.bits .f32 = 32 ∨ (Rect.block (s := S50000x64) S5000x64.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S64x1.size a ≤ S64x1.size a
  hwx6_1 : ∀ i : grid6.Coords, EltTy.bits .f32 = 32 ∨ (Rect.block (s := S64x1) S64x1.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x1.size a ≤ S1x1.size a
  hwx6_2 : ∀ i : grid6.Coords, EltTy.bits .f32 = 32 ∨ (Rect.block (s := S1x1) S1x1.size (cc6_transform_2 i) (hinb6_2 i)).WholeWords (EltTy.packing .f32)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S5000x1.size a ≤ S50000x1.size a
  hwx6_3 : ∀ i : grid6.Coords, EltTy.bits .f32 = 32 ∨ (Rect.block (s := S50000x1) S5000x1.size (cc6_transform_3 i) (hinb6_3 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S5000x64_S64x1_S5000x1_1_0_0_1_n_n : DotDims S5000x64 S64x1 S5000x1 where
  lhsContracting := [1]
  rhsContracting := [0]
  lhsNonContracting := [0]
  rhsNonContracting := [1]
  lhsBatch := []
  rhsBatch := []
  wf := dot_S5000x64_S64x1_S5000x1_1_0_0_1_n_n_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v33) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v34) S5000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v47) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v34) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v49) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v48) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v50) S5000x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v50) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S64x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v52) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v53) S5000x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v66) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v53) S5000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v68) S5000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v67) S1x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v69) S5000x64.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v69) S5000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg6) S64x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v71) S1x64.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v72) S5000x64.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev win5_0 : Pipeline.Window sig grid5 :=
  Pipeline.Window.ofSpec (Memref.whole main_v85) S5000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v72) S5000x64.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v87) S5000x1.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v86) S1x64.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v88) S5000x64.size cc5_transform_4 reads5_4 true false 2 stage5_4 sem5_4
    hrank5 hreads5_4 hinb5_4 nbuf5_4 (Memref.isWhole_whole _) hwx5_4 hstage5_4

abbrev win5 : Fin 5 → Pipeline.Window sig grid5 := fun | 0 => win5_0 | 1 => win5_1 | 2 => win5_2 | 3 => win5_3 | 4 => win5_4 | ⟨_ + 5, h⟩ => absurd h (Nat.not_lt.2 (Nat.le_add_left _ _))
abbrev spec5 : Fin 5 → Pipeline.WinSpec sig grid5.rank := fun w => (win5 w).toWinSpec

abbrev win6_0 : Pipeline.Window sig grid6 :=
  Pipeline.Window.ofSpec (Memref.whole main_v88) S5000x64.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg8) S64x1.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v89) S1x1.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v90) S5000x1.size cc6_transform_3 reads6_3 true false 2 stage6_3 sem6_3
    hrank6 hreads6_3 hinb6_3 nbuf6_3 (Memref.isWhole_whole _) hwx6_3 hstage6_3

abbrev win6 : Fin 4 → Pipeline.Window sig grid6 := fun | 0 => win6_0 | 1 => win6_1 | 2 => win6_2 | 3 => win6_3 | ⟨_ + 4, h⟩ => absurd h (Nat.not_lt.2 (Nat.le_add_left _ _))
abbrev spec6 : Fin 4 → Pipeline.WinSpec sig grid6.rank := fun w => (win6 w).toWinSpec

class Facts : Prop extends Facts₀ where

variable [Facts]
-- ==== ReferenceIdeal.lean ====
abbrev S50000x64 : Shape := ⟨2, ![50000, 64]⟩
abbrev S2x800000 : Shape := ⟨2, ![2, 800000]⟩
abbrev S64x64 : Shape := ⟨2, ![64, 64]⟩
abbrev S64 : Shape := ⟨1, ![64]⟩
abbrev S64x1 : Shape := ⟨2, ![64, 1]⟩
abbrev S1 : Shape := ⟨1, ![1]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S800000x64 : Shape := ⟨2, ![800000, 64]⟩
abbrev S50000x1 : Shape := ⟨2, ![50000, 1]⟩
abbrev S1x64 : Shape := ⟨2, ![1, 64]⟩
abbrev S1x1 : Shape := ⟨2, ![1, 1]⟩

abbrev nBuf : Space → Nat
  | .hbm => 176
  | .vmem => 0
  | .smem => 0
  | _ => 0

abbrev hbmTy0_0 (i : Nat) : BufTy := match i % 128 with
  | 0 => ⟨S50000x64, .f32⟩
  | 1 => ⟨S2x800000, .i32⟩
  | 2 => ⟨S64x64, .f32⟩
  | 3 => ⟨S64, .f32⟩
  | 4 => ⟨S64x64, .f32⟩
  | 5 => ⟨S64, .f32⟩
  | 6 => ⟨S64x64, .f32⟩
  | 7 => ⟨S64, .f32⟩
  | 8 => ⟨S64x1, .f32⟩
  | 9 => ⟨S1, .f32⟩
  | 10 => ⟨S1x800000, .i32⟩
  | 11 => ⟨S800000, .i32⟩
  | 12 => ⟨S1x800000, .i32⟩
  | 13 => ⟨S800000, .i32⟩
  | 14 => ⟨S_, .f32⟩
  | 15 => ⟨S50000, .f32⟩
  | 16 => ⟨S_, .i32⟩
  | 17 => ⟨S800000, .i32⟩
  | 18 => ⟨S800000, .i1⟩
  | 19 => ⟨S_, .i32⟩
  | 20 => ⟨S800000, .i32⟩
  | 21 => ⟨S800000, .i32⟩
  | 22 => ⟨S800000, .i32⟩
  | 23 => ⟨S800000x1, .i32⟩
  | 24 => ⟨S_, .f32⟩
  | 25 => ⟨S800000, .f32⟩
  | 26 => ⟨S50000, .f32⟩
  | 27 => ⟨S_, .f32⟩
  | 28 => ⟨S50000, .f32⟩
  | 29 => ⟨S50000, .f32⟩
  | 30 => ⟨S50000, .f32⟩
  | 31 => ⟨S50000x64, .f32⟩
  | 32 => ⟨S_, .i32⟩
  | 33 => ⟨S800000, .i32⟩
  | 34 => ⟨S800000, .i1⟩
  | 35 => ⟨S_, .i32⟩
  | 36 => ⟨S800000, .i32⟩
  | 37 => ⟨S800000, .i32⟩
  | 38 => ⟨S800000, .i32⟩
  | 39 => ⟨S800000x1, .i32⟩
  | 40 => ⟨S800000, .f32⟩
  | 41 => ⟨S_, .i32⟩
  | 42 => ⟨S800000, .i32⟩
  | 43 => ⟨S800000, .i1⟩
  | 44 => ⟨S_, .i32⟩
  | 45 => ⟨S800000, .i32⟩
  | 46 => ⟨S800000, .i32⟩
  | 47 => ⟨S800000, .i32⟩
  | 48 => ⟨S800000x1, .i32⟩
  | 49 => ⟨S800000, .f32⟩
  | 50 => ⟨S800000, .f32⟩
  | 51 => ⟨S800000x1, .f32⟩
  | 52 => ⟨S_, .i32⟩
  | 53 => ⟨S800000, .i32⟩
  | 54 => ⟨S800000, .i1⟩
  | 55 => ⟨S_, .i32⟩
  | 56 => ⟨S800000, .i32⟩
  | 57 => ⟨S800000, .i32⟩
  | 58 => ⟨S800000, .i32⟩
  | 59 => ⟨S800000x1, .i32⟩
  | 60 => ⟨S800000x64, .f32⟩
  | 61 => ⟨S800000x64, .f32⟩
  | 62 => ⟨S800000x64, .f32⟩
  | 63 => ⟨S_, .f32⟩
  | 64 => ⟨S50000x64, .f32⟩
  | 65 => ⟨S800000x1, .i32⟩
  | 66 => ⟨S50000x64, .f32⟩
  | 67 => ⟨S50000, .f32⟩
  | 68 => ⟨S50000x1, .f32⟩
  | 69 => ⟨S50000x64, .f32⟩
  | 70 => ⟨S50000x64, .f32⟩
  | 71 => ⟨S50000x64, .f32⟩
  | 72 => ⟨S1x64, .f32⟩
  | 73 => ⟨S50000x64, .f32⟩
  | 74 => ⟨S50000x64, .f32⟩
  | 75 => ⟨S_, .f32⟩
  | 76 => ⟨S50000x64, .f32⟩
  | 77 => ⟨S50000x64, .f32⟩
  | 78 => ⟨S50000x64, .f32⟩
  | 79 => ⟨S_, .i32⟩
  | 80 => ⟨S800000, .i32⟩
  | 81 => ⟨S800000, .i1⟩
  | 82 => ⟨S_, .i32⟩
  | 83 => ⟨S800000, .i32⟩
  | 84 => ⟨S800000, .i32⟩
  | 85 => ⟨S800000, .i32⟩
  | 86 => ⟨S800000x1, .i32⟩
  | 87 => ⟨S800000, .f32⟩
  | 88 => ⟨S_, .i32⟩
  | 89 => ⟨S800000, .i32⟩
  | 90 => ⟨S800000, .i1⟩
  | 91 => ⟨S_, .i32⟩
  | 92 => ⟨S800000, .i32⟩
  | 93 => ⟨S800000, .i32⟩
  | 94 => ⟨S800000, .i32⟩
  | 95 => ⟨S800000x1, .i32⟩
  | 96 => ⟨S800000, .f32⟩
  | 97 => ⟨S800000, .f32⟩
  | 98 => ⟨S800000x1, .f32⟩
  | 99 => ⟨S_, .i32⟩
  | 100 => ⟨S800000, .i32⟩
  | 101 => ⟨S800000, .i1⟩
  | 102 => ⟨S_, .i32⟩
  | 103 => ⟨S800000, .i32⟩
  | 104 => ⟨S800000, .i32⟩
  | 105 => ⟨S800000, .i32⟩
  | 106 => ⟨S800000x1, .i32⟩
  | 107 => ⟨S800000x64, .f32⟩
  | 108 => ⟨S800000x64, .f32⟩
  | 109 => ⟨S800000x64, .f32⟩
  | 110 => ⟨S_, .f32⟩
  | 111 => ⟨S50000x64, .f32⟩
  | 112 => ⟨S800000x1, .i32⟩
  | 113 => ⟨S50000x64, .f32⟩
  | 114 => ⟨S50000, .f32⟩
  | 115 => ⟨S50000x1, .f32⟩
  | 116 => ⟨S50000x64, .f32⟩
  | 117 => ⟨S50000x64, .f32⟩
  | 118 => ⟨S50000x64, .f32⟩
  | 119 => ⟨S1x64, .f32⟩
  | 120 => ⟨S50000x64, .f32⟩
  | 121 => ⟨S50000x64, .f32⟩
  | 122 => ⟨S_, .f32⟩
  | 123 => ⟨S50000x64, .f32⟩
  | 124 => ⟨S50000x64, .f32⟩
  | 125 => ⟨S50000x64, .f32⟩
  | 126 => ⟨S_, .i32⟩
  | 127 => ⟨S800000, .i32⟩
  | _ => ⟨S50000x64, .f32⟩

abbrev hbmTy0_1 (i : Nat) : BufTy := match i % 128 with
  | 0 => ⟨S800000, .i1⟩
  | 1 => ⟨S_, .i32⟩
  | 2 => ⟨S800000, .i32⟩
  | 3 => ⟨S800000, .i32⟩
  | 4 => ⟨S800000, .i32⟩
  | 5 => ⟨S800000x1, .i32⟩
  | 6 => ⟨S800000, .f32⟩
  | 7 => ⟨S_, .i32⟩
  | 8 => ⟨S800000, .i32⟩
  | 9 => ⟨S800000, .i1⟩
  | 10 => ⟨S_, .i32⟩
  | 11 => ⟨S800000, .i32⟩
  | 12 => ⟨S800000, .i32⟩
  | 13 => ⟨S800000, .i32⟩
  | 14 => ⟨S800000x1, .i32⟩
  | 15 => ⟨S800000, .f32⟩
  | 16 => ⟨S800000, .f32⟩
  | 17 => ⟨S800000x1, .f32⟩
  | 18 => ⟨S_, .i32⟩
  | 19 => ⟨S800000, .i32⟩
  | 20 => ⟨S800000, .i1⟩
  | 21 => ⟨S_, .i32⟩
  | 22 => ⟨S800000, .i32⟩
  | 23 => ⟨S800000, .i32⟩
  | 24 => ⟨S800000, .i32⟩
  | 25 => ⟨S800000x1, .i32⟩
  | 26 => ⟨S800000x64, .f32⟩
  | 27 => ⟨S800000x64, .f32⟩
  | 28 => ⟨S800000x64, .f32⟩
  | 29 => ⟨S_, .f32⟩
  | 30 => ⟨S50000x64, .f32⟩
  | 31 => ⟨S800000x1, .i32⟩
  | 32 => ⟨S50000x64, .f32⟩
  | 33 => ⟨S50000, .f32⟩
  | 34 => ⟨S50000x1, .f32⟩
  | 35 => ⟨S50000x64, .f32⟩
  | 36 => ⟨S50000x64, .f32⟩
  | 37 => ⟨S50000x64, .f32⟩
  | 38 => ⟨S1x64, .f32⟩
  | 39 => ⟨S50000x64, .f32⟩
  | 40 => ⟨S50000x64, .f32⟩
  | 41 => ⟨S_, .f32⟩
  | 42 => ⟨S50000x64, .f32⟩
  | 43 => ⟨S50000x64, .f32⟩
  | 44 => ⟨S50000x1, .f32⟩
  | 45 => ⟨S1x1, .f32⟩
  | 46 => ⟨S50000x1, .f32⟩
  | 47 => ⟨S50000x1, .f32⟩
  | _ => ⟨S50000x64, .f32⟩

abbrev hbmTy (i : Nat) : BufTy := match i / 128 with
  | 0 => hbmTy0_0 i
  | 1 => hbmTy0_1 i
  | _ => ⟨S50000x64, .f32⟩

abbrev bufTy : (tb : Table) → Fin (tcTables nBuf tb) → BufTy
  | .hbm, ⟨i, _⟩ => hbmTy i
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_c : Ref sig .tc := ⟨.hbm, 16, rfl⟩
abbrev main_v5 : Ref sig .tc := ⟨.hbm, 17, rfl⟩
abbrev main_v6 : Ref sig .tc := ⟨.hbm, 18, rfl⟩
abbrev main_c_0 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_1 : Ref sig .tc := ⟨.hbm, 24, rfl⟩
abbrev main_v11 : Ref sig .tc := ⟨.hbm, 25, rfl⟩
abbrev main_v12 : Ref sig .tc := ⟨.hbm, 26, rfl⟩
abbrev main_cst_2 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_c_3 : Ref sig .tc := ⟨.hbm, 32, rfl⟩
abbrev main_v17 : Ref sig .tc := ⟨.hbm, 33, rfl⟩
abbrev main_v18 : Ref sig .tc := ⟨.hbm, 34, rfl⟩
abbrev main_c_4 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_c_6 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_c_8 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_cst_9 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_call0_cst : Ref sig .tc := ⟨.hbm, 75, rfl⟩
abbrev main_call0_v0 : Ref sig .tc := ⟨.hbm, 76, rfl⟩
abbrev main_v53 : Ref sig .tc := ⟨.hbm, 77, rfl⟩
abbrev main_v54 : Ref sig .tc := ⟨.hbm, 78, rfl⟩
abbrev main_c_10 : Ref sig .tc := ⟨.hbm, 79, rfl⟩
abbrev main_v55 : Ref sig .tc := ⟨.hbm, 80, rfl⟩
abbrev main_v56 : Ref sig .tc := ⟨.hbm, 81, rfl⟩
abbrev main_c_11 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_c_12 : Ref sig .tc := ⟨.hbm, 88, rfl⟩
abbrev main_v62 : Ref sig .tc := ⟨.hbm, 89, rfl⟩
abbrev main_v63 : Ref sig .tc := ⟨.hbm, 90, rfl⟩
abbrev main_c_13 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_c_14 : Ref sig .tc := ⟨.hbm, 99, rfl⟩
abbrev main_v71 : Ref sig .tc := ⟨.hbm, 100, rfl⟩
abbrev main_v72 : Ref sig .tc := ⟨.hbm, 101, rfl⟩
abbrev main_c_15 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_cst_16 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_call1_cst : Ref sig .tc := ⟨.hbm, 122, rfl⟩
abbrev main_call1_v0 : Ref sig .tc := ⟨.hbm, 123, rfl⟩
abbrev main_v91 : Ref sig .tc := ⟨.hbm, 124, rfl⟩
abbrev main_v92 : Ref sig .tc := ⟨.hbm, 125, rfl⟩
abbrev main_c_17 : Ref sig .tc := ⟨.hbm, 126, rfl⟩
abbrev main_v93 : Ref sig .tc := ⟨.hbm, 127, rfl⟩
abbrev main_v94 : Ref sig .tc := ⟨.hbm, 128, rfl⟩
abbrev main_c_18 : Ref sig .tc := ⟨.hbm, 129, rfl⟩
abbrev main_v95 : Ref sig .tc := ⟨.hbm, 130, rfl⟩
abbrev main_v96 : Ref sig .tc := ⟨.hbm, 131, rfl⟩
abbrev main_v97 : Ref sig .tc := ⟨.hbm, 132, rfl⟩
abbrev main_v98 : Ref sig .tc := ⟨.hbm, 133, rfl⟩
abbrev main_v99 : Ref sig .tc := ⟨.hbm, 134, rfl⟩
abbrev main_c_19 : Ref sig .tc := ⟨.hbm, 135, rfl⟩
abbrev main_v100 : Ref sig .tc := ⟨.hbm, 136, rfl⟩
abbrev main_v101 : Ref sig .tc := ⟨.hbm, 137, rfl⟩
abbrev main_c_20 : Ref sig .tc := ⟨.hbm, 138, rfl⟩
abbrev main_v102 : Ref sig .tc := ⟨.hbm, 139, rfl⟩
abbrev main_v103 : Ref sig .tc := ⟨.hbm, 140, rfl⟩
abbrev main_v104 : Ref sig .tc := ⟨.hbm, 141, rfl⟩
abbrev main_v105 : Ref sig .tc := ⟨.hbm, 142, rfl⟩
abbrev main_v106 : Ref sig .tc := ⟨.hbm, 143, rfl⟩
abbrev main_v107 : Ref sig .tc := ⟨.hbm, 144, rfl⟩
abbrev main_v108 : Ref sig .tc := ⟨.hbm, 145, rfl⟩
abbrev main_c_21 : Ref sig .tc := ⟨.hbm, 146, rfl⟩
abbrev main_v109 : Ref sig .tc := ⟨.hbm, 147, rfl⟩
abbrev main_v110 : Ref sig .tc := ⟨.hbm, 148, rfl⟩
abbrev main_c_22 : Ref sig .tc := ⟨.hbm, 149, rfl⟩
abbrev main_v111 : Ref sig .tc := ⟨.hbm, 150, rfl⟩
abbrev main_v112 : Ref sig .tc := ⟨.hbm, 151, rfl⟩
abbrev main_v113 : Ref sig .tc := ⟨.hbm, 152, rfl⟩
abbrev main_v114 : Ref sig .tc := ⟨.hbm, 153, rfl⟩
abbrev main_v115 : Ref sig .tc := ⟨.hbm, 154, rfl⟩
abbrev main_v116 : Ref sig .tc := ⟨.hbm, 155, rfl⟩
abbrev main_v117 : Ref sig .tc := ⟨.hbm, 156, rfl⟩
abbrev main_cst_23 : Ref sig .tc := ⟨.hbm, 157, rfl⟩
abbrev main_v118 : Ref sig .tc := ⟨.hbm, 158, rfl⟩
abbrev main_v119 : Ref sig .tc := ⟨.hbm, 159, rfl⟩
abbrev main_v120 : Ref sig .tc := ⟨.hbm, 160, rfl⟩
abbrev main_v121 : Ref sig .tc := ⟨.hbm, 161, rfl⟩
abbrev main_v122 : Ref sig .tc := ⟨.hbm, 162, rfl⟩
abbrev main_v123 : Ref sig .tc := ⟨.hbm, 163, rfl⟩
abbrev main_v124 : Ref sig .tc := ⟨.hbm, 164, rfl⟩
abbrev main_v125 : Ref sig .tc := ⟨.hbm, 165, rfl⟩
abbrev main_v126 : Ref sig .tc := ⟨.hbm, 166, rfl⟩
abbrev main_v127 : Ref sig .tc := ⟨.hbm, 167, rfl⟩
abbrev main_v128 : Ref sig .tc := ⟨.hbm, 168, rfl⟩
abbrev main_call2_cst : Ref sig .tc := ⟨.hbm, 169, rfl⟩
abbrev main_call2_v0 : Ref sig .tc := ⟨.hbm, 170, rfl⟩
abbrev main_v129 : Ref sig .tc := ⟨.hbm, 171, rfl⟩
abbrev main_v130 : Ref sig .tc := ⟨.hbm, 172, rfl⟩
abbrev main_v131 : Ref sig .tc := ⟨.hbm, 173, rfl⟩
abbrev main_v132 : Ref sig .tc := ⟨.hbm, 174, rfl⟩
abbrev main_v133 : Ref sig .tc := ⟨.hbm, 175, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S50000 : S_.BroadcastsInDim S50000 (![] : Fin 0 → Fin S50000.rank)
  bcast_S_S800000 : S_.BroadcastsInDim S800000 (![] : Fin 0 → Fin S800000.rank)
  bcast_S800000_S800000x1_0 : S800000.BroadcastsInDim S800000x1 (![0] : Fin 1 → Fin S800000x1.rank)
  bcast_S800000x1_S800000x64_0_1 : S800000x1.BroadcastsInDim S800000x64 (![0, 1] : Fin 2 → Fin S800000x64.rank)
  bcast_S_S50000x64 : S_.BroadcastsInDim S50000x64 (![] : Fin 0 → Fin S50000x64.rank)
  bcast_S50000_S50000x1_0 : S50000.BroadcastsInDim S50000x1 (![0] : Fin 1 → Fin S50000x1.rank)
  bcast_S50000x1_S50000x64_0_1 : S50000x1.BroadcastsInDim S50000x64 (![0, 1] : Fin 2 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S1_S1x1_1 : S1.BroadcastsInDim S1x1 (![1] : Fin 1 → Fin S1x1.rank)
  bcast_S1x1_S50000x1_0_1 : S1x1.BroadcastsInDim S50000x1 (![0, 1] : Fin 2 → Fin S50000x1.rank)
  scatter_S50000_S800000x1_S800000_n_0_0_1_wf : ScatterDims.WF S50000 S800000x1 S800000 [] [0] [0] 1
  dot_S50000x64_S64x64_S50000x64_1_0_0_1_n_n_wf : DotDims.WF S50000x64 S64x64 S50000x64 [1] [0] [0] [1] [] []
  gather_S50000_S800000x1_S800000_n_0_n_n_0_1_1_wf : GatherDims.WF S50000 S800000x1 S800000 [] [0] [] [0] [] 1 ![1]
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S50000x64_S64x1_S50000x1_1_0_0_1_n_n_wf : DotDims.WF S50000x64 S64x1 S50000x1 [1] [0] [0] [1] [] []

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S50000x64_S64x1_S50000x1_1_0_0_1_n_n : DotDims S50000x64 S64x1 S50000x1 where
  lhsContracting := [1]
  rhsContracting := [0]
  lhsNonContracting := [0]
  rhsNonContracting := [1]
  lhsBatch := []
  rhsBatch := []
  wf := dot_S50000x64_S64x1_S50000x1_1_0_0_1_n_n_wf

class Facts : Prop extends Facts₀ where

variable [Facts]
-- ==== Proof.KernelRun.lean ====
/-
  The idealized kernel's run with its result named.

  The program is seven kernel launches among stretches of host operations. Its run ends with every unscoped buffer of
  each core at the last boundary's contents — the fold of the host stretches and of the launches' write-backs from the
  launch memory. Read at the result buffer this names the result; read at each argument buffer it gives the argument
  back. The run itself is the library's launch theorem for a program of several regions over the generated segments.
-/
import proofs.«112631_j35502199669066_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates without a fault, the result buffer at the last boundary's contents and
    the arguments as launched. -/
theorem run : θ_run defs (onTc (τ := τ) (main (F := F))) ⟨m, fun _ => 0, ρ⟩ (fun r => ∀ c : Dev nD,
      r.2.mem ((c.tc : Thread nD τ).loc main_v90) = W14 m ρ c (Proc.devRef .tc main_v90)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W14 m ρ c b)
    (hfin := fun c s' => by
      iintro ⟨⟨Hh, -⟩, HSI⟩
      unfold StableHlo.held
      imodintro
      iapply (pointsTo_read_all (Pipeline.ucRefs τ sig) (fun b => (((c : Thread nD τ)).1, b)) (W14 m ρ c) s')
      isplitl [Hh] <;> iassumption)
    (hQ := fun s h c =>
      ⟨h c _ (mem_uc main_v90 (by decide)),
       (h c _ (mem_uc main_arg0 (by decide))).trans (W14_main_arg0 m ρ c),
       (h c _ (mem_uc main_arg1 (by decide))).trans (W14_main_arg1 m ρ c),
       (h c _ (mem_uc main_arg2 (by decide))).trans (W14_main_arg2 m ρ c),
       (h c _ (mem_uc main_arg3 (by decide))).trans (W14_main_arg3 m ρ c),
       (h c _ (mem_uc main_arg4 (by decide))).trans (W14_main_arg4 m ρ c),
       (h c _ (mem_uc main_arg5 (by decide))).trans (W14_main_arg5 m ρ c),
       (h c _ (mem_uc main_arg6 (by decide))).trans (W14_main_arg6 m ρ c),
       (h c _ (mem_uc main_arg7 (by decide))).trans (W14_main_arg7 m ρ c),
       (h c _ (mem_uc main_arg8 (by decide))).trans (W14_main_arg8 m ρ c),
       (h c _ (mem_uc main_arg9 (by decide))).trans (W14_main_arg9 m ρ c)⟩)

end Cert.KernelIdeal.RunValue

end
-- ==== Proof.LibPlainProduct.lean ====
/-
  The product of two arrays of extended reals, rows by columns, and the two operations that compute it.

  For an `M × K` array `x` and a `K × N` array `w`, `rowsByCols x w` is the `M × N` array whose entry `(r, c)` is
  the sum over `k` of `x (r, k) · w (k, c)`. On the extended reals addition is commutative and associative, so the
  sum over the finite index set is well defined whatever its order; nothing here needs the entries to be finite.

  * `matmul_zero_plain`: a matrix unit's product into the zero accumulator, with the plain dimension numbers
    (`DotDims.plain`: contract the left operand's columns with the right operand's rows), is `rowsByCols`.
  * `dotGeneral_plain`: the host's general dot product with the same dimension numbers is `rowsByCols` too.
  * `rowsByCols_rows`: the rows of a product depend on the same rows of the left operand only — if `xb` holds rows
    `e r` of `x`, then `rowsByCols xb w` holds rows `e r` of `rowsByCols x w`. This is what lets a product computed
    one block of rows at a time be read as the whole product.
-/
import Idealize.ShloMosaic.Lib.ValueIdx
import Idealize.ShloMosaic.PureOps.Ideal.Laws

noncomputable section

open scoped BigOperators

namespace Idealize.ShloMosaic.PlainProduct

open Idealize.ShloMosaic Idealize.ShloMosaic.ValueIdx

variable {φ₁ φ₂ : FTy} {M K N : Nat}

/-- Rows by columns: entry `(r, c)` is `∑ k, x (r, k) · w (k, c)`. -/
def rowsByCols (x : FVec Ideal ⟨2, ![M, K]⟩ φ₁) (w : FVec Ideal ⟨2, ![K, N]⟩ φ₂) : FVec Ideal ⟨2, ![M, N]⟩ .f32 :=
  fun i => ∑ k : Fin K, x (ix2 (n0 := M) (n1 := K) (i 0) k) * w (ix2 (n0 := K) (n1 := N) k (i 1))

theorem rowsByCols_apply (x : FVec Ideal ⟨2, ![M, K]⟩ φ₁) (w : FVec Ideal ⟨2, ![K, N]⟩ φ₂) (i : (⟨2, ![M, N]⟩ : Shape).Idx) :
    rowsByCols x w i = ∑ k : Fin K, x (ix2 (n0 := M) (n1 := K) (i 0) k) * w (ix2 (n0 := K) (n1 := N) k (i 1)) := rfl

/-- With the plain dimension numbers the left operand is read at (row of the result, contraction position). -/
theorem plain_lhsIdx (j : (⟨2, ![M, N]⟩ : Shape).Idx) (k : Fin K) :
    (DotDims.plain M K N).lhsIdx j ((contrEquiv1 (DotDims.plain M K N) K rfl rfl).symm k) = ix2 (n0 := M) (n1 := K) (j 0) k := by
  funext a; apply Fin.ext
  match a with
  | ⟨0, _⟩ => rfl
  | ⟨1, _⟩ => exact ((DotDims.plain M K N).lhsIdx_val_of_single rfl j _).trans (contrEquiv1_symm_val _ K rfl rfl k)

/-- … and the right operand at (contraction position, column of the result). -/
theorem plain_rhsIdx (j : (⟨2, ![M, N]⟩ : Shape).Idx) (k : Fin K) :
    (DotDims.plain M K N).rhsIdx j ((contrEquiv1 (DotDims.plain M K N) K rfl rfl).symm k) = ix2 (n0 := K) (n1 := N) k (j 1) := by
  funext a; apply Fin.ext
  match a with
  | ⟨0, _⟩ => exact ((DotDims.plain M K N).rhsIdx_val_of_single rfl j _).trans (contrEquiv1_symm_val _ K rfl rfl k)
  | ⟨1, _⟩ => rfl

/-- The sum over the contraction index of the operands' products, read at the operands' indices, is the sum over
    `k` of `x (r, k) · w (k, c)`. -/
theorem sum_plain (x : FVec Ideal ⟨2, ![M, K]⟩ φ₁) (w : FVec Ideal ⟨2, ![K, N]⟩ φ₂) (j : (⟨2, ![M, N]⟩ : Shape).Idx) :
    (∑ q : (DotDims.plain M K N).contr.Idx, x ((DotDims.plain M K N).lhsIdx j q) * w ((DotDims.plain M K N).rhsIdx j q))
      = rowsByCols x w j :=
  (Equiv.sum_comp (contrEquiv1 (DotDims.plain M K N) K rfl rfl).symm
      (fun q => x ((DotDims.plain M K N).lhsIdx j q) * w ((DotDims.plain M K N).rhsIdx j q))).symm.trans
    (Finset.sum_congr rfl fun k _ =>
      congrArg₂ (fun a b => x a * w b) (plain_lhsIdx j k) (plain_rhsIdx j k))

/-- A matrix unit's product into the zero accumulator is the product rows by columns. -/
theorem matmul_zero_plain (prec : Option ContractPrecision) (x : FVec Ideal ⟨2, ![M, K]⟩ φ₁) (w : FVec Ideal ⟨2, ![K, N]⟩ φ₂) :
    FloatOps.matmul (DotDims.plain M K N) prec x w (constant ⟨2, ![M, N]⟩ .f32 0x00000000#32) = rowsByCols x w :=
  funext fun j => (Ideal.matmul_constant_zero_apply (DotDims.plain M K N) prec x w j).trans (sum_plain x w j)

/-- The host's general dot product with the same dimension numbers is the same product, whatever its schedule. -/
theorem dotGeneral_plain (prec : Option ContractPrecision) (sched : HostSchedule) (x : FVec Ideal ⟨2, ![M, K]⟩ φ₁)
    (w : FVec Ideal ⟨2, ![K, N]⟩ φ₂) :
    FloatOps.dotGeneral (DotDims.plain M K N) prec sched x w = rowsByCols x w :=
  funext fun j => (Ideal.dotGeneral_apply (DotDims.plain M K N) prec sched x w j).trans (sum_plain x w j)

/-- Rows `e r` of a product are the product of rows `e r` of the left operand: if `xb (r, k) = x (e r, k)` then
    `(xb · w) (r, c) = (x · w) (e r, c)`. -/
theorem rowsByCols_rows {B : Nat} (x : FVec Ideal ⟨2, ![M, K]⟩ φ₁) (w : FVec Ideal ⟨2, ![K, N]⟩ φ₂)
    (xb : FVec Ideal ⟨2, ![B, K]⟩ φ₁) (e : Fin B → Fin M)
    (hxb : ∀ (r : Fin B) (k : Fin K), xb (ix2 (n0 := B) (n1 := K) r k) = x (ix2 (n0 := M) (n1 := K) (e r) k))
    (j : (⟨2, ![B, N]⟩ : Shape).Idx) :
    rowsByCols xb w j = rowsByCols x w (ix2 (n0 := M) (n1 := N) (e (j 0)) (j 1)) :=
  Finset.sum_congr rfl fun k _ =>
    congrArg (fun a => a * w (ix2 (n0 := K) (n1 := N) k (j 1))) (hxb (j 0) k)

end Idealize.ShloMosaic.PlainProduct

end
-- ==== Proof.LibLayerMaps.lean ====
/-
  The two maps a graph-convolution layer is made of, on arrays of extended reals, and how each is read one block of
  rows at a time.

  * `denseBias x w b`: entry `(r, d)` is `∑ k, x (r, k) · w (k, d) + b (0, d)` — the rows of `x` times the columns
    of `w`, plus a bias row.
  * `selfLoop a h s b`: entry `(r, d)` is `max (a (r, d) + h (r, d) · s (r, 0) + b (0, d)) 0` — the neighbours' sum
    `a`, the node's own feature scaled by its column entry `s (r, 0)`, the bias row, then the positive part.

  Row `r` of either result depends on row `r` of the row-indexed operands only, so a block of rows of the operands
  gives the same block of rows of the result (`denseBias_rows`, `selfLoop_rows`). Nothing here needs finiteness:
  only sums, products and `max` of extended reals are formed, never rearranged.
-/
import Idealize.ShloMosaic.Lib.ValueIdx
import Idealize.ShloMosaic.PureOps.Ideal.Laws
import proofs.«112631_j35502199669066_1_alg».proof.Proof.LibPlainProduct

noncomputable section

open scoped BigOperators

namespace Cert.Gcn

open Idealize.ShloMosaic Idealize.ShloMosaic.ValueIdx Idealize.ShloMosaic.PlainProduct

variable {N B K M : Nat}

/-- Rows by columns plus a bias row: entry `(r, d)` is `∑ k, x (r, k) · w (k, d) + b (0, d)`. -/
def denseBias (x : FVec Ideal ⟨2, ![N, K]⟩ .f32) (w : FVec Ideal ⟨2, ![K, M]⟩ .f32) (b : FVec Ideal ⟨2, ![1, M]⟩ .f32) :
    FVec Ideal ⟨2, ![N, M]⟩ .f32 :=
  fun i => rowsByCols x w i + b (ix2 (0 : Fin 1) (i 1))

/-- The layer's pointwise part: `max (a + h · s + b) 0` with `s` a column and `b` a row. -/
def selfLoop (a h : FVec Ideal ⟨2, ![N, M]⟩ .f32) (s : FVec Ideal ⟨2, ![N, 1]⟩ .f32) (b : FVec Ideal ⟨2, ![1, M]⟩ .f32) :
    FVec Ideal ⟨2, ![N, M]⟩ .f32 :=
  fun i => max ((a i + h i * s (ix2 (i 0) (0 : Fin 1))) + b (ix2 (0 : Fin 1) (i 1))) (Ideal.ofBits .f32 0x00000000#32)

/-- Rows `e r` of `denseBias x w b` are `denseBias` of rows `e r` of `x`. -/
theorem denseBias_rows (x : FVec Ideal ⟨2, ![N, K]⟩ .f32) (w : FVec Ideal ⟨2, ![K, M]⟩ .f32) (b : FVec Ideal ⟨2, ![1, M]⟩ .f32)
    (xb : FVec Ideal ⟨2, ![B, K]⟩ .f32) (e : Fin B → Fin N)
    (hxb : ∀ (r : Fin B) (k : Fin K), xb (ix2 r k) = x (ix2 (e r) k)) (j : (⟨2, ![B, M]⟩ : Shape).Idx) :
    denseBias xb w b j = denseBias x w b (ix2 (e (j 0)) (j 1)) :=
  congrArg (· + b (ix2 (0 : Fin 1) (j 1))) (rowsByCols_rows x w xb e hxb j)

/-- Rows `e r` of `selfLoop a h s b` are `selfLoop` of rows `e r` of `a`, `h` and `s`. -/
theorem selfLoop_rows (a h : FVec Ideal ⟨2, ![N, M]⟩ .f32) (s : FVec Ideal ⟨2, ![N, 1]⟩ .f32) (b : FVec Ideal ⟨2, ![1, M]⟩ .f32)
    (ab hb : FVec Ideal ⟨2, ![B, M]⟩ .f32) (sb : FVec Ideal ⟨2, ![B, 1]⟩ .f32) (e : Fin B → Fin N)
    (hab : ∀ (r : Fin B) (d : Fin M), ab (ix2 r d) = a (ix2 (e r) d))
    (hhb : ∀ (r : Fin B) (d : Fin M), hb (ix2 r d) = h (ix2 (e r) d))
    (hsb : ∀ (r : Fin B), sb (ix2 r (0 : Fin 1)) = s (ix2 (e r) (0 : Fin 1))) (j : (⟨2, ![B, M]⟩ : Shape).Idx) :
    selfLoop ab hb sb b j = selfLoop a h s b (ix2 (e (j 0)) (j 1)) := by
  obtain ⟨r, d, rfl⟩ : ∃ (r : Fin B) (d : Fin M), j = ix2 r d := ⟨j 0, j 1, eq_ix2 j⟩
  show max ((ab (ix2 r d) + hb (ix2 r d) * sb (ix2 r (0 : Fin 1))) + b (ix2 (0 : Fin 1) d)) _
      = max ((a (ix2 (e r) d) + h (ix2 (e r) d) * s (ix2 (e r) (0 : Fin 1))) + b (ix2 (0 : Fin 1) d)) _
  rw [hab, hhb, hsb]

end Cert.Gcn

end
-- ==== Proof.LibLayout.lean ====
/-
  Layout operations read at coordinates, for shapes the library's own collection does not cover:
  a vector turned into a column, a column repeated along its unit axis, and the two reshapes between a
  three-axis array and the two-axis array whose rows are the pairs of its first two coordinates.
  Each lemma names the operand's index by coordinates, so that it applies by unification.
-/
import Idealize.ShloMosaic.Lib.Pipeline.Value
import Idealize.ShloMosaic.Lib.ValueIdx

namespace Cert.LibLayout

open Idealize.ShloMosaic Idealize.ShloMosaic.ValueIdx

variable {α : Type}

/-- A vector of length `a` cast to a column `[a, 1]` reads, at `(i, u)`, the vector at `i`: the row-major
    position of `(i, u)` is `i · 1 + u = i`, the unit coordinate being zero. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

/-- A column `[a, 1]` broadcast to `[a, b]` reads, at `(i, j)`, the column's entry of row `i`. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

/-- An array `[a, b, c]` reshaped to `[n, c]` with `n = a · b` reads, at row `r = p · b + q` and column `z`,
    the array at `(p, q, z)`: both have the row-major position `(p · b + q) · c + z`. -/
theorem shapeCast_abc_nc_apply {a b c n : ℕ} (x : (⟨3, ![a, b, c]⟩ : Shape).Idx → α)
    (h : (⟨3, ![a, b, c]⟩ : Shape).ShapeCasts ⟨2, ![n, c]⟩) (p : Fin a) (q : Fin b) (z : Fin c) (r : Fin n)
    (hr : r.val = p.val * b + q.val) : shapeCast ⟨2, ![n, c]⟩ x h (ix2 r z) = x (ix3 p q z) :=
  shapeCast_apply x h _ _ (by
    rw [Shape.rowMajor_val_three, Shape.rowMajor_val_two]
    show (p.val * b + q.val) * c + z.val = r.val * c + z.val
    rw [hr])

/-- The reshape back: `[n, c]` reshaped to `[a, b, c]` reads, at `(p, q, z)`, row `r = p · b + q` at column `z`. -/
theorem shapeCast_nc_abc_apply {a b c n : ℕ} (x : (⟨2, ![n, c]⟩ : Shape).Idx → α)
    (h : (⟨2, ![n, c]⟩ : Shape).ShapeCasts ⟨3, ![a, b, c]⟩) (p : Fin a) (q : Fin b) (z : Fin c) (r : Fin n)
    (hr : r.val = p.val * b + q.val) : shapeCast ⟨3, ![a, b, c]⟩ x h (ix3 p q z) = x (ix2 r z) :=
  shapeCast_apply x h _ _ (by
    rw [Shape.rowMajor_val_two, Shape.rowMajor_val_three]
    show r.val * c + z.val = (p.val * b + q.val) * c + z.val
    rw [hr])

end Cert.LibLayout
-- ==== Proof.Payloads.lean ====
/-
  What each kernel body computes from the blocks it loads, as one of the two layer maps of `LibLayerMaps.lean`.

  The three projection bodies round their operands to bf16 — the identity on the extended reals —, multiply into a
  zero accumulator and add the bias row repeated over the block's rows: `denseBias`. The three combining bodies
  repeat a column of per-row scales over the feature axis, form `agg + h · scale + bias` and take the maximum with
  zero: `selfLoop`. A cast of an array to its own shape is the identity.
-/
import proofs.«112631_j35502199669066_1_alg».proof.Proof.Gen.KernelIdeal.Skeleton
import proofs.«112631_j35502199669066_1_alg».proof.Proof.LibLayerMaps
import proofs.«112631_j35502199669066_1_alg».proof.Proof.LibLayout
import Idealize.ShloMosaic.Lib.Pipeline.Value
import Idealize.ShloMosaic.Lib.ValueLayout

noncomputable section

namespace Cert.KernelIdeal.Pay

open Idealize.ShloMosaic Idealize.ShloMosaic.ValueIdx Idealize.ShloMosaic.PlainProduct
open Cert.KernelIdeal Cert.KernelIdeal.Gen Cert.Gcn

/-- The bias row of a block: a `[1, 64]` array cast to its own shape and repeated over 5000 rows reads, at
    `(r, d)`, its entry `(0, d)`. -/
theorem biasRow_apply (b : Vec Ideal S1x64 .f32) (r : Fin 5000) (d : Fin 64) :
    broadcastTo S5000x64 (shapeCast S1x64 b shapeCasts_S1x64_S1x64) broadcasts_S1x64_S5000x64 (ix2 r d)
      = b (ix2 (0 : Fin 1) d) :=
  (broadcastTo_1b_ab_apply _ broadcasts_S1x64_S5000x64 r d).trans
    (congrFun (shapeCast_self b shapeCasts_S1x64_S1x64) _)

/-- The first projection's body is `denseBias` of its three blocks. -/
theorem k0_pay1_eq (x0 : Vec Ideal S5000x64 .f32) (x1 : Vec Ideal S64x64 .f32) (x2 : Vec Ideal S1x64 .f32) :
    k0_pay1 (F := Ideal) x0 x1 x2 = denseBias x0 x1 x2 := by
  funext j
  obtain ⟨r, d, rfl⟩ : ∃ (r : Fin 5000) (d : Fin 64), j = ix2 r d := ⟨j 0, j 1, eq_ix2 j⟩
  unfold k0_pay1 denseBias
  refine congrArg₂ (· + ·) ?_ (biasRow_apply x2 r d)
  exact congrFun (matmul_zero_plain (M := 5000) (K := 64) (N := 64) none x0 x1) (ix2 r d)

/-- The later projections cast the feature block to its own shape first. -/
theorem k2_pay1_eq (x0 : Vec Ideal S5000x64 .f32) (x1 : Vec Ideal S64x64 .f32) (x2 : Vec Ideal S1x64 .f32) :
    k2_pay1 (F := Ideal) x0 x1 x2 = denseBias x0 x1 x2 := by
  funext j
  obtain ⟨r, d, rfl⟩ : ∃ (r : Fin 5000) (d : Fin 64), j = ix2 r d := ⟨j 0, j 1, eq_ix2 j⟩
  unfold k2_pay1 denseBias
  rw [shapeCast_self x0]
  refine congrArg₂ (· + ·) ?_ (biasRow_apply x2 r d)
  exact congrFun (matmul_zero_plain (M := 5000) (K := 64) (N := 64) none x0 x1) (ix2 r d)

theorem k4_pay1_eq (x0 : Vec Ideal S5000x64 .f32) (x1 : Vec Ideal S64x64 .f32) (x2 : Vec Ideal S1x64 .f32) :
    k4_pay1 (F := Ideal) x0 x1 x2 = denseBias x0 x1 x2 := by
  funext j
  obtain ⟨r, d, rfl⟩ : ∃ (r : Fin 5000) (d : Fin 64), j = ix2 r d := ⟨j 0, j 1, eq_ix2 j⟩
  unfold k4_pay1 denseBias
  rw [shapeCast_self x0]
  refine congrArg₂ (· + ·) ?_ (biasRow_apply x2 r d)
  exact congrFun (matmul_zero_plain (M := 5000) (K := 64) (N := 64) none x0 x1) (ix2 r d)

/-- The output projection has one column: its bias is a `[1, 1]` array repeated over the block's rows. -/
theorem k6_pay1_eq (x0 : Vec Ideal S5000x64 .f32) (x1 : Vec Ideal S64x1 .f32) (x2 : Vec Ideal S1x1 .f32) :
    k6_pay1 (F := Ideal) x0 x1 x2 = denseBias x0 x1 x2 := by
  funext j
  obtain ⟨r, d, rfl⟩ : ∃ (r : Fin 5000) (d : Fin 1), j = ix2 r d := ⟨j 0, j 1, eq_ix2 j⟩
  unfold k6_pay1 denseBias
  rw [shapeCast_self x0]
  refine congrArg₂ (· + ·) ?_ ?_
  · exact congrFun (matmul_zero_plain (M := 5000) (K := 64) (N := 1) none x0 x1) (ix2 r d)
  · exact (broadcastTo_1b_ab_apply _ broadcasts_S1x1_S5000x1 r d).trans
      (congrFun (shapeCast_self x2 shapeCasts_S1x1_S1x1) _)

/-- A combining body is `selfLoop` of its four blocks: the scale column repeated over the feature axis reads, at
    `(r, d)`, its entry `(r, 0)`. -/
theorem k1_pay1_eq (a h : Vec Ideal S5000x64 .f32) (s : Vec Ideal S5000x1 .f32) (b : Vec Ideal S1x64 .f32) :
    k1_pay1 (F := Ideal) a h s b = selfLoop a h s b := by
  funext j
  obtain ⟨r, d, rfl⟩ : ∃ (r : Fin 5000) (d : Fin 64), j = ix2 r d := ⟨j 0, j 1, eq_ix2 j⟩
  unfold k1_pay1 selfLoop
  rw [shapeCast_self a, shapeCast_self h, shapeCast_self s]
  refine congrArg₂ max (congrArg₂ (· + ·) (congrArg₂ (· + ·) rfl (congrArg₂ (· * ·) rfl ?_)) (biasRow_apply b r d)) rfl
  exact Cert.LibLayout.broadcastTo_a1_ab_apply s broadcasts_S5000x1_S5000x64 r d

theorem k3_pay1_eq (a h : Vec Ideal S5000x64 .f32) (s : Vec Ideal S5000x1 .f32) (b : Vec Ideal S1x64 .f32) :
    k3_pay1 (F := Ideal) a h s b = selfLoop a h s b := by
  funext j
  obtain ⟨r, d, rfl⟩ : ∃ (r : Fin 5000) (d : Fin 64), j = ix2 r d := ⟨j 0, j 1, eq_ix2 j⟩
  unfold k3_pay1 selfLoop
  rw [shapeCast_self a, shapeCast_self h, shapeCast_self s]
  refine congrArg₂ max (congrArg₂ (· + ·) (congrArg₂ (· + ·) rfl (congrArg₂ (· * ·) rfl ?_)) (biasRow_apply b r d)) rfl
  exact Cert.LibLayout.broadcastTo_a1_ab_apply s broadcasts_S5000x1_S5000x64 r d

theorem k5_pay1_eq (a h : Vec Ideal S5000x64 .f32) (s : Vec Ideal S5000x1 .f32) (b : Vec Ideal S1x64 .f32) :
    k5_pay1 (F := Ideal) a h s b = selfLoop a h s b := by
  funext j
  obtain ⟨r, d, rfl⟩ : ∃ (r : Fin 5000) (d : Fin 64), j = ix2 r d := ⟨j 0, j 1, eq_ix2 j⟩
  unfold k5_pay1 selfLoop
  rw [shapeCast_self a, shapeCast_self h, shapeCast_self s]
  refine congrArg₂ max (congrArg₂ (· + ·) (congrArg₂ (· + ·) rfl (congrArg₂ (· * ·) rfl ?_)) (biasRow_apply b r d)) rfl
  exact Cert.LibLayout.broadcastTo_a1_ab_apply s broadcasts_S5000x1_S5000x64 r d

end Cert.KernelIdeal.Pay

end
-- ==== Proof.Rows.lean ====
/-
  Rows of a block: point `t` of a ten-point grid over 50000 rows holds rows `5000·t + r`, `r < 5000`.
-/
import Idealize.ShloMosaic.Lib.ValueIdx

namespace Cert.KernelIdeal.Rows

/-- Row `r` of block `n` is row `5000·n + r` of the array. -/
def rowOf (n : Nat) (hn : n < 10) (r : Fin 5000) : Fin 50000 := ⟨n * 5000 + r.val, by have := r.isLt; omega⟩

theorem rowOf_val (n : Nat) (hn : n < 10) (r : Fin 5000) : (rowOf n hn r).val = n * 5000 + r.val := rfl

/-- A block's offset list `[0, 0]` is the zero offset. -/
theorem hz : (![0, 0] : Fin 2 → Nat) = fun _ => 0 := funext fun a => by fin_cases a <;> rfl

end Cert.KernelIdeal.Rows
-- ==== Proof.Region0.lean ====
/-
  Region 0 (a projection): the array it leaves is `denseBias` of the three arrays it reads.

  The grid has ten points; point `t` loads rows `5000·t … 5000·t + 4999` of the feature array, the whole weight
  array and the whole bias row, and writes back the same rows of the result. A row of `denseBias` depends on the same
  row of the feature array only, so each written block is the block of the whole-array function, and the ten blocks
  cover the array.
-/
import proofs.«112631_j35502199669066_1_alg».proof.Proof.Gen.KernelIdeal.Frame
import proofs.«112631_j35502199669066_1_alg».proof.Proof.Payloads
import proofs.«112631_j35502199669066_1_alg».proof.Proof.Rows

set_option maxRecDepth 16384

noncomputable section

namespace Cert.KernelIdeal.Region0

open Cert.KernelIdeal Cert.KernelIdeal.Gen Cert.Gcn Cert.KernelIdeal.Rows
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- The printed index maps over the grid: the feature and result windows are at block row `t`, column block 0; the
    weight and bias windows stay at block (0, 0). -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 ∧ t.val < 10 :=
  (by decide +kernel : ∀ t : Fin grid0.N, _)

theorem tlt (t : Fin cfg0.N) : t.val < 10 := (idx_facts t).2.2.2.2.2.2.2.2

/-- The feature block at point `t` holds rows `5000·t + r` of the feature array. -/
theorem blk_x (c : Dev nD) (t : Fin cfg0.N) (r : Fin 5000) (k : Fin 64) :
    iblk0 V c 0 t (ix2 r k) = V c main_arg0 (ix2 (rowOf t.val (tlt t) r) k) := by
  show V c main_arg0 (((cfg0.win 0).blk t).view.emb (ix2 r k)) = _
  refine congrArg (V c main_arg0) ?_
  obtain ⟨e0, e1, -⟩ := idx_facts t
  funext a; apply Fin.ext
  match a with
  | ⟨0, _⟩ => show win0_0.index t (0 : Fin 2) * 5000 + 1 * r.val = t.val * 5000 + r.val; omega
  | ⟨1, _⟩ => show win0_0.index t (1 : Fin 2) * 64 + 1 * k.val = k.val; omega

/-- The weight block is the whole weight array. -/
theorem blk_w (c : Dev nD) (t : Fin cfg0.N) : iblk0 V c 1 t = V c main_arg2 := by
  funext y
  show V c main_arg2 (((cfg0.win 1).blk t).view.emb y) = _
  refine congrArg (V c main_arg2) ?_
  obtain ⟨-, -, e0, e1, -⟩ := idx_facts t
  funext a; apply Fin.ext
  match a with
  | ⟨0, _⟩ => show win0_1.index t (0 : Fin 2) * 64 + 1 * (y 0).val = (y 0).val; omega
  | ⟨1, _⟩ => show win0_1.index t (1 : Fin 2) * 64 + 1 * (y 1).val = (y 1).val; omega

/-- The bias block is the whole bias row. -/
theorem blk_b (c : Dev nD) (t : Fin cfg0.N) : iblk0 V c 2 t = V c main_v33 := by
  funext y
  show V c main_v33 (((cfg0.win 2).blk t).view.emb y) = _
  refine congrArg (V c main_v33) ?_
  obtain ⟨-, -, -, -, e0, e1, -⟩ := idx_facts t
  funext a; apply Fin.ext
  match a with
  | ⟨0, _⟩ => show win0_2.index t (0 : Fin 2) * 1 + 1 * (y 0).val = (y 0).val; omega
  | ⟨1, _⟩ => show win0_2.index t (1 : Fin 2) * 64 + 1 * (y 1).val = (y 1).val; omega

/-- Position `(r, d)` of the result block at point `t` is position `(5000·t + r, d)` of the result array. -/
theorem emb_out (t : Fin cfg0.N) (j : S5000x64.Idx) :
    ((cfg0.win 3).blk t).view.emb j = ix2 (rowOf t.val (tlt t) (j 0)) (j 1) := by
  obtain ⟨-, -, -, -, -, -, e0, e1, -⟩ := idx_facts t
  funext a; apply Fin.ext
  match a with
  | ⟨0, _⟩ => show win0_3.index t (0 : Fin 2) * 5000 + 1 * (j 0).val = t.val * 5000 + (j 0).val; omega
  | ⟨1, _⟩ => show win0_3.index t (1 : Fin 2) * 64 + 1 * (j 1).val = (j 1).val; omega

/-- What point `t` writes back is block `t` of `denseBias` of the arrays the region reads. -/
theorem flushed_eq (c : Dev nD) (t : Fin cfg0.N) :
    (dat0 V c).flushed 3 t
      = ((cfg0.win 3).blk t).view.read (Elt Ideal) (denseBias (V c main_arg0) (V c main_arg2) (V c main_v33)) := by
  show (cfg0.win 3).cut (grid0.coords t) ((dat0 V c).after 3 t) = _
  rw [after0_3]
  unfold out0_3
  rw [View.canon_unit_zero hz]
  simp only [View.ld_unit_zero (S := S5000x64) hz, View.ld_unit_zero (S := S64x64) hz, View.ld_unit_zero (S := S1x64) hz]
  rw [Pay.k0_pay1_eq, blk_w V c t, blk_b V c t]
  funext j
  show denseBias (iblk0 V c 0 t) (V c main_arg2) (V c main_v33) j
      = denseBias (V c main_arg0) (V c main_arg2) (V c main_v33) (((cfg0.win 3).blk t).view.emb j)
  rw [emb_out t j]
  exact denseBias_rows (V c main_arg0) (V c main_arg2) (V c main_v33) (iblk0 V c 0 t) (rowOf t.val (tlt t)) (blk_x V c t) j

/-- An index of the result array is in point `t`'s block iff each coordinate is in the block's range. -/
theorem mem_blk (t : Fin cfg0.N) (i : S50000x64.Idx) :
    i ∈ ((cfg0.win 3).blk t).view.set ↔ ∀ a : Fin 2, win0_3.index t a * S5000x64.size a ≤ (i a).val
      ∧ (i a).val < win0_3.index t a * S5000x64.size a + S5000x64.size a := by
  show i ∈ ((View.whole main_v34).slice (win0_3.rect t)).set ↔ _
  rw [View.set_slice_whole, Rect.mem_set_unit]
  exact Iff.rfl

/-- Every position of the result array is in the block of point `⌊row / 5000⌋`. -/
theorem cover (i : S50000x64.Idx) :
    ∃ t : Fin cfg0.N, (cfg0.win 3).flush t = true ∧ i ∈ ((cfg0.win 3).blk t).view.set := by
  have hi0 : (i 0).val < 50000 := (i 0).isLt
  have hi1 : (i 1).val < 64 := (i 1).isLt
  refine ⟨⟨(i 0).val / 5000, by rw [show cfg0.N = 10 from N_0]; omega⟩, flush0_3 _, ?_⟩
  rw [mem_blk]
  obtain ⟨-, -, -, -, -, -, e0, e1, -⟩ := idx_facts ⟨(i 0).val / 5000, by rw [show cfg0.N = 10 from N_0]; omega⟩
  intro a
  match a with
  | ⟨0, _⟩ =>
    show win0_3.index _ (0 : Fin 2) * 5000 ≤ (i 0).val ∧ (i 0).val < win0_3.index _ (0 : Fin 2) * 5000 + 5000
    rw [e0]; show (i 0).val / 5000 * 5000 ≤ (i 0).val ∧ (i 0).val < (i 0).val / 5000 * 5000 + 5000; omega
  | ⟨1, _⟩ =>
    show win0_3.index _ (1 : Fin 2) * 64 ≤ (i 1).val ∧ (i 1).val < win0_3.index _ (1 : Fin 2) * 64 + 64
    rw [e1]; omega

/-- The result array after the region. -/
theorem final (c : Dev nD) :
    (dat0 V c).arrAt 3 cfg0.N = denseBias (V c main_arg0) (V c main_arg2) (V c main_v33) :=
  (dat0 V c).arrAt_eq_of_cover 3 (denseBias (V c main_arg0) (V c main_arg2) (V c main_v33)) (fun t _ => flushed_eq V c t) cover

end Cert.KernelIdeal.Region0

end
-- ==== Proof.Region1.lean ====
/-
  Region 1 (a combining step): the array it leaves is `selfLoop` of the four arrays it reads.

  The grid has ten points; point `t` loads rows `5000·t … 5000·t + 4999` of the neighbours' sums, of the projected
  features and of the column of per-node scales, and the whole bias row, and writes back the same rows of the result.
  Entry `(r, d)` of `selfLoop` depends on row `r` of the first three arrays only, so each written block is the block
  of the whole-array function, and the ten blocks cover the array.
-/
import proofs.«112631_j35502199669066_1_alg».proof.Proof.Gen.KernelIdeal.Frame
import proofs.«112631_j35502199669066_1_alg».proof.Proof.Payloads
import proofs.«112631_j35502199669066_1_alg».proof.Proof.Rows

set_option maxRecDepth 16384

noncomputable section

namespace Cert.KernelIdeal.Region1

open Cert.KernelIdeal Cert.KernelIdeal.Gen Cert.Gcn Cert.KernelIdeal.Rows
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- The printed index maps over the grid: the three row-blocked inputs and the result are at block row `t`, column
    block 0; the bias window stays at block (0, 0). -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 ∧ t.val < 10 :=
  (by decide +kernel : ∀ t : Fin grid1.N, _)

theorem tlt (t : Fin cfg1.N) : t.val < 10 := (idx_facts t).2.2.2.2.2.2.2.2.2.2

/-- The block of neighbours' sums at point `t` holds rows `5000·t + r`. -/
theorem blk_a (c : Dev nD) (t : Fin cfg1.N) (r : Fin 5000) (d : Fin 64) :
    iblk1 V c 0 t (ix2 r d) = V c main_v47 (ix2 (rowOf t.val (tlt t) r) d) := by
  show V c main_v47 (((cfg1.win 0).blk t).view.emb (ix2 r d)) = _
  refine congrArg (V c main_v47) ?_
  obtain ⟨e0, e1, -⟩ := idx_facts t
  funext a; apply Fin.ext
  match a with
  | ⟨0, _⟩ => show win1_0.index t (0 : Fin 2) * 5000 + 1 * r.val = t.val * 5000 + r.val; omega
  | ⟨1, _⟩ => show win1_0.index t (1 : Fin 2) * 64 + 1 * d.val = d.val; omega

/-- The block of projected features at point `t` holds rows `5000·t + r`. -/
theorem blk_h (c : Dev nD) (t : Fin cfg1.N) (r : Fin 5000) (d : Fin 64) :
    iblk1 V c 1 t (ix2 r d) = V c main_v34 (ix2 (rowOf t.val (tlt t) r) d) := by
  show V c main_v34 (((cfg1.win 1).blk t).view.emb (ix2 r d)) = _
  refine congrArg (V c main_v34) ?_
  obtain ⟨-, -, e0, e1, -⟩ := idx_facts t
  funext a; apply Fin.ext
  match a with
  | ⟨0, _⟩ => show win1_1.index t (0 : Fin 2) * 5000 + 1 * r.val = t.val * 5000 + r.val; omega
  | ⟨1, _⟩ => show win1_1.index t (1 : Fin 2) * 64 + 1 * d.val = d.val; omega

/-- The block of scales at point `t` holds rows `5000·t + r` of the scale column. -/
theorem blk_s (c : Dev nD) (t : Fin cfg1.N) (r : Fin 5000) :
    iblk1 V c 2 t (ix2 r (0 : Fin 1)) = V c main_v49 (ix2 (rowOf t.val (tlt t) r) (0 : Fin 1)) := by
  show V c main_v49 (((cfg1.win 2).blk t).view.emb (ix2 r (0 : Fin 1))) = _
  refine congrArg (V c main_v49) ?_
  obtain ⟨-, -, -, -, e0, e1, -⟩ := idx_facts t
  funext a; apply Fin.ext
  match a with
  | ⟨0, _⟩ => show win1_2.index t (0 : Fin 2) * 5000 + 1 * r.val = t.val * 5000 + r.val; omega
  | ⟨1, _⟩ => show win1_2.index t (1 : Fin 2) * 1 + 1 * 0 = 0; omega

/-- The bias block is the whole bias row. -/
theorem blk_b (c : Dev nD) (t : Fin cfg1.N) : iblk1 V c 3 t = V c main_v48 := by
  funext y
  show V c main_v48 (((cfg1.win 3).blk t).view.emb y) = _
  refine congrArg (V c main_v48) ?_
  obtain ⟨-, -, -, -, -, -, e0, e1, -⟩ := idx_facts t
  funext a; apply Fin.ext
  match a with
  | ⟨0, _⟩ => show win1_3.index t (0 : Fin 2) * 1 + 1 * (y 0).val = (y 0).val; omega
  | ⟨1, _⟩ => show win1_3.index t (1 : Fin 2) * 64 + 1 * (y 1).val = (y 1).val; omega

/-- Position `(r, d)` of the result block at point `t` is position `(5000·t + r, d)` of the result array. -/
theorem emb_out (t : Fin cfg1.N) (j : S5000x64.Idx) :
    ((cfg1.win 4).blk t).view.emb j = ix2 (rowOf t.val (tlt t) (j 0)) (j 1) := by
  obtain ⟨-, -, -, -, -, -, -, -, e0, e1, -⟩ := idx_facts t
  funext a; apply Fin.ext
  match a with
  | ⟨0, _⟩ => show win1_4.index t (0 : Fin 2) * 5000 + 1 * (j 0).val = t.val * 5000 + (j 0).val; omega
  | ⟨1, _⟩ => show win1_4.index t (1 : Fin 2) * 64 + 1 * (j 1).val = (j 1).val; omega

/-- What point `t` writes back is block `t` of `selfLoop` of the arrays the region reads. -/
theorem flushed_eq (c : Dev nD) (t : Fin cfg1.N) :
    (dat1 V c).flushed 4 t
      = ((cfg1.win 4).blk t).view.read (Elt Ideal) (selfLoop (V c main_v47) (V c main_v34) (V c main_v49) (V c main_v48)) := by
  show (cfg1.win 4).cut (grid1.coords t) ((dat1 V c).after 4 t) = _
  rw [after1_4]
  unfold out1_4
  rw [View.canon_unit_zero hz]
  simp only [View.ld_unit_zero (S := S5000x64) hz, View.ld_unit_zero (S := S5000x1) hz, View.ld_unit_zero (S := S1x64) hz]
  rw [Pay.k1_pay1_eq, blk_b V c t]
  funext j
  show selfLoop (iblk1 V c 0 t) (iblk1 V c 1 t) (iblk1 V c 2 t) (V c main_v48) j
      = selfLoop (V c main_v47) (V c main_v34) (V c main_v49) (V c main_v48) (((cfg1.win 4).blk t).view.emb j)
  rw [emb_out t j]
  exact selfLoop_rows (V c main_v47) (V c main_v34) (V c main_v49) (V c main_v48) (iblk1 V c 0 t) (iblk1 V c 1 t) (iblk1 V c 2 t)
    (rowOf t.val (tlt t)) (blk_a V c t) (blk_h V c t) (blk_s V c t) j

/-- An index of the result array is in point `t`'s block iff each coordinate is in the block's range. -/
theorem mem_blk (t : Fin cfg1.N) (i : S50000x64.Idx) :
    i ∈ ((cfg1.win 4).blk t).view.set ↔ ∀ a : Fin 2, win1_4.index t a * S5000x64.size a ≤ (i a).val
      ∧ (i a).val < win1_4.index t a * S5000x64.size a + S5000x64.size a := by
  show i ∈ ((View.whole main_v50).slice (win1_4.rect t)).set ↔ _
  rw [View.set_slice_whole, Rect.mem_set_unit]
  exact Iff.rfl

/-- Every position of the result array is in the block of point `⌊row / 5000⌋`. -/
theorem cover (i : S50000x64.Idx) :
    ∃ t : Fin cfg1.N, (cfg1.win 4).flush t = true ∧ i ∈ ((cfg1.win 4).blk t).view.set := by
  have hi0 : (i 0).val < 50000 := (i 0).isLt
  have hi1 : (i 1).val < 64 := (i 1).isLt
  refine ⟨⟨(i 0).val / 5000, by rw [show cfg1.N = 10 from N_1]; omega⟩, flush1_4 _, ?_⟩
  rw [mem_blk]
  obtain ⟨-, -, -, -, -, -, -, -, e0, e1, -⟩ := idx_facts ⟨(i 0).val / 5000, by rw [show cfg1.N = 10 from N_1]; omega⟩
  intro a
  match a with
  | ⟨0, _⟩ =>
    show win1_4.index _ (0 : Fin 2) * 5000 ≤ (i 0).val ∧ (i 0).val < win1_4.index _ (0 : Fin 2) * 5000 + 5000
    rw [e0]; show (i 0).val / 5000 * 5000 ≤ (i 0).val ∧ (i 0).val < (i 0).val / 5000 * 5000 + 5000; omega
  | ⟨1, _⟩ =>
    show win1_4.index _ (1 : Fin 2) * 64 ≤ (i 1).val ∧ (i 1).val < win1_4.index _ (1 : Fin 2) * 64 + 64
    rw [e1]; omega

/-- The result array after the region. -/
theorem final (c : Dev nD) :
    (dat1 V c).arrAt 4 cfg1.N = selfLoop (V c main_v47) (V c main_v34) (V c main_v49) (V c main_v48) :=
  (dat1 V c).arrAt_eq_of_cover 4 (selfLoop (V c main_v47) (V c main_v34) (V c main_v49) (V c main_v48)) (fun t _ => flushed_eq V c t) cover

end Cert.KernelIdeal.Region1

end
-- ==== Proof.Region2.lean ====
/-
  Region 2 (a projection): the array it leaves is `denseBias` of the three arrays it reads.

  The grid has ten points; point `t` loads rows `5000·t … 5000·t + 4999` of the feature array, the whole weight
  array and the whole bias row, and writes back the same rows of the result. A row of `denseBias` depends on the same
  row of the feature array only, so each written block is the block of the whole-array function, and the ten blocks
  cover the array.
-/
import proofs.«112631_j35502199669066_1_alg».proof.Proof.Gen.KernelIdeal.Frame
import proofs.«112631_j35502199669066_1_alg».proof.Proof.Payloads
import proofs.«112631_j35502199669066_1_alg».proof.Proof.Rows

set_option maxRecDepth 16384

noncomputable section

namespace Cert.KernelIdeal.Region2

open Cert.KernelIdeal Cert.KernelIdeal.Gen Cert.Gcn Cert.KernelIdeal.Rows
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- The printed index maps over the grid: the feature and result windows are at block row `t`, column block 0; the
    weight and bias windows stay at block (0, 0). -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 ∧ t.val < 10 :=
  (by decide +kernel : ∀ t : Fin grid2.N, _)

theorem tlt (t : Fin cfg2.N) : t.val < 10 := (idx_facts t).2.2.2.2.2.2.2.2

/-- The feature block at point `t` holds rows `5000·t + r` of the feature array. -/
theorem blk_x (c : Dev nD) (t : Fin cfg2.N) (r : Fin 5000) (k : Fin 64) :
    iblk2 V c 0 t (ix2 r k) = V c main_v50 (ix2 (rowOf t.val (tlt t) r) k) := by
  show V c main_v50 (((cfg2.win 0).blk t).view.emb (ix2 r k)) = _
  refine congrArg (V c main_v50) ?_
  obtain ⟨e0, e1, -⟩ := idx_facts t
  funext a; apply Fin.ext
  match a with
  | ⟨0, _⟩ => show win2_0.index t (0 : Fin 2) * 5000 + 1 * r.val = t.val * 5000 + r.val; omega
  | ⟨1, _⟩ => show win2_0.index t (1 : Fin 2) * 64 + 1 * k.val = k.val; omega

/-- The weight block is the whole weight array. -/
theorem blk_w (c : Dev nD) (t : Fin cfg2.N) : iblk2 V c 1 t = V c main_arg4 := by
  funext y
  show V c main_arg4 (((cfg2.win 1).blk t).view.emb y) = _
  refine congrArg (V c main_arg4) ?_
  obtain ⟨-, -, e0, e1, -⟩ := idx_facts t
  funext a; apply Fin.ext
  match a with
  | ⟨0, _⟩ => show win2_1.index t (0 : Fin 2) * 64 + 1 * (y 0).val = (y 0).val; omega
  | ⟨1, _⟩ => show win2_1.index t (1 : Fin 2) * 64 + 1 * (y 1).val = (y 1).val; omega

/-- The bias block is the whole bias row. -/
theorem blk_b (c : Dev nD) (t : Fin cfg2.N) : iblk2 V c 2 t = V c main_v52 := by
  funext y
  show V c main_v52 (((cfg2.win 2).blk t).view.emb y) = _
  refine congrArg (V c main_v52) ?_
  obtain ⟨-, -, -, -, e0, e1, -⟩ := idx_facts t
  funext a; apply Fin.ext
  match a with
  | ⟨0, _⟩ => show win2_2.index t (0 : Fin 2) * 1 + 1 * (y 0).val = (y 0).val; omega
  | ⟨1, _⟩ => show win2_2.index t (1 : Fin 2) * 64 + 1 * (y 1).val = (y 1).val; omega

/-- Position `(r, d)` of the result block at point `t` is position `(5000·t + r, d)` of the result array. -/
theorem emb_out (t : Fin cfg2.N) (j : S5000x64.Idx) :
    ((cfg2.win 3).blk t).view.emb j = ix2 (rowOf t.val (tlt t) (j 0)) (j 1) := by
  obtain ⟨-, -, -, -, -, -, e0, e1, -⟩ := idx_facts t
  funext a; apply Fin.ext
  match a with
  | ⟨0, _⟩ => show win2_3.index t (0 : Fin 2) * 5000 + 1 * (j 0).val = t.val * 5000 + (j 0).val; omega
  | ⟨1, _⟩ => show win2_3.index t (1 : Fin 2) * 64 + 1 * (j 1).val = (j 1).val; omega

/-- What point `t` writes back is block `t` of `denseBias` of the arrays the region reads. -/
theorem flushed_eq (c : Dev nD) (t : Fin cfg2.N) :
    (dat2 V c).flushed 3 t
      = ((cfg2.win 3).blk t).view.read (Elt Ideal) (denseBias (V c main_v50) (V c main_arg4) (V c main_v52)) := by
  show (cfg2.win 3).cut (grid2.coords t) ((dat2 V c).after 3 t) = _
  rw [after2_3]
  unfold out2_3
  rw [View.canon_unit_zero hz]
  simp only [View.ld_unit_zero (S := S5000x64) hz, View.ld_unit_zero (S := S64x64) hz, View.ld_unit_zero (S := S1x64) hz]
  rw [Pay.k2_pay1_eq, blk_w V c t, blk_b V c t]
  funext j
  show denseBias (iblk2 V c 0 t) (V c main_arg4) (V c main_v52) j
      = denseBias (V c main_v50) (V c main_arg4) (V c main_v52) (((cfg2.win 3).blk t).view.emb j)
  rw [emb_out t j]
  exact denseBias_rows (V c main_v50) (V c main_arg4) (V c main_v52) (iblk2 V c 0 t) (rowOf t.val (tlt t)) (blk_x V c t) j

/-- An index of the result array is in point `t`'s block iff each coordinate is in the block's range. -/
theorem mem_blk (t : Fin cfg2.N) (i : S50000x64.Idx) :
    i ∈ ((cfg2.win 3).blk t).view.set ↔ ∀ a : Fin 2, win2_3.index t a * S5000x64.size a ≤ (i a).val
      ∧ (i a).val < win2_3.index t a * S5000x64.size a + S5000x64.size a := by
  show i ∈ ((View.whole main_v53).slice (win2_3.rect t)).set ↔ _
  rw [View.set_slice_whole, Rect.mem_set_unit]
  exact Iff.rfl

/-- Every position of the result array is in the block of point `⌊row / 5000⌋`. -/
theorem cover (i : S50000x64.Idx) :
    ∃ t : Fin cfg2.N, (cfg2.win 3).flush t = true ∧ i ∈ ((cfg2.win 3).blk t).view.set := by
  have hi0 : (i 0).val < 50000 := (i 0).isLt
  have hi1 : (i 1).val < 64 := (i 1).isLt
  refine ⟨⟨(i 0).val / 5000, by rw [show cfg2.N = 10 from N_2]; omega⟩, flush2_3 _, ?_⟩
  rw [mem_blk]
  obtain ⟨-, -, -, -, -, -, e0, e1, -⟩ := idx_facts ⟨(i 0).val / 5000, by rw [show cfg2.N = 10 from N_2]; omega⟩
  intro a
  match a with
  | ⟨0, _⟩ =>
    show win2_3.index _ (0 : Fin 2) * 5000 ≤ (i 0).val ∧ (i 0).val < win2_3.index _ (0 : Fin 2) * 5000 + 5000
    rw [e0]; show (i 0).val / 5000 * 5000 ≤ (i 0).val ∧ (i 0).val < (i 0).val / 5000 * 5000 + 5000; omega
  | ⟨1, _⟩ =>
    show win2_3.index _ (1 : Fin 2) * 64 ≤ (i 1).val ∧ (i 1).val < win2_3.index _ (1 : Fin 2) * 64 + 64
    rw [e1]; omega

/-- The result array after the region. -/
theorem final (c : Dev nD) :
    (dat2 V c).arrAt 3 cfg2.N = denseBias (V c main_v50) (V c main_arg4) (V c main_v52) :=
  (dat2 V c).arrAt_eq_of_cover 3 (denseBias (V c main_v50) (V c main_arg4) (V c main_v52)) (fun t _ => flushed_eq V c t) cover

end Cert.KernelIdeal.Region2

end
-- ==== Proof.Region3.lean ====
/-
  Region 3 (a combining step): the array it leaves is `selfLoop` of the four arrays it reads.

  The grid has ten points; point `t` loads rows `5000·t … 5000·t + 4999` of the neighbours' sums, of the projected
  features and of the column of per-node scales, and the whole bias row, and writes back the same rows of the result.
  Entry `(r, d)` of `selfLoop` depends on row `r` of the first three arrays only, so each written block is the block
  of the whole-array function, and the ten blocks cover the array.
-/
import proofs.«112631_j35502199669066_1_alg».proof.Proof.Gen.KernelIdeal.Frame
import proofs.«112631_j35502199669066_1_alg».proof.Proof.Payloads
import proofs.«112631_j35502199669066_1_alg».proof.Proof.Rows

set_option maxRecDepth 16384

noncomputable section

namespace Cert.KernelIdeal.Region3

open Cert.KernelIdeal Cert.KernelIdeal.Gen Cert.Gcn Cert.KernelIdeal.Rows
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- The printed index maps over the grid: the three row-blocked inputs and the result are at block row `t`, column
    block 0; the bias window stays at block (0, 0). -/
theorem idx_facts : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0 ∧ t.val < 10 :=
  (by decide +kernel : ∀ t : Fin grid3.N, _)

theorem tlt (t : Fin cfg3.N) : t.val < 10 := (idx_facts t).2.2.2.2.2.2.2.2.2.2

/-- The block of neighbours' sums at point `t` holds rows `5000·t + r`. -/
theorem blk_a (c : Dev nD) (t : Fin cfg3.N) (r : Fin 5000) (d : Fin 64) :
    iblk3 V c 0 t (ix2 r d) = V c main_v66 (ix2 (rowOf t.val (tlt t) r) d) := by
  show V c main_v66 (((cfg3.win 0).blk t).view.emb (ix2 r d)) = _
  refine congrArg (V c main_v66) ?_
  obtain ⟨e0, e1, -⟩ := idx_facts t
  funext a; apply Fin.ext
  match a with
  | ⟨0, _⟩ => show win3_0.index t (0 : Fin 2) * 5000 + 1 * r.val = t.val * 5000 + r.val; omega
  | ⟨1, _⟩ => show win3_0.index t (1 : Fin 2) * 64 + 1 * d.val = d.val; omega

/-- The block of projected features at point `t` holds rows `5000·t + r`. -/
theorem blk_h (c : Dev nD) (t : Fin cfg3.N) (r : Fin 5000) (d : Fin 64) :
    iblk3 V c 1 t (ix2 r d) = V c main_v53 (ix2 (rowOf t.val (tlt t) r) d) := by
  show V c main_v53 (((cfg3.win 1).blk t).view.emb (ix2 r d)) = _
  refine congrArg (V c main_v53) ?_
  obtain ⟨-, -, e0, e1, -⟩ := idx_facts t
  funext a; apply Fin.ext
  match a with
  | ⟨0, _⟩ => show win3_1.index t (0 : Fin 2) * 5000 + 1 * r.val = t.val * 5000 + r.val; omega
  | ⟨1, _⟩ => show win3_1.index t (1 : Fin 2) * 64 + 1 * d.val = d.val; omega

/-- The block of scales at point `t` holds rows `5000·t + r` of the scale column. -/
theorem blk_s (c : Dev nD) (t : Fin cfg3.N) (r : Fin 5000) :
    iblk3 V c 2 t (ix2 r (0 : Fin 1)) = V c main_v68 (ix2 (rowOf t.val (tlt t) r) (0 : Fin 1)) := by
  show V c main_v68 (((cfg3.win 2).blk t).view.emb (ix2 r (0 : Fin 1))) = _
  refine congrArg (V c main_v68) ?_
  obtain ⟨-, -, -, -, e0, e1, -⟩ := idx_facts t
  funext a; apply Fin.ext
  match a with
  | ⟨0, _⟩ => show win3_2.index t (0 : Fin 2) * 5000 + 1 * r.val = t.val * 5000 + r.val; omega
  | ⟨1, _⟩ => show win3_2.index t (1 : Fin 2) * 1 + 1 * 0 = 0; omega

/-- The bias block is the whole bias row. -/
theorem blk_b (c : Dev nD) (t : Fin cfg3.N) : iblk3 V c 3 t = V c main_v67 := by
  funext y
  show V c main_v67 (((cfg3.win 3).blk t).view.emb y) = _
  refine congrArg (V c main_v67) ?_
  obtain ⟨-, -, -, -, -, -, e0, e1, -⟩ := idx_facts t
  funext a; apply Fin.ext
  match a with
  | ⟨0, _⟩ => show win3_3.index t (0 : Fin 2) * 1 + 1 * (y 0).val = (y 0).val; omega
  | ⟨1, _⟩ => show win3_3.index t (1 : Fin 2) * 64 + 1 * (y 1).val = (y 1).val; omega

/-- Position `(r, d)` of the result block at point `t` is position `(5000·t + r, d)` of the result array. -/
theorem emb_out (t : Fin cfg3.N) (j : S5000x64.Idx) :
    ((cfg3.win 4).blk t).view.emb j = ix2 (rowOf t.val (tlt t) (j 0)) (j 1) := by
  obtain ⟨-, -, -, -, -, -, -, -, e0, e1, -⟩ := idx_facts t
  funext a; apply Fin.ext
  match a with
  | ⟨0, _⟩ => show win3_4.index t (0 : Fin 2) * 5000 + 1 * (j 0).val = t.val * 5000 + (j 0).val; omega
  | ⟨1, _⟩ => show win3_4.index t (1 : Fin 2) * 64 + 1 * (j 1).val = (j 1).val; omega

/-- What point `t` writes back is block `t` of `selfLoop` of the arrays the region reads. -/
theorem flushed_eq (c : Dev nD) (t : Fin cfg3.N) :
    (dat3 V c).flushed 4 t
      = ((cfg3.win 4).blk t).view.read (Elt Ideal) (selfLoop (V c main_v66) (V c main_v53) (V c main_v68) (V c main_v67)) := by
  show (cfg3.win 4).cut (grid3.coords t) ((dat3 V c).after 4 t) = _
  rw [after3_4]
  unfold out3_4
  rw [View.canon_unit_zero hz]
  simp only [View.ld_unit_zero (S := S5000x64) hz, View.ld_unit_zero (S := S5000x1) hz, View.ld_unit_zero (S := S1x64) hz]
  rw [Pay.k3_pay1_eq, blk_b V c t]
  funext j
  show selfLoop (iblk3 V c 0 t) (iblk3 V c 1 t) (iblk3 V c 2 t) (V c main_v67) j
      = selfLoop (V c main_v66) (V c main_v53) (V c main_v68) (V c main_v67) (((cfg3.win 4).blk t).view.emb j)
  rw [emb_out t j]
  exact selfLoop_rows (V c main_v66) (V c main_v53) (V c main_v68) (V c main_v67) (iblk3 V c 0 t) (iblk3 V c 1 t) (iblk3 V c 2 t)
    (rowOf t.val (tlt t)) (blk_a V c t) (blk_h V c t) (blk_s V c t) j

/-- An index of the result array is in point `t`'s block iff each coordinate is in the block's range. -/
theorem mem_blk (t : Fin cfg3.N) (i : S50000x64.Idx) :
    i ∈ ((cfg3.win 4).blk t).view.set ↔ ∀ a : Fin 2, win3_4.index t a * S5000x64.size a ≤ (i a).val
      ∧ (i a).val < win3_4.index t a * S5000x64.size a + S5000x64.size a := by
  show i ∈ ((View.whole main_v69).slice (win3_4.rect t)).set ↔ _
  rw [View.set_slice_whole, Rect.mem_set_unit]
  exact Iff.rfl

/-- Every position of the result array is in the block of point `⌊row / 5000⌋`. -/
theorem cover (i : S50000x64.Idx) :
    ∃ t : Fin cfg3.N, (cfg3.win 4).flush t = true ∧ i ∈ ((cfg3.win 4).blk t).view.set := by
  have hi0 : (i 0).val < 50000 := (i 0).isLt
  have hi1 : (i 1).val < 64 := (i 1).isLt
  refine ⟨⟨(i 0).val / 5000, by rw [show cfg3.N = 10 from N_3]; omega⟩, flush3_4 _, ?_⟩
  rw [mem_blk]
  obtain ⟨-, -, -, -, -, -, -, -, e0, e1, -⟩ := idx_facts ⟨(i 0).val / 5000, by rw [show cfg3.N = 10 from N_3]; omega⟩
  intro a
  match a with
  | ⟨0, _⟩ =>
    show win3_4.index _ (0 : Fin 2) * 5000 ≤ (i 0).val ∧ (i 0).val < win3_4.index _ (0 : Fin 2) * 5000 + 5000
    rw [e0]; show (i 0).val / 5000 * 5000 ≤ (i 0).val ∧ (i 0).val < (i 0).val / 5000 * 5000 + 5000; omega
  | ⟨1, _⟩ =>
    show win3_4.index _ (1 : Fin 2) * 64 ≤ (i 1).val ∧ (i 1).val < win3_4.index _ (1 : Fin 2) * 64 + 64
    rw [e1]; omega

/-- The result array after the region. -/
theorem final (c : Dev nD) :
    (dat3 V c).arrAt 4 cfg3.N = selfLoop (V c main_v66) (V c main_v53) (V c main_v68) (V c main_v67) :=
  (dat3 V c).arrAt_eq_of_cover 4 (selfLoop (V c main_v66) (V c main_v53) (V c main_v68) (V c main_v67)) (fun t _ => flushed_eq V c t) cover

end Cert.KernelIdeal.Region3

end
-- ==== Proof.Region4.lean ====
/-
  Region 4 (a projection): the array it leaves is `denseBias` of the three arrays it reads.

  The grid has ten points; point `t` loads rows `5000·t … 5000·t + 4999` of the feature array, the whole weight
  array and the whole bias row, and writes back the same rows of the result. A row of `denseBias` depends on the same
  row of the feature array only, so each written block is the block of the whole-array function, and the ten blocks
  cover the array.
-/
import proofs.«112631_j35502199669066_1_alg».proof.Proof.Gen.KernelIdeal.Frame
import proofs.«112631_j35502199669066_1_alg».proof.Proof.Payloads
import proofs.«112631_j35502199669066_1_alg».proof.Proof.Rows

set_option maxRecDepth 16384

noncomputable section

namespace Cert.KernelIdeal.Region4

open Cert.KernelIdeal Cert.KernelIdeal.Gen Cert.Gcn Cert.KernelIdeal.Rows
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- The printed index maps over the grid: the feature and result windows are at block row `t`, column block 0; the
    weight and bias windows stay at block (0, 0). -/
theorem idx_facts : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = t.val ∧ win4_3.index t (1 : Fin 2) = 0 ∧ t.val < 10 :=
  (by decide +kernel : ∀ t : Fin grid4.N, _)

theorem tlt (t : Fin cfg4.N) : t.val < 10 := (idx_facts t).2.2.2.2.2.2.2.2

/-- The feature block at point `t` holds rows `5000·t + r` of the feature array. -/
theorem blk_x (c : Dev nD) (t : Fin cfg4.N) (r : Fin 5000) (k : Fin 64) :
    iblk4 V c 0 t (ix2 r k) = V c main_v69 (ix2 (rowOf t.val (tlt t) r) k) := by
  show V c main_v69 (((cfg4.win 0).blk t).view.emb (ix2 r k)) = _
  refine congrArg (V c main_v69) ?_
  obtain ⟨e0, e1, -⟩ := idx_facts t
  funext a; apply Fin.ext
  match a with
  | ⟨0, _⟩ => show win4_0.index t (0 : Fin 2) * 5000 + 1 * r.val = t.val * 5000 + r.val; omega
  | ⟨1, _⟩ => show win4_0.index t (1 : Fin 2) * 64 + 1 * k.val = k.val; omega

/-- The weight block is the whole weight array. -/
theorem blk_w (c : Dev nD) (t : Fin cfg4.N) : iblk4 V c 1 t = V c main_arg6 := by
  funext y
  show V c main_arg6 (((cfg4.win 1).blk t).view.emb y) = _
  refine congrArg (V c main_arg6) ?_
  obtain ⟨-, -, e0, e1, -⟩ := idx_facts t
  funext a; apply Fin.ext
  match a with
  | ⟨0, _⟩ => show win4_1.index t (0 : Fin 2) * 64 + 1 * (y 0).val = (y 0).val; omega
  | ⟨1, _⟩ => show win4_1.index t (1 : Fin 2) * 64 + 1 * (y 1).val = (y 1).val; omega

/-- The bias block is the whole bias row. -/
theorem blk_b (c : Dev nD) (t : Fin cfg4.N) : iblk4 V c 2 t = V c main_v71 := by
  funext y
  show V c main_v71 (((cfg4.win 2).blk t).view.emb y) = _
  refine congrArg (V c main_v71) ?_
  obtain ⟨-, -, -, -, e0, e1, -⟩ := idx_facts t
  funext a; apply Fin.ext
  match a with
  | ⟨0, _⟩ => show win4_2.index t (0 : Fin 2) * 1 + 1 * (y 0).val = (y 0).val; omega
  | ⟨1, _⟩ => show win4_2.index t (1 : Fin 2) * 64 + 1 * (y 1).val = (y 1).val; omega

/-- Position `(r, d)` of the result block at point `t` is position `(5000·t + r, d)` of the result array. -/
theorem emb_out (t : Fin cfg4.N) (j : S5000x64.Idx) :
    ((cfg4.win 3).blk t).view.emb j = ix2 (rowOf t.val (tlt t) (j 0)) (j 1) := by
  obtain ⟨-, -, -, -, -, -, e0, e1, -⟩ := idx_facts t
  funext a; apply Fin.ext
  match a with
  | ⟨0, _⟩ => show win4_3.index t (0 : Fin 2) * 5000 + 1 * (j 0).val = t.val * 5000 + (j 0).val; omega
  | ⟨1, _⟩ => show win4_3.index t (1 : Fin 2) * 64 + 1 * (j 1).val = (j 1).val; omega

/-- What point `t` writes back is block `t` of `denseBias` of the arrays the region reads. -/
theorem flushed_eq (c : Dev nD) (t : Fin cfg4.N) :
    (dat4 V c).flushed 3 t
      = ((cfg4.win 3).blk t).view.read (Elt Ideal) (denseBias (V c main_v69) (V c main_arg6) (V c main_v71)) := by
  show (cfg4.win 3).cut (grid4.coords t) ((dat4 V c).after 3 t) = _
  rw [after4_3]
  unfold out4_3
  rw [View.canon_unit_zero hz]
  simp only [View.ld_unit_zero (S := S5000x64) hz, View.ld_unit_zero (S := S64x64) hz, View.ld_unit_zero (S := S1x64) hz]
  rw [Pay.k4_pay1_eq, blk_w V c t, blk_b V c t]
  funext j
  show denseBias (iblk4 V c 0 t) (V c main_arg6) (V c main_v71) j
      = denseBias (V c main_v69) (V c main_arg6) (V c main_v71) (((cfg4.win 3).blk t).view.emb j)
  rw [emb_out t j]
  exact denseBias_rows (V c main_v69) (V c main_arg6) (V c main_v71) (iblk4 V c 0 t) (rowOf t.val (tlt t)) (blk_x V c t) j

/-- An index of the result array is in point `t`'s block iff each coordinate is in the block's range. -/
theorem mem_blk (t : Fin cfg4.N) (i : S50000x64.Idx) :
    i ∈ ((cfg4.win 3).blk t).view.set ↔ ∀ a : Fin 2, win4_3.index t a * S5000x64.size a ≤ (i a).val
      ∧ (i a).val < win4_3.index t a * S5000x64.size a + S5000x64.size a := by
  show i ∈ ((View.whole main_v72).slice (win4_3.rect t)).set ↔ _
  rw [View.set_slice_whole, Rect.mem_set_unit]
  exact Iff.rfl

/-- Every position of the result array is in the block of point `⌊row / 5000⌋`. -/
theorem cover (i : S50000x64.Idx) :
    ∃ t : Fin cfg4.N, (cfg4.win 3).flush t = true ∧ i ∈ ((cfg4.win 3).blk t).view.set := by
  have hi0 : (i 0).val < 50000 := (i 0).isLt
  have hi1 : (i 1).val < 64 := (i 1).isLt
  refine ⟨⟨(i 0).val / 5000, by rw [show cfg4.N = 10 from N_4]; omega⟩, flush4_3 _, ?_⟩
  rw [mem_blk]
  obtain ⟨-, -, -, -, -, -, e0, e1, -⟩ := idx_facts ⟨(i 0).val / 5000, by rw [show cfg4.N = 10 from N_4]; omega⟩
  intro a
  match a with
  | ⟨0, _⟩ =>
    show win4_3.index _ (0 : Fin 2) * 5000 ≤ (i 0).val ∧ (i 0).val < win4_3.index _ (0 : Fin 2) * 5000 + 5000
    rw [e0]; show (i 0).val / 5000 * 5000 ≤ (i 0).val ∧ (i 0).val < (i 0).val / 5000 * 5000 + 5000; omega
  | ⟨1, _⟩ =>
    show win4_3.index _ (1 : Fin 2) * 64 ≤ (i 1).val ∧ (i 1).val < win4_3.index _ (1 : Fin 2) * 64 + 64
    rw [e1]; omega

/-- The result array after the region. -/
theorem final (c : Dev nD) :
    (dat4 V c).arrAt 3 cfg4.N = denseBias (V c main_v69) (V c main_arg6) (V c main_v71) :=
  (dat4 V c).arrAt_eq_of_cover 3 (denseBias (V c main_v69) (V c main_arg6) (V c main_v71)) (fun t _ => flushed_eq V c t) cover

end Cert.KernelIdeal.Region4

end
-- ==== Proof.Region5.lean ====
/-
  Region 5 (a combining step): the array it leaves is `selfLoop` of the four arrays it reads.

  The grid has ten points; point `t` loads rows `5000·t … 5000·t + 4999` of the neighbours' sums, of the projected
  features and of the column of per-node scales, and the whole bias row, and writes back the same rows of the result.
  Entry `(r, d)` of `selfLoop` depends on row `r` of the first three arrays only, so each written block is the block
  of the whole-array function, and the ten blocks cover the array.
-/
import proofs.«112631_j35502199669066_1_alg».proof.Proof.Gen.KernelIdeal.Frame
import proofs.«112631_j35502199669066_1_alg».proof.Proof.Payloads
import proofs.«112631_j35502199669066_1_alg».proof.Proof.Rows

set_option maxRecDepth 16384

noncomputable section

namespace Cert.KernelIdeal.Region5

open Cert.KernelIdeal Cert.KernelIdeal.Gen Cert.Gcn Cert.KernelIdeal.Rows
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- The printed index maps over the grid: the three row-blocked inputs and the result are at block row `t`, column
    block 0; the bias window stays at block (0, 0). -/
theorem idx_facts : ∀ t : Fin cfg5.N, win5_0.index t (0 : Fin 2) = t.val ∧ win5_0.index t (1 : Fin 2) = 0
    ∧ win5_1.index t (0 : Fin 2) = t.val ∧ win5_1.index t (1 : Fin 2) = 0
    ∧ win5_2.index t (0 : Fin 2) = t.val ∧ win5_2.index t (1 : Fin 2) = 0
    ∧ win5_3.index t (0 : Fin 2) = 0 ∧ win5_3.index t (1 : Fin 2) = 0
    ∧ win5_4.index t (0 : Fin 2) = t.val ∧ win5_4.index t (1 : Fin 2) = 0 ∧ t.val < 10 :=
  (by decide +kernel : ∀ t : Fin grid5.N, _)

theorem tlt (t : Fin cfg5.N) : t.val < 10 := (idx_facts t).2.2.2.2.2.2.2.2.2.2

/-- The block of neighbours' sums at point `t` holds rows `5000·t + r`. -/
theorem blk_a (c : Dev nD) (t : Fin cfg5.N) (r : Fin 5000) (d : Fin 64) :
    iblk5 V c 0 t (ix2 r d) = V c main_v85 (ix2 (rowOf t.val (tlt t) r) d) := by
  show V c main_v85 (((cfg5.win 0).blk t).view.emb (ix2 r d)) = _
  refine congrArg (V c main_v85) ?_
  obtain ⟨e0, e1, -⟩ := idx_facts t
  funext a; apply Fin.ext
  match a with
  | ⟨0, _⟩ => show win5_0.index t (0 : Fin 2) * 5000 + 1 * r.val = t.val * 5000 + r.val; omega
  | ⟨1, _⟩ => show win5_0.index t (1 : Fin 2) * 64 + 1 * d.val = d.val; omega

/-- The block of projected features at point `t` holds rows `5000·t + r`. -/
theorem blk_h (c : Dev nD) (t : Fin cfg5.N) (r : Fin 5000) (d : Fin 64) :
    iblk5 V c 1 t (ix2 r d) = V c main_v72 (ix2 (rowOf t.val (tlt t) r) d) := by
  show V c main_v72 (((cfg5.win 1).blk t).view.emb (ix2 r d)) = _
  refine congrArg (V c main_v72) ?_
  obtain ⟨-, -, e0, e1, -⟩ := idx_facts t
  funext a; apply Fin.ext
  match a with
  | ⟨0, _⟩ => show win5_1.index t (0 : Fin 2) * 5000 + 1 * r.val = t.val * 5000 + r.val; omega
  | ⟨1, _⟩ => show win5_1.index t (1 : Fin 2) * 64 + 1 * d.val = d.val; omega

/-- The block of scales at point `t` holds rows `5000·t + r` of the scale column. -/
theorem blk_s (c : Dev nD) (t : Fin cfg5.N) (r : Fin 5000) :
    iblk5 V c 2 t (ix2 r (0 : Fin 1)) = V c main_v87 (ix2 (rowOf t.val (tlt t) r) (0 : Fin 1)) := by
  show V c main_v87 (((cfg5.win 2).blk t).view.emb (ix2 r (0 : Fin 1))) = _
  refine congrArg (V c main_v87) ?_
  obtain ⟨-, -, -, -, e0, e1, -⟩ := idx_facts t
  funext a; apply Fin.ext
  match a with
  | ⟨0, _⟩ => show win5_2.index t (0 : Fin 2) * 5000 + 1 * r.val = t.val * 5000 + r.val; omega
  | ⟨1, _⟩ => show win5_2.index t (1 : Fin 2) * 1 + 1 * 0 = 0; omega

/-- The bias block is the whole bias row. -/
theorem blk_b (c : Dev nD) (t : Fin cfg5.N) : iblk5 V c 3 t = V c main_v86 := by
  funext y
  show V c main_v86 (((cfg5.win 3).blk t).view.emb y) = _
  refine congrArg (V c main_v86) ?_
  obtain ⟨-, -, -, -, -, -, e0, e1, -⟩ := idx_facts t
  funext a; apply Fin.ext
  match a with
  | ⟨0, _⟩ => show win5_3.index t (0 : Fin 2) * 1 + 1 * (y 0).val = (y 0).val; omega
  | ⟨1, _⟩ => show win5_3.index t (1 : Fin 2) * 64 + 1 * (y 1).val = (y 1).val; omega

/-- Position `(r, d)` of the result block at point `t` is position `(5000·t + r, d)` of the result array. -/
theorem emb_out (t : Fin cfg5.N) (j : S5000x64.Idx) :
    ((cfg5.win 4).blk t).view.emb j = ix2 (rowOf t.val (tlt t) (j 0)) (j 1) := by
  obtain ⟨-, -, -, -, -, -, -, -, e0, e1, -⟩ := idx_facts t
  funext a; apply Fin.ext
  match a with
  | ⟨0, _⟩ => show win5_4.index t (0 : Fin 2) * 5000 + 1 * (j 0).val = t.val * 5000 + (j 0).val; omega
  | ⟨1, _⟩ => show win5_4.index t (1 : Fin 2) * 64 + 1 * (j 1).val = (j 1).val; omega

/-- What point `t` writes back is block `t` of `selfLoop` of the arrays the region reads. -/
theorem flushed_eq (c : Dev nD) (t : Fin cfg5.N) :
    (dat5 V c).flushed 4 t
      = ((cfg5.win 4).blk t).view.read (Elt Ideal) (selfLoop (V c main_v85) (V c main_v72) (V c main_v87) (V c main_v86)) := by
  show (cfg5.win 4).cut (grid5.coords t) ((dat5 V c).after 4 t) = _
  rw [after5_4]
  unfold out5_4
  rw [View.canon_unit_zero hz]
  simp only [View.ld_unit_zero (S := S5000x64) hz, View.ld_unit_zero (S := S5000x1) hz, View.ld_unit_zero (S := S1x64) hz]
  rw [Pay.k5_pay1_eq, blk_b V c t]
  funext j
  show selfLoop (iblk5 V c 0 t) (iblk5 V c 1 t) (iblk5 V c 2 t) (V c main_v86) j
      = selfLoop (V c main_v85) (V c main_v72) (V c main_v87) (V c main_v86) (((cfg5.win 4).blk t).view.emb j)
  rw [emb_out t j]
  exact selfLoop_rows (V c main_v85) (V c main_v72) (V c main_v87) (V c main_v86) (iblk5 V c 0 t) (iblk5 V c 1 t) (iblk5 V c 2 t)
    (rowOf t.val (tlt t)) (blk_a V c t) (blk_h V c t) (blk_s V c t) j

/-- An index of the result array is in point `t`'s block iff each coordinate is in the block's range. -/
theorem mem_blk (t : Fin cfg5.N) (i : S50000x64.Idx) :
    i ∈ ((cfg5.win 4).blk t).view.set ↔ ∀ a : Fin 2, win5_4.index t a * S5000x64.size a ≤ (i a).val
      ∧ (i a).val < win5_4.index t a * S5000x64.size a + S5000x64.size a := by
  show i ∈ ((View.whole main_v88).slice (win5_4.rect t)).set ↔ _
  rw [View.set_slice_whole, Rect.mem_set_unit]
  exact Iff.rfl

/-- Every position of the result array is in the block of point `⌊row / 5000⌋`. -/
theorem cover (i : S50000x64.Idx) :
    ∃ t : Fin cfg5.N, (cfg5.win 4).flush t = true ∧ i ∈ ((cfg5.win 4).blk t).view.set := by
  have hi0 : (i 0).val < 50000 := (i 0).isLt
  have hi1 : (i 1).val < 64 := (i 1).isLt
  refine ⟨⟨(i 0).val / 5000, by rw [show cfg5.N = 10 from N_5]; omega⟩, flush5_4 _, ?_⟩
  rw [mem_blk]
  obtain ⟨-, -, -, -, -, -, -, -, e0, e1, -⟩ := idx_facts ⟨(i 0).val / 5000, by rw [show cfg5.N = 10 from N_5]; omega⟩
  intro a
  match a with
  | ⟨0, _⟩ =>
    show win5_4.index _ (0 : Fin 2) * 5000 ≤ (i 0).val ∧ (i 0).val < win5_4.index _ (0 : Fin 2) * 5000 + 5000
    rw [e0]; show (i 0).val / 5000 * 5000 ≤ (i 0).val ∧ (i 0).val < (i 0).val / 5000 * 5000 + 5000; omega
  | ⟨1, _⟩ =>
    show win5_4.index _ (1 : Fin 2) * 64 ≤ (i 1).val ∧ (i 1).val < win5_4.index _ (1 : Fin 2) * 64 + 64
    rw [e1]; omega

/-- The result array after the region. -/
theorem final (c : Dev nD) :
    (dat5 V c).arrAt 4 cfg5.N = selfLoop (V c main_v85) (V c main_v72) (V c main_v87) (V c main_v86) :=
  (dat5 V c).arrAt_eq_of_cover 4 (selfLoop (V c main_v85) (V c main_v72) (V c main_v87) (V c main_v86)) (fun t _ => flushed_eq V c t) cover

end Cert.KernelIdeal.Region5

end
-- ==== Proof.Region6.lean ====
/-
  Region 6 (a projection): the array it leaves is `denseBias` of the three arrays it reads.

  The grid has ten points; point `t` loads rows `5000·t … 5000·t + 4999` of the feature array, the whole weight
  array and the whole bias row, and writes back the same rows of the result. A row of `denseBias` depends on the same
  row of the feature array only, so each written block is the block of the whole-array function, and the ten blocks
  cover the array.
-/
import proofs.«112631_j35502199669066_1_alg».proof.Proof.Gen.KernelIdeal.Frame
import proofs.«112631_j35502199669066_1_alg».proof.Proof.Payloads
import proofs.«112631_j35502199669066_1_alg».proof.Proof.Rows

set_option maxRecDepth 16384

noncomputable section

namespace Cert.KernelIdeal.Region6

open Cert.KernelIdeal Cert.KernelIdeal.Gen Cert.Gcn Cert.KernelIdeal.Rows
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- The printed index maps over the grid: the feature and result windows are at block row `t`, column block 0; the
    weight and bias windows stay at block (0, 0). -/
theorem idx_facts : ∀ t : Fin cfg6.N, win6_0.index t (0 : Fin 2) = t.val ∧ win6_0.index t (1 : Fin 2) = 0
    ∧ win6_1.index t (0 : Fin 2) = 0 ∧ win6_1.index t (1 : Fin 2) = 0
    ∧ win6_2.index t (0 : Fin 2) = 0 ∧ win6_2.index t (1 : Fin 2) = 0
    ∧ win6_3.index t (0 : Fin 2) = t.val ∧ win6_3.index t (1 : Fin 2) = 0 ∧ t.val < 10 :=
  (by decide +kernel : ∀ t : Fin grid6.N, _)

theorem tlt (t : Fin cfg6.N) : t.val < 10 := (idx_facts t).2.2.2.2.2.2.2.2

/-- The feature block at point `t` holds rows `5000·t + r` of the feature array. -/
theorem blk_x (c : Dev nD) (t : Fin cfg6.N) (r : Fin 5000) (k : Fin 64) :
    iblk6 V c 0 t (ix2 r k) = V c main_v88 (ix2 (rowOf t.val (tlt t) r) k) := by
  show V c main_v88 (((cfg6.win 0).blk t).view.emb (ix2 r k)) = _
  refine congrArg (V c main_v88) ?_
  obtain ⟨e0, e1, -⟩ := idx_facts t
  funext a; apply Fin.ext
  match a with
  | ⟨0, _⟩ => show win6_0.index t (0 : Fin 2) * 5000 + 1 * r.val = t.val * 5000 + r.val; omega
  | ⟨1, _⟩ => show win6_0.index t (1 : Fin 2) * 64 + 1 * k.val = k.val; omega

/-- The weight block is the whole weight array. -/
theorem blk_w (c : Dev nD) (t : Fin cfg6.N) : iblk6 V c 1 t = V c main_arg8 := by
  funext y
  show V c main_arg8 (((cfg6.win 1).blk t).view.emb y) = _
  refine congrArg (V c main_arg8) ?_
  obtain ⟨-, -, e0, e1, -⟩ := idx_facts t
  funext a; apply Fin.ext
  match a with
  | ⟨0, _⟩ => show win6_1.index t (0 : Fin 2) * 64 + 1 * (y 0).val = (y 0).val; omega
  | ⟨1, _⟩ => show win6_1.index t (1 : Fin 2) * 1 + 1 * (y 1).val = (y 1).val; omega

/-- The bias block is the whole bias row. -/
theorem blk_b (c : Dev nD) (t : Fin cfg6.N) : iblk6 V c 2 t = V c main_v89 := by
  funext y
  show V c main_v89 (((cfg6.win 2).blk t).view.emb y) = _
  refine congrArg (V c main_v89) ?_
  obtain ⟨-, -, -, -, e0, e1, -⟩ := idx_facts t
  funext a; apply Fin.ext
  match a with
  | ⟨0, _⟩ => show win6_2.index t (0 : Fin 2) * 1 + 1 * (y 0).val = (y 0).val; omega
  | ⟨1, _⟩ => show win6_2.index t (1 : Fin 2) * 1 + 1 * (y 1).val = (y 1).val; omega

/-- Position `(r, d)` of the result block at point `t` is position `(5000·t + r, d)` of the result array. -/
theorem emb_out (t : Fin cfg6.N) (j : S5000x1.Idx) :
    ((cfg6.win 3).blk t).view.emb j = ix2 (rowOf t.val (tlt t) (j 0)) (j 1) := by
  obtain ⟨-, -, -, -, -, -, e0, e1, -⟩ := idx_facts t
  funext a; apply Fin.ext
  match a with
  | ⟨0, _⟩ => show win6_3.index t (0 : Fin 2) * 5000 + 1 * (j 0).val = t.val * 5000 + (j 0).val; omega
  | ⟨1, _⟩ => show win6_3.index t (1 : Fin 2) * 1 + 1 * (j 1).val = (j 1).val; omega

/-- What point `t` writes back is block `t` of `denseBias` of the arrays the region reads. -/
theorem flushed_eq (c : Dev nD) (t : Fin cfg6.N) :
    (dat6 V c).flushed 3 t
      = ((cfg6.win 3).blk t).view.read (Elt Ideal) (denseBias (V c main_v88) (V c main_arg8) (V c main_v89)) := by
  show (cfg6.win 3).cut (grid6.coords t) ((dat6 V c).after 3 t) = _
  rw [after6_3]
  unfold out6_3
  rw [View.canon_unit_zero hz]
  simp only [View.ld_unit_zero (S := S5000x64) hz, View.ld_unit_zero (S := S64x1) hz, View.ld_unit_zero (S := S1x1) hz]
  rw [Pay.k6_pay1_eq, blk_w V c t, blk_b V c t]
  funext j
  show denseBias (iblk6 V c 0 t) (V c main_arg8) (V c main_v89) j
      = denseBias (V c main_v88) (V c main_arg8) (V c main_v89) (((cfg6.win 3).blk t).view.emb j)
  rw [emb_out t j]
  exact denseBias_rows (V c main_v88) (V c main_arg8) (V c main_v89) (iblk6 V c 0 t) (rowOf t.val (tlt t)) (blk_x V c t) j

/-- An index of the result array is in point `t`'s block iff each coordinate is in the block's range. -/
theorem mem_blk (t : Fin cfg6.N) (i : S50000x1.Idx) :
    i ∈ ((cfg6.win 3).blk t).view.set ↔ ∀ a : Fin 2, win6_3.index t a * S5000x1.size a ≤ (i a).val
      ∧ (i a).val < win6_3.index t a * S5000x1.size a + S5000x1.size a := by
  show i ∈ ((View.whole main_v90).slice (win6_3.rect t)).set ↔ _
  rw [View.set_slice_whole, Rect.mem_set_unit]
  exact Iff.rfl

/-- Every position of the result array is in the block of point `⌊row / 5000⌋`. -/
theorem cover (i : S50000x1.Idx) :
    ∃ t : Fin cfg6.N, (cfg6.win 3).flush t = true ∧ i ∈ ((cfg6.win 3).blk t).view.set := by
  have hi0 : (i 0).val < 50000 := (i 0).isLt
  have hi1 : (i 1).val < 1 := (i 1).isLt
  refine ⟨⟨(i 0).val / 5000, by rw [show cfg6.N = 10 from N_6]; omega⟩, flush6_3 _, ?_⟩
  rw [mem_blk]
  obtain ⟨-, -, -, -, -, -, e0, e1, -⟩ := idx_facts ⟨(i 0).val / 5000, by rw [show cfg6.N = 10 from N_6]; omega⟩
  intro a
  match a with
  | ⟨0, _⟩ =>
    show win6_3.index _ (0 : Fin 2) * 5000 ≤ (i 0).val ∧ (i 0).val < win6_3.index _ (0 : Fin 2) * 5000 + 5000
    rw [e0]; show (i 0).val / 5000 * 5000 ≤ (i 0).val ∧ (i 0).val < (i 0).val / 5000 * 5000 + 5000; omega
  | ⟨1, _⟩ =>
    show win6_3.index _ (1 : Fin 2) * 1 ≤ (i 1).val ∧ (i 1).val < win6_3.index _ (1 : Fin 2) * 1 + 1
    rw [e1]; omega

/-- The result array after the region. -/
theorem final (c : Dev nD) :
    (dat6 V c).arrAt 3 cfg6.N = denseBias (V c main_v88) (V c main_arg8) (V c main_v89) :=
  (dat6 V c).arrAt_eq_of_cover 3 (denseBias (V c main_v88) (V c main_arg8) (V c main_v89)) (fun t _ => flushed_eq V c t) cover

end Cert.KernelIdeal.Region6

end
-- ==== Proof.HostReads.lean ====
/-
  What each stretch of host operations between two kernel launches leaves in the buffers the later steps read, as a
  function of the buffer contents `W` the stretch is entered with.

  The first stretch splits the edge list into its source and destination rows, counts each node's incoming edges by a
  scatter-add of ones, and forms the per-node scale `1/sqrt(1 + count)`, its square, and the per-edge product of the
  two endpoint scales. Each later odd stretch gathers the projected features at the edges' sources, scales them per edge
  and scatter-adds them at the destinations (`aggOf`), and reshapes the layer's bias to a row and the squared scales to
  a column. The even stretches only build a zero bias row. A buffer no operation of a stretch writes keeps its contents.
-/
import proofs.«112631_j35502199669066_1_alg».proof.Proof.Gen.KernelIdeal.Launch
import proofs.«112631_j35502199669066_1_alg».proof.Proof.Gen.ReferenceIdeal.Read
import Idealize.ShloMosaic.Lib.StableHlo.Run

set_option maxRecDepth 16384

noncomputable section

namespace Cert.KernelIdeal.HostReads

open Cert.KernelIdeal Cert.KernelIdeal.Gen
open Idealize.ShloMosaic Idealize.ShloMosaic.TcCoe Idealize.SL.Sem Idealize.ShloMosaic.StableHlo

/-- The neighbours' sums of a layer: the projected features `h` gathered at each edge's source (a negative index
    wrapped by the node count), scaled by the edge's weight, scatter-added into zeros at the edge's destination. -/
def aggOf (h : FVec Ideal S50000x64 .f32) (src dst : IVec S800000 32) (nrm : FVec Ideal S800000 .f32) : FVec Ideal S50000x64 .f32 :=
  Host.scatterAdd scatter_S50000x64_S800000x1_S800000x64_1_0_0_1
    (broadcastInDim S50000x64 ![] bcast_S_S50000x64 (constant S_ .f32 0x00000000#32))
    (broadcastInDim S800000x1 ![0] bcast_S800000_S800000x1_0 dst)
    (mulf
      (Host.gather gather_S50000x64_S800000x1_S800000x64_1_0_n_n_0_1_164 h
        (broadcastInDim S800000x1 ![0] bcast_S800000_S800000x1_0
          (select (cmpi .slt src (broadcastInDim S800000 ![] bcast_S_S800000 (constantI S_ 32 0#32)))
            (addi src (broadcastInDim S800000 ![] bcast_S_S800000 (constantI S_ 32 50000#32))) src)))
      (broadcastInDim S800000x64 ![0, 1] bcast_S800000x1_S800000x64_0_1
        (broadcastInDim S800000x1 ![0] bcast_S800000_S800000x1_0 nrm)))

/-- The zero bias row the projections are given. -/
def zeroRow : FVec Ideal S1x64 .f32 :=
  shapeCast S1x64 (broadcastInDim S64 ![] bcast_S_S64 (constant S_ .f32 0x00000000#32)) shapeCasts_S64_S1x64

variable (W : Valuation τ sig (Elt Ideal))

/-! ## The first stretch -/

theorem s0_v1 : StableHlo.after (hostOps0 (F := Ideal)) W (Proc.devRef .tc main_v1)
    = Cert.ReferenceIdeal.Read.val_main_v1 (F := Ideal) (W (Proc.devRef .tc main_arg1)) := by
  after_results_simp; rfl
theorem s0_v3 : StableHlo.after (hostOps0 (F := Ideal)) W (Proc.devRef .tc main_v3)
    = Cert.ReferenceIdeal.Read.val_main_v3 (F := Ideal) (W (Proc.devRef .tc main_arg1)) := by
  after_results_simp; rfl
theorem s0_v16 : StableHlo.after (hostOps0 (F := Ideal)) W (Proc.devRef .tc main_v16)
    = Cert.ReferenceIdeal.Read.val_main_v45 (F := Ideal) (W (Proc.devRef .tc main_arg1)) := by
  after_results_simp; rfl
theorem s0_v31 : StableHlo.after (hostOps0 (F := Ideal)) W (Proc.devRef .tc main_v31)
    = Cert.ReferenceIdeal.Read.val_main_v31 (F := Ideal) (W (Proc.devRef .tc main_arg1)) := by
  after_results_simp; rfl
theorem s0_v33 : StableHlo.after (hostOps0 (F := Ideal)) W (Proc.devRef .tc main_v33) = zeroRow := by
  after_results_simp; rfl
theorem s0_arg0 : StableHlo.after (hostOps0 (F := Ideal)) W (Proc.devRef .tc main_arg0) = W (Proc.devRef .tc main_arg0) := by
  after_results_simp
theorem s0_arg2 : StableHlo.after (hostOps0 (F := Ideal)) W (Proc.devRef .tc main_arg2) = W (Proc.devRef .tc main_arg2) := by
  after_results_simp
theorem s0_arg3 : StableHlo.after (hostOps0 (F := Ideal)) W (Proc.devRef .tc main_arg3) = W (Proc.devRef .tc main_arg3) := by
  after_results_simp
theorem s0_arg4 : StableHlo.after (hostOps0 (F := Ideal)) W (Proc.devRef .tc main_arg4) = W (Proc.devRef .tc main_arg4) := by
  after_results_simp
theorem s0_arg5 : StableHlo.after (hostOps0 (F := Ideal)) W (Proc.devRef .tc main_arg5) = W (Proc.devRef .tc main_arg5) := by
  after_results_simp
theorem s0_arg6 : StableHlo.after (hostOps0 (F := Ideal)) W (Proc.devRef .tc main_arg6) = W (Proc.devRef .tc main_arg6) := by
  after_results_simp
theorem s0_arg7 : StableHlo.after (hostOps0 (F := Ideal)) W (Proc.devRef .tc main_arg7) = W (Proc.devRef .tc main_arg7) := by
  after_results_simp
theorem s0_arg8 : StableHlo.after (hostOps0 (F := Ideal)) W (Proc.devRef .tc main_arg8) = W (Proc.devRef .tc main_arg8) := by
  after_results_simp
theorem s0_arg9 : StableHlo.after (hostOps0 (F := Ideal)) W (Proc.devRef .tc main_arg9) = W (Proc.devRef .tc main_arg9) := by
  after_results_simp

/-! ## The stretch before the first combining step -/

theorem s1_v47 : StableHlo.after (hostOps1 (F := Ideal)) W (Proc.devRef .tc main_v47)
    = aggOf (W (Proc.devRef .tc main_v34)) (W (Proc.devRef .tc main_v1)) (W (Proc.devRef .tc main_v3)) (W (Proc.devRef .tc main_v31)) := by
  after_results_simp; rfl
theorem s1_v48 : StableHlo.after (hostOps1 (F := Ideal)) W (Proc.devRef .tc main_v48)
    = shapeCast S1x64 (W (Proc.devRef .tc main_arg3)) shapeCasts_S64_S1x64 := by
  after_results_simp; rfl
theorem s1_v49 : StableHlo.after (hostOps1 (F := Ideal)) W (Proc.devRef .tc main_v49)
    = shapeCast S50000x1 (W (Proc.devRef .tc main_v16)) shapeCasts_S50000_S50000x1 := by
  after_results_simp; rfl
theorem s1_v34 : StableHlo.after (hostOps1 (F := Ideal)) W (Proc.devRef .tc main_v34) = W (Proc.devRef .tc main_v34) := by
  after_results_simp
theorem s1_v1 : StableHlo.after (hostOps1 (F := Ideal)) W (Proc.devRef .tc main_v1) = W (Proc.devRef .tc main_v1) := by
  after_results_simp
theorem s1_v3 : StableHlo.after (hostOps1 (F := Ideal)) W (Proc.devRef .tc main_v3) = W (Proc.devRef .tc main_v3) := by
  after_results_simp
theorem s1_v16 : StableHlo.after (hostOps1 (F := Ideal)) W (Proc.devRef .tc main_v16) = W (Proc.devRef .tc main_v16) := by
  after_results_simp
theorem s1_v31 : StableHlo.after (hostOps1 (F := Ideal)) W (Proc.devRef .tc main_v31) = W (Proc.devRef .tc main_v31) := by
  after_results_simp
theorem s1_arg4 : StableHlo.after (hostOps1 (F := Ideal)) W (Proc.devRef .tc main_arg4) = W (Proc.devRef .tc main_arg4) := by
  after_results_simp
theorem s1_arg5 : StableHlo.after (hostOps1 (F := Ideal)) W (Proc.devRef .tc main_arg5) = W (Proc.devRef .tc main_arg5) := by
  after_results_simp
theorem s1_arg6 : StableHlo.after (hostOps1 (F := Ideal)) W (Proc.devRef .tc main_arg6) = W (Proc.devRef .tc main_arg6) := by
  after_results_simp
theorem s1_arg7 : StableHlo.after (hostOps1 (F := Ideal)) W (Proc.devRef .tc main_arg7) = W (Proc.devRef .tc main_arg7) := by
  after_results_simp
theorem s1_arg8 : StableHlo.after (hostOps1 (F := Ideal)) W (Proc.devRef .tc main_arg8) = W (Proc.devRef .tc main_arg8) := by
  after_results_simp
theorem s1_arg9 : StableHlo.after (hostOps1 (F := Ideal)) W (Proc.devRef .tc main_arg9) = W (Proc.devRef .tc main_arg9) := by
  after_results_simp

/-! ## The stretch before the second projection -/

theorem s2_v52 : StableHlo.after (hostOps2 (F := Ideal)) W (Proc.devRef .tc main_v52) = zeroRow := by
  after_results_simp; rfl
theorem s2_v50 : StableHlo.after (hostOps2 (F := Ideal)) W (Proc.devRef .tc main_v50) = W (Proc.devRef .tc main_v50) := by
  after_results_simp
theorem s2_v1 : StableHlo.after (hostOps2 (F := Ideal)) W (Proc.devRef .tc main_v1) = W (Proc.devRef .tc main_v1) := by
  after_results_simp
theorem s2_v3 : StableHlo.after (hostOps2 (F := Ideal)) W (Proc.devRef .tc main_v3) = W (Proc.devRef .tc main_v3) := by
  after_results_simp
theorem s2_v16 : StableHlo.after (hostOps2 (F := Ideal)) W (Proc.devRef .tc main_v16) = W (Proc.devRef .tc main_v16) := by
  after_results_simp
theorem s2_v31 : StableHlo.after (hostOps2 (F := Ideal)) W (Proc.devRef .tc main_v31) = W (Proc.devRef .tc main_v31) := by
  after_results_simp
theorem s2_arg4 : StableHlo.after (hostOps2 (F := Ideal)) W (Proc.devRef .tc main_arg4) = W (Proc.devRef .tc main_arg4) := by
  after_results_simp
theorem s2_arg5 : StableHlo.after (hostOps2 (F := Ideal)) W (Proc.devRef .tc main_arg5) = W (Proc.devRef .tc main_arg5) := by
  after_results_simp
theorem s2_arg6 : StableHlo.after (hostOps2 (F := Ideal)) W (Proc.devRef .tc main_arg6) = W (Proc.devRef .tc main_arg6) := by
  after_results_simp
theorem s2_arg7 : StableHlo.after (hostOps2 (F := Ideal)) W (Proc.devRef .tc main_arg7) = W (Proc.devRef .tc main_arg7) := by
  after_results_simp
theorem s2_arg8 : StableHlo.after (hostOps2 (F := Ideal)) W (Proc.devRef .tc main_arg8) = W (Proc.devRef .tc main_arg8) := by
  after_results_simp
theorem s2_arg9 : StableHlo.after (hostOps2 (F := Ideal)) W (Proc.devRef .tc main_arg9) = W (Proc.devRef .tc main_arg9) := by
  after_results_simp

/-! ## The stretch before the second combining step -/

theorem s3_v66 : StableHlo.after (hostOps3 (F := Ideal)) W (Proc.devRef .tc main_v66)
    = aggOf (W (Proc.devRef .tc main_v53)) (W (Proc.devRef .tc main_v1)) (W (Proc.devRef .tc main_v3)) (W (Proc.devRef .tc main_v31)) := by
  after_results_simp; rfl
theorem s3_v67 : StableHlo.after (hostOps3 (F := Ideal)) W (Proc.devRef .tc main_v67)
    = shapeCast S1x64 (W (Proc.devRef .tc main_arg5)) shapeCasts_S64_S1x64 := by
  after_results_simp; rfl
theorem s3_v68 : StableHlo.after (hostOps3 (F := Ideal)) W (Proc.devRef .tc main_v68)
    = shapeCast S50000x1 (W (Proc.devRef .tc main_v16)) shapeCasts_S50000_S50000x1 := by
  after_results_simp; rfl
theorem s3_v53 : StableHlo.after (hostOps3 (F := Ideal)) W (Proc.devRef .tc main_v53) = W (Proc.devRef .tc main_v53) := by
  after_results_simp
theorem s3_v1 : StableHlo.after (hostOps3 (F := Ideal)) W (Proc.devRef .tc main_v1) = W (Proc.devRef .tc main_v1) := by
  after_results_simp
theorem s3_v3 : StableHlo.after (hostOps3 (F := Ideal)) W (Proc.devRef .tc main_v3) = W (Proc.devRef .tc main_v3) := by
  after_results_simp
theorem s3_v16 : StableHlo.after (hostOps3 (F := Ideal)) W (Proc.devRef .tc main_v16) = W (Proc.devRef .tc main_v16) := by
  after_results_simp
theorem s3_v31 : StableHlo.after (hostOps3 (F := Ideal)) W (Proc.devRef .tc main_v31) = W (Proc.devRef .tc main_v31) := by
  after_results_simp
theorem s3_arg6 : StableHlo.after (hostOps3 (F := Ideal)) W (Proc.devRef .tc main_arg6) = W (Proc.devRef .tc main_arg6) := by
  after_results_simp
theorem s3_arg7 : StableHlo.after (hostOps3 (F := Ideal)) W (Proc.devRef .tc main_arg7) = W (Proc.devRef .tc main_arg7) := by
  after_results_simp
theorem s3_arg8 : StableHlo.after (hostOps3 (F := Ideal)) W (Proc.devRef .tc main_arg8) = W (Proc.devRef .tc main_arg8) := by
  after_results_simp
theorem s3_arg9 : StableHlo.after (hostOps3 (F := Ideal)) W (Proc.devRef .tc main_arg9) = W (Proc.devRef .tc main_arg9) := by
  after_results_simp

/-! ## The stretch before the third projection -/

theorem s4_v71 : StableHlo.after (hostOps4 (F := Ideal)) W (Proc.devRef .tc main_v71) = zeroRow := by
  after_results_simp; rfl
theorem s4_v69 : StableHlo.after (hostOps4 (F := Ideal)) W (Proc.devRef .tc main_v69) = W (Proc.devRef .tc main_v69) := by
  after_results_simp
theorem s4_v1 : StableHlo.after (hostOps4 (F := Ideal)) W (Proc.devRef .tc main_v1) = W (Proc.devRef .tc main_v1) := by
  after_results_simp
theorem s4_v3 : StableHlo.after (hostOps4 (F := Ideal)) W (Proc.devRef .tc main_v3) = W (Proc.devRef .tc main_v3) := by
  after_results_simp
theorem s4_v16 : StableHlo.after (hostOps4 (F := Ideal)) W (Proc.devRef .tc main_v16) = W (Proc.devRef .tc main_v16) := by
  after_results_simp
theorem s4_v31 : StableHlo.after (hostOps4 (F := Ideal)) W (Proc.devRef .tc main_v31) = W (Proc.devRef .tc main_v31) := by
  after_results_simp
theorem s4_arg6 : StableHlo.after (hostOps4 (F := Ideal)) W (Proc.devRef .tc main_arg6) = W (Proc.devRef .tc main_arg6) := by
  after_results_simp
theorem s4_arg7 : StableHlo.after (hostOps4 (F := Ideal)) W (Proc.devRef .tc main_arg7) = W (Proc.devRef .tc main_arg7) := by
  after_results_simp
theorem s4_arg8 : StableHlo.after (hostOps4 (F := Ideal)) W (Proc.devRef .tc main_arg8) = W (Proc.devRef .tc main_arg8) := by
  after_results_simp
theorem s4_arg9 : StableHlo.after (hostOps4 (F := Ideal)) W (Proc.devRef .tc main_arg9) = W (Proc.devRef .tc main_arg9) := by
  after_results_simp

/-! ## The stretch before the third combining step -/

theorem s5_v85 : StableHlo.after (hostOps5 (F := Ideal)) W (Proc.devRef .tc main_v85)
    = aggOf (W (Proc.devRef .tc main_v72)) (W (Proc.devRef .tc main_v1)) (W (Proc.devRef .tc main_v3)) (W (Proc.devRef .tc main_v31)) := by
  after_results_simp; rfl
theorem s5_v86 : StableHlo.after (hostOps5 (F := Ideal)) W (Proc.devRef .tc main_v86)
    = shapeCast S1x64 (W (Proc.devRef .tc main_arg7)) shapeCasts_S64_S1x64 := by
  after_results_simp; rfl
theorem s5_v87 : StableHlo.after (hostOps5 (F := Ideal)) W (Proc.devRef .tc main_v87)
    = shapeCast S50000x1 (W (Proc.devRef .tc main_v16)) shapeCasts_S50000_S50000x1 := by
  after_results_simp; rfl
theorem s5_v72 : StableHlo.after (hostOps5 (F := Ideal)) W (Proc.devRef .tc main_v72) = W (Proc.devRef .tc main_v72) := by
  after_results_simp
theorem s5_arg8 : StableHlo.after (hostOps5 (F := Ideal)) W (Proc.devRef .tc main_arg8) = W (Proc.devRef .tc main_arg8) := by
  after_results_simp
theorem s5_arg9 : StableHlo.after (hostOps5 (F := Ideal)) W (Proc.devRef .tc main_arg9) = W (Proc.devRef .tc main_arg9) := by
  after_results_simp

/-! ## The stretch before the output projection -/

theorem s6_v89 : StableHlo.after (hostOps6 (F := Ideal)) W (Proc.devRef .tc main_v89)
    = shapeCast S1x1 (W (Proc.devRef .tc main_arg9)) shapeCasts_S1_S1x1 := by
  after_results_simp; rfl
theorem s6_v88 : StableHlo.after (hostOps6 (F := Ideal)) W (Proc.devRef .tc main_v88) = W (Proc.devRef .tc main_v88) := by
  after_results_simp
theorem s6_arg8 : StableHlo.after (hostOps6 (F := Ideal)) W (Proc.devRef .tc main_arg8) = W (Proc.devRef .tc main_arg8) := by
  after_results_simp

end Cert.KernelIdeal.HostReads

end
-- ==== Proof.Bridge.lean ====
/-
  The two layer maps of `LibLayerMaps.lean` written with the host's own operations.

  On the host a per-node column and a per-feature row reach the full `[50000, 64]` shape by two broadcasts each
  (vector → column → array, vector → row → array); inside a kernel they arrive as a column and a row already (a
  reshape of the vector) and are read at `(r, 0)` and `(0, d)`. Both read the vector at `r`, respectively `d`. The
  host's product with no bias is the kernel's product with a bias row of zeros, since `x + 0 = x` on the extended
  reals; the host's positive part compares with a broadcast zero, the kernel's with a splat zero.
-/
import proofs.«112631_j35502199669066_1_alg».proof.Proof.LibLayerMaps
import proofs.«112631_j35502199669066_1_alg».proof.Proof.LibLayout
import Idealize.ShloMosaic.Lib.Pipeline.Value
import Idealize.ShloMosaic.Lib.ValueLayout

noncomputable section

namespace Cert.Gcn

open Idealize.ShloMosaic Idealize.ShloMosaic.ValueIdx Idealize.ShloMosaic.PlainProduct

/-- A scalar constant broadcast to any shape reads its value everywhere. -/
theorem scalarBcast_apply {t : Shape} (w : BitVec 32) (h : (⟨0, ![]⟩ : Shape).BroadcastsInDim t ![]) (i : t.Idx) :
    broadcastInDim t ![] h (constant (F := Ideal) ⟨0, ![]⟩ .f32 w) i = Ideal.ofBits .f32 w :=
  broadcastInDim_apply ![] h (constant (F := Ideal) ⟨0, ![]⟩ .f32 w) i (fun a => a.elim0) (fun a => a.elim0)

/-- A vector over the nodes broadcast to a column and then over the features reads, at `(r, d)`, the vector at `r`. -/
theorem colBcast_apply (v : FVec Ideal ⟨1, ![50000]⟩ .f32)
    (h1 : (⟨1, ![50000]⟩ : Shape).BroadcastsInDim ⟨2, ![50000, 1]⟩ ![0])
    (h2 : (⟨2, ![50000, 1]⟩ : Shape).BroadcastsInDim ⟨2, ![50000, 64]⟩ ![0, 1]) (r : Fin 50000) (d : Fin 64) :
    broadcastInDim ⟨2, ![50000, 64]⟩ ![0, 1] h2 (broadcastInDim ⟨2, ![50000, 1]⟩ ![0] h1 v) (ix2 r d) = v (ix1 r) :=
  (broadcastInDim_apply ![0, 1] h2 _ (ix2 r d) (ix2 r (0 : Fin 1)) (fun a => match a with
    | ⟨0, _⟩ => by show r.val = if (50000 : Nat) = 1 then 0 else r.val; rw [if_neg (by decide)]
    | ⟨1, _⟩ => by show 0 = if (1 : Nat) = 1 then 0 else d.val; rw [if_pos rfl])).trans
  (broadcastInDim_apply ![0] h1 v (ix2 r (0 : Fin 1)) (ix1 r) (fun a => match a with
    | ⟨0, _⟩ => by show r.val = if (50000 : Nat) = 1 then 0 else r.val; rw [if_neg (by decide)]))

/-- A vector over the features broadcast to a row and then over the nodes reads, at `(r, d)`, the vector at `d`. -/
theorem rowBcast_apply (b : FVec Ideal ⟨1, ![64]⟩ .f32)
    (h1 : (⟨1, ![64]⟩ : Shape).BroadcastsInDim ⟨2, ![1, 64]⟩ ![1])
    (h2 : (⟨2, ![1, 64]⟩ : Shape).BroadcastsInDim ⟨2, ![50000, 64]⟩ ![0, 1]) (r : Fin 50000) (d : Fin 64) :
    broadcastInDim ⟨2, ![50000, 64]⟩ ![0, 1] h2 (broadcastInDim ⟨2, ![1, 64]⟩ ![1] h1 b) (ix2 r d) = b (ix1 d) :=
  (broadcastInDim_apply ![0, 1] h2 _ (ix2 r d) (ix2 (0 : Fin 1) d) (fun a => match a with
    | ⟨0, _⟩ => by show 0 = if (1 : Nat) = 1 then 0 else r.val; rw [if_pos rfl]
    | ⟨1, _⟩ => by show d.val = if (64 : Nat) = 1 then 0 else d.val; rw [if_neg (by decide)])).trans
  (broadcastInDim_apply ![1] h1 b (ix2 (0 : Fin 1) d) (ix1 d) (fun a => match a with
    | ⟨0, _⟩ => by show d.val = if (64 : Nat) = 1 then 0 else d.val; rw [if_neg (by decide)]))

/-- The one-entry bias of the output layer broadcast to a `[50000, 1]` column reads that entry everywhere. -/
theorem oneBcast_apply (b : FVec Ideal ⟨1, ![1]⟩ .f32)
    (h1 : (⟨1, ![1]⟩ : Shape).BroadcastsInDim ⟨2, ![1, 1]⟩ ![1])
    (h2 : (⟨2, ![1, 1]⟩ : Shape).BroadcastsInDim ⟨2, ![50000, 1]⟩ ![0, 1]) (r : Fin 50000) (d : Fin 1) :
    broadcastInDim ⟨2, ![50000, 1]⟩ ![0, 1] h2 (broadcastInDim ⟨2, ![1, 1]⟩ ![1] h1 b) (ix2 r d) = b (ix1 d) :=
  (broadcastInDim_apply ![0, 1] h2 _ (ix2 r d) (ix2 (0 : Fin 1) d) (fun a => match a with
    | ⟨0, _⟩ => by show 0 = if (1 : Nat) = 1 then 0 else r.val; rw [if_pos rfl]
    | ⟨1, _⟩ => by
      show d.val = if (1 : Nat) = 1 then 0 else d.val
      rw [if_pos rfl]; have := d.isLt; omega)).trans
  (broadcastInDim_apply ![1] h1 b (ix2 (0 : Fin 1) d) (ix1 d) (fun a => match a with
    | ⟨0, _⟩ => by
      show d.val = if (1 : Nat) = 1 then 0 else d.val
      rw [if_pos rfl]; have := d.isLt; omega))

/-- The host's product of the features with a weight array is `denseBias` with a bias row of zeros. -/
theorem denseBias_zero {N : Nat} (x : FVec Ideal ⟨2, ![50000, 64]⟩ .f32) (w : FVec Ideal ⟨2, ![64, N]⟩ .f32)
    (z : FVec Ideal ⟨2, ![1, N]⟩ .f32) (hz : ∀ d : Fin N, z (ix2 (0 : Fin 1) d) = 0) :
    denseBias x w z = FloatOps.dotGeneral (DotDims.plain 50000 64 N) none .single x w := by
  funext i
  obtain ⟨r, d, rfl⟩ : ∃ (r : Fin 50000) (d : Fin N), i = ix2 r d := ⟨i 0, i 1, eq_ix2 i⟩
  show rowsByCols x w (ix2 r d) + z (ix2 (0 : Fin 1) d) = _
  rw [hz d, add_zero]
  exact (congrFun (dotGeneral_plain none .single x w) (ix2 r d)).symm

/-- The host's combining step — two broadcasts for the scale column, two for the bias row, the maximum with a
    broadcast zero — is `selfLoop` at the scale vector reshaped to a column and the bias reshaped to a row. -/
theorem selfLoop_hostOps (a h : FVec Ideal ⟨2, ![50000, 64]⟩ .f32) (s : FVec Ideal ⟨1, ![50000]⟩ .f32)
    (b : FVec Ideal ⟨1, ![64]⟩ .f32)
    (h1 : (⟨1, ![50000]⟩ : Shape).BroadcastsInDim ⟨2, ![50000, 1]⟩ ![0])
    (h2 : (⟨2, ![50000, 1]⟩ : Shape).BroadcastsInDim ⟨2, ![50000, 64]⟩ ![0, 1])
    (h3 : (⟨1, ![64]⟩ : Shape).BroadcastsInDim ⟨2, ![1, 64]⟩ ![1])
    (h4 : (⟨2, ![1, 64]⟩ : Shape).BroadcastsInDim ⟨2, ![50000, 64]⟩ ![0, 1])
    (h5 : (⟨0, ![]⟩ : Shape).BroadcastsInDim ⟨2, ![50000, 64]⟩ ![])
    (hc1 : (⟨1, ![50000]⟩ : Shape).ShapeCasts ⟨2, ![50000, 1]⟩) (hc2 : (⟨1, ![64]⟩ : Shape).ShapeCasts ⟨2, ![1, 64]⟩) :
    maximumf (addf (addf a (mulf h (broadcastInDim ⟨2, ![50000, 64]⟩ ![0, 1] h2 (broadcastInDim ⟨2, ![50000, 1]⟩ ![0] h1 s))))
        (broadcastInDim ⟨2, ![50000, 64]⟩ ![0, 1] h4 (broadcastInDim ⟨2, ![1, 64]⟩ ![1] h3 b)))
      (broadcastInDim ⟨2, ![50000, 64]⟩ ![] h5 (constant (F := Ideal) ⟨0, ![]⟩ .f32 0x00000000#32))
    = selfLoop a h (shapeCast ⟨2, ![50000, 1]⟩ s hc1) (shapeCast ⟨2, ![1, 64]⟩ b hc2) := by
  funext i
  obtain ⟨r, d, rfl⟩ : ∃ (r : Fin 50000) (d : Fin 64), i = ix2 r d := ⟨i 0, i 1, eq_ix2 i⟩
  show max ((a (ix2 r d) + h (ix2 r d) * broadcastInDim ⟨2, ![50000, 64]⟩ ![0, 1] h2 (broadcastInDim ⟨2, ![50000, 1]⟩ ![0] h1 s) (ix2 r d))
        + broadcastInDim ⟨2, ![50000, 64]⟩ ![0, 1] h4 (broadcastInDim ⟨2, ![1, 64]⟩ ![1] h3 b) (ix2 r d))
      (broadcastInDim ⟨2, ![50000, 64]⟩ ![] h5 (constant (F := Ideal) ⟨0, ![]⟩ .f32 0x00000000#32) (ix2 r d))
    = max ((a (ix2 r d) + h (ix2 r d) * shapeCast ⟨2, ![50000, 1]⟩ s hc1 (ix2 r (0 : Fin 1)))
        + shapeCast ⟨2, ![1, 64]⟩ b hc2 (ix2 (0 : Fin 1) d)) (Ideal.ofBits .f32 0x00000000#32)
  rw [colBcast_apply s h1 h2 r d, rowBcast_apply b h3 h4 r d, scalarBcast_apply,
    Cert.LibLayout.shapeCast_a_a1_apply s hc1 r (0 : Fin 1), shapeCast_a_1a_apply b hc2 (0 : Fin 1) d]

/-- The host's output layer — the product, then the one-entry bias broadcast over the nodes — is `denseBias` at the
    bias reshaped to a `[1, 1]` array. -/
theorem denseBias_hostOps (x : FVec Ideal ⟨2, ![50000, 64]⟩ .f32) (w : FVec Ideal ⟨2, ![64, 1]⟩ .f32) (b : FVec Ideal ⟨1, ![1]⟩ .f32)
    (h1 : (⟨1, ![1]⟩ : Shape).BroadcastsInDim ⟨2, ![1, 1]⟩ ![1])
    (h2 : (⟨2, ![1, 1]⟩ : Shape).BroadcastsInDim ⟨2, ![50000, 1]⟩ ![0, 1])
    (hc : (⟨1, ![1]⟩ : Shape).ShapeCasts ⟨2, ![1, 1]⟩) :
    addf (FloatOps.dotGeneral (DotDims.plain 50000 64 1) none .single x w)
        (broadcastInDim ⟨2, ![50000, 1]⟩ ![0, 1] h2 (broadcastInDim ⟨2, ![1, 1]⟩ ![1] h1 b))
      = denseBias x w (shapeCast ⟨2, ![1, 1]⟩ b hc) := by
  funext i
  obtain ⟨r, d, rfl⟩ : ∃ (r : Fin 50000) (d : Fin 1), i = ix2 r d := ⟨i 0, i 1, eq_ix2 i⟩
  show FloatOps.dotGeneral (DotDims.plain 50000 64 1) none .single x w (ix2 r d)
      + broadcastInDim ⟨2, ![50000, 1]⟩ ![0, 1] h2 (broadcastInDim ⟨2, ![1, 1]⟩ ![1] h1 b) (ix2 r d)
    = rowsByCols x w (ix2 r d) + shapeCast ⟨2, ![1, 1]⟩ b hc (ix2 (0 : Fin 1) d)
  rw [oneBcast_apply b h1 h2 r d, shapeCast_a_1a_apply b hc (0 : Fin 1) d, dotGeneral_plain none .single x w]

end Cert.Gcn

end
-- ==== Proof.Chain.lean ====
/-
  The result buffer at the end of the idealized kernel's run, walked back to the arguments.

  The contents of the buffers at each boundary between a stretch of host operations and a kernel launch are a fold from
  the launch memory. Each lemma `aK_b` below reads buffer `b` at boundary `K` as the reference's own term for the
  same quantity (its stage functions over the arguments): the edge rows, the squared per-node scale, the per-edge
  weight and the arguments are carried along unchanged; a projection launch leaves `denseBias` of what it reads with a
  zero bias row, which is the host's product; the odd stretches form the neighbours' sums by the host's gather and
  scatter-add, the same operations the reference applies; a combining launch leaves `selfLoop`, which is the
  reference's sum, scale, bias and positive part. The last projection, with the output bias, gives the reference's
  result.
-/
import proofs.«112631_j35502199669066_1_alg».proof.Proof.Region0
import proofs.«112631_j35502199669066_1_alg».proof.Proof.Region1
import proofs.«112631_j35502199669066_1_alg».proof.Proof.Region2
import proofs.«112631_j35502199669066_1_alg».proof.Proof.Region3
import proofs.«112631_j35502199669066_1_alg».proof.Proof.Region4
import proofs.«112631_j35502199669066_1_alg».proof.Proof.Region5
import proofs.«112631_j35502199669066_1_alg».proof.Proof.Region6
import proofs.«112631_j35502199669066_1_alg».proof.Proof.HostReads
import proofs.«112631_j35502199669066_1_alg».proof.Proof.Bridge

set_option maxRecDepth 16384

noncomputable section

namespace Cert.KernelIdeal.Chain

open Cert.KernelIdeal Cert.KernelIdeal.Gen Cert.Gcn Cert.KernelIdeal.HostReads
open Idealize.ShloMosaic Idealize.ShloMosaic.TcCoe Idealize.ShloMosaic.ValueIdx Idealize.SL.Sem Idealize.ShloMosaic.StableHlo

/-- The zero bias row reads zero. -/
theorem zeroRow_apply (d : Fin 64) : zeroRow (ix2 (0 : Fin 1) d) = 0 :=
  (shapeCast_a_1a_apply _ shapeCasts_S64_S1x64 (0 : Fin 1) d).trans
    ((scalarBcast_apply 0x00000000#32 bcast_S_S64 (ix1 d)).trans Ideal.ofBits_zero_f32)

theorem denseBias_congr {N K M : Nat} {x x' : FVec Ideal ⟨2, ![N, K]⟩ .f32} {w w' : FVec Ideal ⟨2, ![K, M]⟩ .f32}
    {b b' : FVec Ideal ⟨2, ![1, M]⟩ .f32} (hx : x = x') (hw : w = w') (hb : b = b') : denseBias x w b = denseBias x' w' b' := by
  subst hx hw hb; rfl

theorem selfLoop_congr {N M : Nat} {a a' h h' : FVec Ideal ⟨2, ![N, M]⟩ .f32} {s s' : FVec Ideal ⟨2, ![N, 1]⟩ .f32}
    {b b' : FVec Ideal ⟨2, ![1, M]⟩ .f32} (ha : a = a') (hh : h = h') (hs : s = s') (hb : b = b') :
    selfLoop a h s b = selfLoop a' h' s' b' := by
  subst ha hh hs hb; rfl

theorem aggOf_congr {h h' : FVec Ideal S50000x64 .f32} {s s' d d' : IVec S800000 32} {n n' : FVec Ideal S800000 .f32}
    (hh : h = h') (hs : s = s') (hd : d = d') (hn : n = n') : aggOf h s d n = aggOf h' s' d' n' := by
  subst hh hs hd hn; rfl

variable (m : (ℓ : Loc nD τ sig) → Buf (Elt Ideal) ℓ) (ρ : Dev nD → PrngReg) (c : Dev nD)

theorem a1_v1 : W1 m ρ c (Proc.devRef .tc main_v1) = (Cert.ReferenceIdeal.Read.val_main_v1 (F := Ideal) (m ((c : Thread nD τ).loc main_arg1))) :=
  s0_v1 (W0 m ρ c)
theorem a1_v3 : W1 m ρ c (Proc.devRef .tc main_v3) = (Cert.ReferenceIdeal.Read.val_main_v3 (F := Ideal) (m ((c : Thread nD τ).loc main_arg1))) :=
  s0_v3 (W0 m ρ c)
theorem a1_v16 : W1 m ρ c (Proc.devRef .tc main_v16) = (Cert.ReferenceIdeal.Read.val_main_v45 (F := Ideal) (m ((c : Thread nD τ).loc main_arg1))) :=
  s0_v16 (W0 m ρ c)
theorem a1_v31 : W1 m ρ c (Proc.devRef .tc main_v31) = (Cert.ReferenceIdeal.Read.val_main_v31 (F := Ideal) (m ((c : Thread nD τ).loc main_arg1))) :=
  s0_v31 (W0 m ρ c)
theorem a1_v33 : W1 m ρ c (Proc.devRef .tc main_v33) = zeroRow :=
  s0_v33 (W0 m ρ c)
theorem a1_arg0 : W1 m ρ c (Proc.devRef .tc main_arg0) = (m ((c : Thread nD τ).loc main_arg0)) :=
  s0_arg0 (W0 m ρ c)
theorem a1_arg2 : W1 m ρ c (Proc.devRef .tc main_arg2) = (m ((c : Thread nD τ).loc main_arg2)) :=
  s0_arg2 (W0 m ρ c)
theorem a1_arg3 : W1 m ρ c (Proc.devRef .tc main_arg3) = (m ((c : Thread nD τ).loc main_arg3)) :=
  s0_arg3 (W0 m ρ c)
theorem a1_arg4 : W1 m ρ c (Proc.devRef .tc main_arg4) = (m ((c : Thread nD τ).loc main_arg4)) :=
  s0_arg4 (W0 m ρ c)
theorem a1_arg5 : W1 m ρ c (Proc.devRef .tc main_arg5) = (m ((c : Thread nD τ).loc main_arg5)) :=
  s0_arg5 (W0 m ρ c)
theorem a1_arg6 : W1 m ρ c (Proc.devRef .tc main_arg6) = (m ((c : Thread nD τ).loc main_arg6)) :=
  s0_arg6 (W0 m ρ c)
theorem a1_arg7 : W1 m ρ c (Proc.devRef .tc main_arg7) = (m ((c : Thread nD τ).loc main_arg7)) :=
  s0_arg7 (W0 m ρ c)
theorem a1_arg8 : W1 m ρ c (Proc.devRef .tc main_arg8) = (m ((c : Thread nD τ).loc main_arg8)) :=
  s0_arg8 (W0 m ρ c)
theorem a1_arg9 : W1 m ρ c (Proc.devRef .tc main_arg9) = (m ((c : Thread nD τ).loc main_arg9)) :=
  s0_arg9 (W0 m ρ c)
/-- The first projection: rows of the features times the first weight array. -/
theorem a2_v34 : W2 m ρ c (Proc.devRef .tc main_v34) = (Cert.ReferenceIdeal.Read.val_main_v16 (F := Ideal) (m ((c : Thread nD τ).loc main_arg0)) (m ((c : Thread nD τ).loc main_arg2))) :=
  (W2_arr m ρ c 3).trans ((Region0.final (V1 m ρ) c).trans
    ((denseBias_congr (a1_arg0 m ρ c) (a1_arg2 m ρ c) (a1_v33 m ρ c)).trans (denseBias_zero (m ((c : Thread nD τ).loc main_arg0)) (m ((c : Thread nD τ).loc main_arg2)) zeroRow zeroRow_apply)))
theorem a2_v1 : W2 m ρ c (Proc.devRef .tc main_v1) = (Cert.ReferenceIdeal.Read.val_main_v1 (F := Ideal) (m ((c : Thread nD τ).loc main_arg1))) :=
  (W2_of_ne m ρ c main_v1 (by decide)).trans (a1_v1 m ρ c)
theorem a2_v3 : W2 m ρ c (Proc.devRef .tc main_v3) = (Cert.ReferenceIdeal.Read.val_main_v3 (F := Ideal) (m ((c : Thread nD τ).loc main_arg1))) :=
  (W2_of_ne m ρ c main_v3 (by decide)).trans (a1_v3 m ρ c)
theorem a2_v16 : W2 m ρ c (Proc.devRef .tc main_v16) = (Cert.ReferenceIdeal.Read.val_main_v45 (F := Ideal) (m ((c : Thread nD τ).loc main_arg1))) :=
  (W2_of_ne m ρ c main_v16 (by decide)).trans (a1_v16 m ρ c)
theorem a2_v31 : W2 m ρ c (Proc.devRef .tc main_v31) = (Cert.ReferenceIdeal.Read.val_main_v31 (F := Ideal) (m ((c : Thread nD τ).loc main_arg1))) :=
  (W2_of_ne m ρ c main_v31 (by decide)).trans (a1_v31 m ρ c)
theorem a2_arg3 : W2 m ρ c (Proc.devRef .tc main_arg3) = (m ((c : Thread nD τ).loc main_arg3)) :=
  (W2_of_ne m ρ c main_arg3 (by decide)).trans (a1_arg3 m ρ c)
theorem a2_arg4 : W2 m ρ c (Proc.devRef .tc main_arg4) = (m ((c : Thread nD τ).loc main_arg4)) :=
  (W2_of_ne m ρ c main_arg4 (by decide)).trans (a1_arg4 m ρ c)
theorem a2_arg5 : W2 m ρ c (Proc.devRef .tc main_arg5) = (m ((c : Thread nD τ).loc main_arg5)) :=
  (W2_of_ne m ρ c main_arg5 (by decide)).trans (a1_arg5 m ρ c)
theorem a2_arg6 : W2 m ρ c (Proc.devRef .tc main_arg6) = (m ((c : Thread nD τ).loc main_arg6)) :=
  (W2_of_ne m ρ c main_arg6 (by decide)).trans (a1_arg6 m ρ c)
theorem a2_arg7 : W2 m ρ c (Proc.devRef .tc main_arg7) = (m ((c : Thread nD τ).loc main_arg7)) :=
  (W2_of_ne m ρ c main_arg7 (by decide)).trans (a1_arg7 m ρ c)
theorem a2_arg8 : W2 m ρ c (Proc.devRef .tc main_arg8) = (m ((c : Thread nD τ).loc main_arg8)) :=
  (W2_of_ne m ρ c main_arg8 (by decide)).trans (a1_arg8 m ρ c)
theorem a2_arg9 : W2 m ρ c (Proc.devRef .tc main_arg9) = (m ((c : Thread nD τ).loc main_arg9)) :=
  (W2_of_ne m ρ c main_arg9 (by decide)).trans (a1_arg9 m ρ c)
/-- The first layer's neighbours' sums. -/
theorem a3_v47 : W3 m ρ c (Proc.devRef .tc main_v47) = (Cert.ReferenceIdeal.Read.val_main_v44 (F := Ideal) (m ((c : Thread nD τ).loc main_arg0)) (m ((c : Thread nD τ).loc main_arg1)) (m ((c : Thread nD τ).loc main_arg2))) :=
  (s1_v47 (W2 m ρ c)).trans (aggOf_congr (a2_v34 m ρ c) (a2_v1 m ρ c) (a2_v3 m ρ c) (a2_v31 m ρ c))
theorem a3_v48 : W3 m ρ c (Proc.devRef .tc main_v48) = (shapeCast S1x64 (m ((c : Thread nD τ).loc main_arg3)) shapeCasts_S64_S1x64) :=
  (s1_v48 (W2 m ρ c)).trans (congrArg (fun v => shapeCast S1x64 v shapeCasts_S64_S1x64) (a2_arg3 m ρ c))
theorem a3_v49 : W3 m ρ c (Proc.devRef .tc main_v49) = (shapeCast S50000x1 (Cert.ReferenceIdeal.Read.val_main_v45 (F := Ideal) (m ((c : Thread nD τ).loc main_arg1))) shapeCasts_S50000_S50000x1) :=
  (s1_v49 (W2 m ρ c)).trans (congrArg (fun v => shapeCast S50000x1 v shapeCasts_S50000_S50000x1) (a2_v16 m ρ c))
theorem a3_v34 : W3 m ρ c (Proc.devRef .tc main_v34) = (Cert.ReferenceIdeal.Read.val_main_v16 (F := Ideal) (m ((c : Thread nD τ).loc main_arg0)) (m ((c : Thread nD τ).loc main_arg2))) :=
  (s1_v34 (W2 m ρ c)).trans (a2_v34 m ρ c)
theorem a3_v1 : W3 m ρ c (Proc.devRef .tc main_v1) = (Cert.ReferenceIdeal.Read.val_main_v1 (F := Ideal) (m ((c : Thread nD τ).loc main_arg1))) :=
  (s1_v1 (W2 m ρ c)).trans (a2_v1 m ρ c)
theorem a3_v3 : W3 m ρ c (Proc.devRef .tc main_v3) = (Cert.ReferenceIdeal.Read.val_main_v3 (F := Ideal) (m ((c : Thread nD τ).loc main_arg1))) :=
  (s1_v3 (W2 m ρ c)).trans (a2_v3 m ρ c)
theorem a3_v16 : W3 m ρ c (Proc.devRef .tc main_v16) = (Cert.ReferenceIdeal.Read.val_main_v45 (F := Ideal) (m ((c : Thread nD τ).loc main_arg1))) :=
  (s1_v16 (W2 m ρ c)).trans (a2_v16 m ρ c)
theorem a3_v31 : W3 m ρ c (Proc.devRef .tc main_v31) = (Cert.ReferenceIdeal.Read.val_main_v31 (F := Ideal) (m ((c : Thread nD τ).loc main_arg1))) :=
  (s1_v31 (W2 m ρ c)).trans (a2_v31 m ρ c)
theorem a3_arg4 : W3 m ρ c (Proc.devRef .tc main_arg4) = (m ((c : Thread nD τ).loc main_arg4)) :=
  (s1_arg4 (W2 m ρ c)).trans (a2_arg4 m ρ c)
theorem a3_arg5 : W3 m ρ c (Proc.devRef .tc main_arg5) = (m ((c : Thread nD τ).loc main_arg5)) :=
  (s1_arg5 (W2 m ρ c)).trans (a2_arg5 m ρ c)
theorem a3_arg6 : W3 m ρ c (Proc.devRef .tc main_arg6) = (m ((c : Thread nD τ).loc main_arg6)) :=
  (s1_arg6 (W2 m ρ c)).trans (a2_arg6 m ρ c)
theorem a3_arg7 : W3 m ρ c (Proc.devRef .tc main_arg7) = (m ((c : Thread nD τ).loc main_arg7)) :=
  (s1_arg7 (W2 m ρ c)).trans (a2_arg7 m ρ c)
theorem a3_arg8 : W3 m ρ c (Proc.devRef .tc main_arg8) = (m ((c : Thread nD τ).loc main_arg8)) :=
  (s1_arg8 (W2 m ρ c)).trans (a2_arg8 m ρ c)
theorem a3_arg9 : W3 m ρ c (Proc.devRef .tc main_arg9) = (m ((c : Thread nD τ).loc main_arg9)) :=
  (s1_arg9 (W2 m ρ c)).trans (a2_arg9 m ρ c)
/-- The first layer's output. -/
theorem a4_v50 : W4 m ρ c (Proc.devRef .tc main_v50) = (Cert.ReferenceIdeal.Read.val_main_v53 (F := Ideal) (m ((c : Thread nD τ).loc main_arg0)) (m ((c : Thread nD τ).loc main_arg1)) (m ((c : Thread nD τ).loc main_arg2)) (m ((c : Thread nD τ).loc main_arg3))) :=
  (W4_arr m ρ c 4).trans ((Region1.final (V3 m ρ) c).trans
    ((selfLoop_congr (a3_v47 m ρ c) (a3_v34 m ρ c) (a3_v49 m ρ c) (a3_v48 m ρ c)).trans
      (selfLoop_hostOps (Cert.ReferenceIdeal.Read.val_main_v44 (F := Ideal) (m ((c : Thread nD τ).loc main_arg0)) (m ((c : Thread nD τ).loc main_arg1)) (m ((c : Thread nD τ).loc main_arg2))) (Cert.ReferenceIdeal.Read.val_main_v16 (F := Ideal) (m ((c : Thread nD τ).loc main_arg0)) (m ((c : Thread nD τ).loc main_arg2))) (Cert.ReferenceIdeal.Read.val_main_v45 (F := Ideal) (m ((c : Thread nD τ).loc main_arg1))) (m ((c : Thread nD τ).loc main_arg3)) Cert.ReferenceIdeal.Facts₀.bcast_S50000_S50000x1_0 Cert.ReferenceIdeal.Facts₀.bcast_S50000x1_S50000x64_0_1
        Cert.ReferenceIdeal.Facts₀.bcast_S64_S1x64_1 Cert.ReferenceIdeal.Facts₀.bcast_S1x64_S50000x64_0_1 Cert.ReferenceIdeal.Facts₀.bcast_S_S50000x64 shapeCasts_S50000_S50000x1 shapeCasts_S64_S1x64).symm))
theorem a4_v1 : W4 m ρ c (Proc.devRef .tc main_v1) = (Cert.ReferenceIdeal.Read.val_main_v1 (F := Ideal) (m ((c : Thread nD τ).loc main_arg1))) :=
  (W4_of_ne m ρ c main_v1 (by decide)).trans (a3_v1 m ρ c)
theorem a4_v3 : W4 m ρ c (Proc.devRef .tc main_v3) = (Cert.ReferenceIdeal.Read.val_main_v3 (F := Ideal) (m ((c : Thread nD τ).loc main_arg1))) :=
  (W4_of_ne m ρ c main_v3 (by decide)).trans (a3_v3 m ρ c)
theorem a4_v16 : W4 m ρ c (Proc.devRef .tc main_v16) = (Cert.ReferenceIdeal.Read.val_main_v45 (F := Ideal) (m ((c : Thread nD τ).loc main_arg1))) :=
  (W4_of_ne m ρ c main_v16 (by decide)).trans (a3_v16 m ρ c)
theorem a4_v31 : W4 m ρ c (Proc.devRef .tc main_v31) = (Cert.ReferenceIdeal.Read.val_main_v31 (F := Ideal) (m ((c : Thread nD τ).loc main_arg1))) :=
  (W4_of_ne m ρ c main_v31 (by decide)).trans (a3_v31 m ρ c)
theorem a4_arg4 : W4 m ρ c (Proc.devRef .tc main_arg4) = (m ((c : Thread nD τ).loc main_arg4)) :=
  (W4_of_ne m ρ c main_arg4 (by decide)).trans (a3_arg4 m ρ c)
theorem a4_arg5 : W4 m ρ c (Proc.devRef .tc main_arg5) = (m ((c : Thread nD τ).loc main_arg5)) :=
  (W4_of_ne m ρ c main_arg5 (by decide)).trans (a3_arg5 m ρ c)
theorem a4_arg6 : W4 m ρ c (Proc.devRef .tc main_arg6) = (m ((c : Thread nD τ).loc main_arg6)) :=
  (W4_of_ne m ρ c main_arg6 (by decide)).trans (a3_arg6 m ρ c)
theorem a4_arg7 : W4 m ρ c (Proc.devRef .tc main_arg7) = (m ((c : Thread nD τ).loc main_arg7)) :=
  (W4_of_ne m ρ c main_arg7 (by decide)).trans (a3_arg7 m ρ c)
theorem a4_arg8 : W4 m ρ c (Proc.devRef .tc main_arg8) = (m ((c : Thread nD τ).loc main_arg8)) :=
  (W4_of_ne m ρ c main_arg8 (by decide)).trans (a3_arg8 m ρ c)
theorem a4_arg9 : W4 m ρ c (Proc.devRef .tc main_arg9) = (m ((c : Thread nD τ).loc main_arg9)) :=
  (W4_of_ne m ρ c main_arg9 (by decide)).trans (a3_arg9 m ρ c)
theorem a5_v52 : W5 m ρ c (Proc.devRef .tc main_v52) = zeroRow :=
  s2_v52 (W4 m ρ c)
theorem a5_v50 : W5 m ρ c (Proc.devRef .tc main_v50) = (Cert.ReferenceIdeal.Read.val_main_v53 (F := Ideal) (m ((c : Thread nD τ).loc main_arg0)) (m ((c : Thread nD τ).loc main_arg1)) (m ((c : Thread nD τ).loc main_arg2)) (m ((c : Thread nD τ).loc main_arg3))) :=
  (s2_v50 (W4 m ρ c)).trans (a4_v50 m ρ c)
theorem a5_v1 : W5 m ρ c (Proc.devRef .tc main_v1) = (Cert.ReferenceIdeal.Read.val_main_v1 (F := Ideal) (m ((c : Thread nD τ).loc main_arg1))) :=
  (s2_v1 (W4 m ρ c)).trans (a4_v1 m ρ c)
theorem a5_v3 : W5 m ρ c (Proc.devRef .tc main_v3) = (Cert.ReferenceIdeal.Read.val_main_v3 (F := Ideal) (m ((c : Thread nD τ).loc main_arg1))) :=
  (s2_v3 (W4 m ρ c)).trans (a4_v3 m ρ c)
theorem a5_v16 : W5 m ρ c (Proc.devRef .tc main_v16) = (Cert.ReferenceIdeal.Read.val_main_v45 (F := Ideal) (m ((c : Thread nD τ).loc main_arg1))) :=
  (s2_v16 (W4 m ρ c)).trans (a4_v16 m ρ c)
theorem a5_v31 : W5 m ρ c (Proc.devRef .tc main_v31) = (Cert.ReferenceIdeal.Read.val_main_v31 (F := Ideal) (m ((c : Thread nD τ).loc main_arg1))) :=
  (s2_v31 (W4 m ρ c)).trans (a4_v31 m ρ c)
theorem a5_arg4 : W5 m ρ c (Proc.devRef .tc main_arg4) = (m ((c : Thread nD τ).loc main_arg4)) :=
  (s2_arg4 (W4 m ρ c)).trans (a4_arg4 m ρ c)
theorem a5_arg5 : W5 m ρ c (Proc.devRef .tc main_arg5) = (m ((c : Thread nD τ).loc main_arg5)) :=
  (s2_arg5 (W4 m ρ c)).trans (a4_arg5 m ρ c)
theorem a5_arg6 : W5 m ρ c (Proc.devRef .tc main_arg6) = (m ((c : Thread nD τ).loc main_arg6)) :=
  (s2_arg6 (W4 m ρ c)).trans (a4_arg6 m ρ c)
theorem a5_arg7 : W5 m ρ c (Proc.devRef .tc main_arg7) = (m ((c : Thread nD τ).loc main_arg7)) :=
  (s2_arg7 (W4 m ρ c)).trans (a4_arg7 m ρ c)
theorem a5_arg8 : W5 m ρ c (Proc.devRef .tc main_arg8) = (m ((c : Thread nD τ).loc main_arg8)) :=
  (s2_arg8 (W4 m ρ c)).trans (a4_arg8 m ρ c)
theorem a5_arg9 : W5 m ρ c (Proc.devRef .tc main_arg9) = (m ((c : Thread nD τ).loc main_arg9)) :=
  (s2_arg9 (W4 m ρ c)).trans (a4_arg9 m ρ c)
/-- The second projection. -/
theorem a6_v53 : W6 m ρ c (Proc.devRef .tc main_v53) = (Cert.ReferenceIdeal.Read.val_main_v54 (F := Ideal) (m ((c : Thread nD τ).loc main_arg0)) (m ((c : Thread nD τ).loc main_arg1)) (m ((c : Thread nD τ).loc main_arg2)) (m ((c : Thread nD τ).loc main_arg3)) (m ((c : Thread nD τ).loc main_arg4))) :=
  (W6_arr m ρ c 3).trans ((Region2.final (V5 m ρ) c).trans
    ((denseBias_congr (a5_v50 m ρ c) (a5_arg4 m ρ c) (a5_v52 m ρ c)).trans (denseBias_zero (Cert.ReferenceIdeal.Read.val_main_v53 (F := Ideal) (m ((c : Thread nD τ).loc main_arg0)) (m ((c : Thread nD τ).loc main_arg1)) (m ((c : Thread nD τ).loc main_arg2)) (m ((c : Thread nD τ).loc main_arg3))) (m ((c : Thread nD τ).loc main_arg4)) zeroRow zeroRow_apply)))
theorem a6_v1 : W6 m ρ c (Proc.devRef .tc main_v1) = (Cert.ReferenceIdeal.Read.val_main_v1 (F := Ideal) (m ((c : Thread nD τ).loc main_arg1))) :=
  (W6_of_ne m ρ c main_v1 (by decide)).trans (a5_v1 m ρ c)
theorem a6_v3 : W6 m ρ c (Proc.devRef .tc main_v3) = (Cert.ReferenceIdeal.Read.val_main_v3 (F := Ideal) (m ((c : Thread nD τ).loc main_arg1))) :=
  (W6_of_ne m ρ c main_v3 (by decide)).trans (a5_v3 m ρ c)
theorem a6_v16 : W6 m ρ c (Proc.devRef .tc main_v16) = (Cert.ReferenceIdeal.Read.val_main_v45 (F := Ideal) (m ((c : Thread nD τ).loc main_arg1))) :=
  (W6_of_ne m ρ c main_v16 (by decide)).trans (a5_v16 m ρ c)
theorem a6_v31 : W6 m ρ c (Proc.devRef .tc main_v31) = (Cert.ReferenceIdeal.Read.val_main_v31 (F := Ideal) (m ((c : Thread nD τ).loc main_arg1))) :=
  (W6_of_ne m ρ c main_v31 (by decide)).trans (a5_v31 m ρ c)
theorem a6_arg5 : W6 m ρ c (Proc.devRef .tc main_arg5) = (m ((c : Thread nD τ).loc main_arg5)) :=
  (W6_of_ne m ρ c main_arg5 (by decide)).trans (a5_arg5 m ρ c)
theorem a6_arg6 : W6 m ρ c (Proc.devRef .tc main_arg6) = (m ((c : Thread nD τ).loc main_arg6)) :=
  (W6_of_ne m ρ c main_arg6 (by decide)).trans (a5_arg6 m ρ c)
theorem a6_arg7 : W6 m ρ c (Proc.devRef .tc main_arg7) = (m ((c : Thread nD τ).loc main_arg7)) :=
  (W6_of_ne m ρ c main_arg7 (by decide)).trans (a5_arg7 m ρ c)
theorem a6_arg8 : W6 m ρ c (Proc.devRef .tc main_arg8) = (m ((c : Thread nD τ).loc main_arg8)) :=
  (W6_of_ne m ρ c main_arg8 (by decide)).trans (a5_arg8 m ρ c)
theorem a6_arg9 : W6 m ρ c (Proc.devRef .tc main_arg9) = (m ((c : Thread nD τ).loc main_arg9)) :=
  (W6_of_ne m ρ c main_arg9 (by decide)).trans (a5_arg9 m ρ c)
/-- The second layer's neighbours' sums. -/
theorem a7_v66 : W7 m ρ c (Proc.devRef .tc main_v66) = (Cert.ReferenceIdeal.Read.val_main_v82 (F := Ideal) (m ((c : Thread nD τ).loc main_arg0)) (m ((c : Thread nD τ).loc main_arg1)) (m ((c : Thread nD τ).loc main_arg2)) (m ((c : Thread nD τ).loc main_arg3)) (m ((c : Thread nD τ).loc main_arg4))) :=
  (s3_v66 (W6 m ρ c)).trans (aggOf_congr (a6_v53 m ρ c) (a6_v1 m ρ c) (a6_v3 m ρ c) (a6_v31 m ρ c))
theorem a7_v67 : W7 m ρ c (Proc.devRef .tc main_v67) = (shapeCast S1x64 (m ((c : Thread nD τ).loc main_arg5)) shapeCasts_S64_S1x64) :=
  (s3_v67 (W6 m ρ c)).trans (congrArg (fun v => shapeCast S1x64 v shapeCasts_S64_S1x64) (a6_arg5 m ρ c))
theorem a7_v68 : W7 m ρ c (Proc.devRef .tc main_v68) = (shapeCast S50000x1 (Cert.ReferenceIdeal.Read.val_main_v45 (F := Ideal) (m ((c : Thread nD τ).loc main_arg1))) shapeCasts_S50000_S50000x1) :=
  (s3_v68 (W6 m ρ c)).trans (congrArg (fun v => shapeCast S50000x1 v shapeCasts_S50000_S50000x1) (a6_v16 m ρ c))
theorem a7_v53 : W7 m ρ c (Proc.devRef .tc main_v53) = (Cert.ReferenceIdeal.Read.val_main_v54 (F := Ideal) (m ((c : Thread nD τ).loc main_arg0)) (m ((c : Thread nD τ).loc main_arg1)) (m ((c : Thread nD τ).loc main_arg2)) (m ((c : Thread nD τ).loc main_arg3)) (m ((c : Thread nD τ).loc main_arg4))) :=
  (s3_v53 (W6 m ρ c)).trans (a6_v53 m ρ c)
theorem a7_v1 : W7 m ρ c (Proc.devRef .tc main_v1) = (Cert.ReferenceIdeal.Read.val_main_v1 (F := Ideal) (m ((c : Thread nD τ).loc main_arg1))) :=
  (s3_v1 (W6 m ρ c)).trans (a6_v1 m ρ c)
theorem a7_v3 : W7 m ρ c (Proc.devRef .tc main_v3) = (Cert.ReferenceIdeal.Read.val_main_v3 (F := Ideal) (m ((c : Thread nD τ).loc main_arg1))) :=
  (s3_v3 (W6 m ρ c)).trans (a6_v3 m ρ c)
theorem a7_v16 : W7 m ρ c (Proc.devRef .tc main_v16) = (Cert.ReferenceIdeal.Read.val_main_v45 (F := Ideal) (m ((c : Thread nD τ).loc main_arg1))) :=
  (s3_v16 (W6 m ρ c)).trans (a6_v16 m ρ c)
theorem a7_v31 : W7 m ρ c (Proc.devRef .tc main_v31) = (Cert.ReferenceIdeal.Read.val_main_v31 (F := Ideal) (m ((c : Thread nD τ).loc main_arg1))) :=
  (s3_v31 (W6 m ρ c)).trans (a6_v31 m ρ c)
theorem a7_arg6 : W7 m ρ c (Proc.devRef .tc main_arg6) = (m ((c : Thread nD τ).loc main_arg6)) :=
  (s3_arg6 (W6 m ρ c)).trans (a6_arg6 m ρ c)
theorem a7_arg7 : W7 m ρ c (Proc.devRef .tc main_arg7) = (m ((c : Thread nD τ).loc main_arg7)) :=
  (s3_arg7 (W6 m ρ c)).trans (a6_arg7 m ρ c)
theorem a7_arg8 : W7 m ρ c (Proc.devRef .tc main_arg8) = (m ((c : Thread nD τ).loc main_arg8)) :=
  (s3_arg8 (W6 m ρ c)).trans (a6_arg8 m ρ c)
theorem a7_arg9 : W7 m ρ c (Proc.devRef .tc main_arg9) = (m ((c : Thread nD τ).loc main_arg9)) :=
  (s3_arg9 (W6 m ρ c)).trans (a6_arg9 m ρ c)
/-- The second layer's output. -/
theorem a8_v69 : W8 m ρ c (Proc.devRef .tc main_v69) = (Cert.ReferenceIdeal.Read.val_main_v91 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) :=
  (W8_arr m ρ c 4).trans ((Region3.final (V7 m ρ) c).trans
    ((selfLoop_congr (a7_v66 m ρ c) (a7_v53 m ρ c) (a7_v68 m ρ c) (a7_v67 m ρ c)).trans
      (selfLoop_hostOps (Cert.ReferenceIdeal.Read.val_main_v82 (F := Ideal) (m ((c : Thread nD τ).loc main_arg0)) (m ((c : Thread nD τ).loc main_arg1)) (m ((c : Thread nD τ).loc main_arg2)) (m ((c : Thread nD τ).loc main_arg3)) (m ((c : Thread nD τ).loc main_arg4))) (Cert.ReferenceIdeal.Read.val_main_v54 (F := Ideal) (m ((c : Thread nD τ).loc main_arg0)) (m ((c : Thread nD τ).loc main_arg1)) (m ((c : Thread nD τ).loc main_arg2)) (m ((c : Thread nD τ).loc main_arg3)) (m ((c : Thread nD τ).loc main_arg4))) (Cert.ReferenceIdeal.Read.val_main_v45 (F := Ideal) (m ((c : Thread nD τ).loc main_arg1))) (m ((c : Thread nD τ).loc main_arg5)) Cert.ReferenceIdeal.Facts₀.bcast_S50000_S50000x1_0 Cert.ReferenceIdeal.Facts₀.bcast_S50000x1_S50000x64_0_1
        Cert.ReferenceIdeal.Facts₀.bcast_S64_S1x64_1 Cert.ReferenceIdeal.Facts₀.bcast_S1x64_S50000x64_0_1 Cert.ReferenceIdeal.Facts₀.bcast_S_S50000x64 shapeCasts_S50000_S50000x1 shapeCasts_S64_S1x64).symm))
theorem a8_v1 : W8 m ρ c (Proc.devRef .tc main_v1) = (Cert.ReferenceIdeal.Read.val_main_v1 (F := Ideal) (m ((c : Thread nD τ).loc main_arg1))) :=
  (W8_of_ne m ρ c main_v1 (by decide)).trans (a7_v1 m ρ c)
theorem a8_v3 : W8 m ρ c (Proc.devRef .tc main_v3) = (Cert.ReferenceIdeal.Read.val_main_v3 (F := Ideal) (m ((c : Thread nD τ).loc main_arg1))) :=
  (W8_of_ne m ρ c main_v3 (by decide)).trans (a7_v3 m ρ c)
theorem a8_v16 : W8 m ρ c (Proc.devRef .tc main_v16) = (Cert.ReferenceIdeal.Read.val_main_v45 (F := Ideal) (m ((c : Thread nD τ).loc main_arg1))) :=
  (W8_of_ne m ρ c main_v16 (by decide)).trans (a7_v16 m ρ c)
theorem a8_v31 : W8 m ρ c (Proc.devRef .tc main_v31) = (Cert.ReferenceIdeal.Read.val_main_v31 (F := Ideal) (m ((c : Thread nD τ).loc main_arg1))) :=
  (W8_of_ne m ρ c main_v31 (by decide)).trans (a7_v31 m ρ c)
theorem a8_arg6 : W8 m ρ c (Proc.devRef .tc main_arg6) = (m ((c : Thread nD τ).loc main_arg6)) :=
  (W8_of_ne m ρ c main_arg6 (by decide)).trans (a7_arg6 m ρ c)
theorem a8_arg7 : W8 m ρ c (Proc.devRef .tc main_arg7) = (m ((c : Thread nD τ).loc main_arg7)) :=
  (W8_of_ne m ρ c main_arg7 (by decide)).trans (a7_arg7 m ρ c)
theorem a8_arg8 : W8 m ρ c (Proc.devRef .tc main_arg8) = (m ((c : Thread nD τ).loc main_arg8)) :=
  (W8_of_ne m ρ c main_arg8 (by decide)).trans (a7_arg8 m ρ c)
theorem a8_arg9 : W8 m ρ c (Proc.devRef .tc main_arg9) = (m ((c : Thread nD τ).loc main_arg9)) :=
  (W8_of_ne m ρ c main_arg9 (by decide)).trans (a7_arg9 m ρ c)
theorem a9_v71 : W9 m ρ c (Proc.devRef .tc main_v71) = zeroRow :=
  s4_v71 (W8 m ρ c)
theorem a9_v69 : W9 m ρ c (Proc.devRef .tc main_v69) = (Cert.ReferenceIdeal.Read.val_main_v91 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) :=
  (s4_v69 (W8 m ρ c)).trans (a8_v69 m ρ c)
theorem a9_v1 : W9 m ρ c (Proc.devRef .tc main_v1) = (Cert.ReferenceIdeal.Read.val_main_v1 (F := Ideal) (m ((c : Thread nD τ).loc main_arg1))) :=
  (s4_v1 (W8 m ρ c)).trans (a8_v1 m ρ c)
theorem a9_v3 : W9 m ρ c (Proc.devRef .tc main_v3) = (Cert.ReferenceIdeal.Read.val_main_v3 (F := Ideal) (m ((c : Thread nD τ).loc main_arg1))) :=
  (s4_v3 (W8 m ρ c)).trans (a8_v3 m ρ c)
theorem a9_v16 : W9 m ρ c (Proc.devRef .tc main_v16) = (Cert.ReferenceIdeal.Read.val_main_v45 (F := Ideal) (m ((c : Thread nD τ).loc main_arg1))) :=
  (s4_v16 (W8 m ρ c)).trans (a8_v16 m ρ c)
theorem a9_v31 : W9 m ρ c (Proc.devRef .tc main_v31) = (Cert.ReferenceIdeal.Read.val_main_v31 (F := Ideal) (m ((c : Thread nD τ).loc main_arg1))) :=
  (s4_v31 (W8 m ρ c)).trans (a8_v31 m ρ c)
theorem a9_arg6 : W9 m ρ c (Proc.devRef .tc main_arg6) = (m ((c : Thread nD τ).loc main_arg6)) :=
  (s4_arg6 (W8 m ρ c)).trans (a8_arg6 m ρ c)
theorem a9_arg7 : W9 m ρ c (Proc.devRef .tc main_arg7) = (m ((c : Thread nD τ).loc main_arg7)) :=
  (s4_arg7 (W8 m ρ c)).trans (a8_arg7 m ρ c)
theorem a9_arg8 : W9 m ρ c (Proc.devRef .tc main_arg8) = (m ((c : Thread nD τ).loc main_arg8)) :=
  (s4_arg8 (W8 m ρ c)).trans (a8_arg8 m ρ c)
theorem a9_arg9 : W9 m ρ c (Proc.devRef .tc main_arg9) = (m ((c : Thread nD τ).loc main_arg9)) :=
  (s4_arg9 (W8 m ρ c)).trans (a8_arg9 m ρ c)
/-- The third projection. -/
theorem a10_v72 : W10 m ρ c (Proc.devRef .tc main_v72) = (Cert.ReferenceIdeal.Read.val_main_v92 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) :=
  (W10_arr m ρ c 3).trans ((Region4.final (V9 m ρ) c).trans
    ((denseBias_congr (a9_v69 m ρ c) (a9_arg6 m ρ c) (a9_v71 m ρ c)).trans (denseBias_zero (Cert.ReferenceIdeal.Read.val_main_v91 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) (m ((c : Thread nD τ).loc main_arg6)) zeroRow zeroRow_apply)))
theorem a10_v1 : W10 m ρ c (Proc.devRef .tc main_v1) = (Cert.ReferenceIdeal.Read.val_main_v1 (F := Ideal) (m ((c : Thread nD τ).loc main_arg1))) :=
  (W10_of_ne m ρ c main_v1 (by decide)).trans (a9_v1 m ρ c)
theorem a10_v3 : W10 m ρ c (Proc.devRef .tc main_v3) = (Cert.ReferenceIdeal.Read.val_main_v3 (F := Ideal) (m ((c : Thread nD τ).loc main_arg1))) :=
  (W10_of_ne m ρ c main_v3 (by decide)).trans (a9_v3 m ρ c)
theorem a10_v16 : W10 m ρ c (Proc.devRef .tc main_v16) = (Cert.ReferenceIdeal.Read.val_main_v45 (F := Ideal) (m ((c : Thread nD τ).loc main_arg1))) :=
  (W10_of_ne m ρ c main_v16 (by decide)).trans (a9_v16 m ρ c)
theorem a10_v31 : W10 m ρ c (Proc.devRef .tc main_v31) = (Cert.ReferenceIdeal.Read.val_main_v31 (F := Ideal) (m ((c : Thread nD τ).loc main_arg1))) :=
  (W10_of_ne m ρ c main_v31 (by decide)).trans (a9_v31 m ρ c)
theorem a10_arg7 : W10 m ρ c (Proc.devRef .tc main_arg7) = (m ((c : Thread nD τ).loc main_arg7)) :=
  (W10_of_ne m ρ c main_arg7 (by decide)).trans (a9_arg7 m ρ c)
theorem a10_arg8 : W10 m ρ c (Proc.devRef .tc main_arg8) = (m ((c : Thread nD τ).loc main_arg8)) :=
  (W10_of_ne m ρ c main_arg8 (by decide)).trans (a9_arg8 m ρ c)
theorem a10_arg9 : W10 m ρ c (Proc.devRef .tc main_arg9) = (m ((c : Thread nD τ).loc main_arg9)) :=
  (W10_of_ne m ρ c main_arg9 (by decide)).trans (a9_arg9 m ρ c)
/-- The third layer's neighbours' sums. -/
theorem a11_v85 : W11 m ρ c (Proc.devRef .tc main_v85) = (Cert.ReferenceIdeal.Read.val_main_v120 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) :=
  (s5_v85 (W10 m ρ c)).trans (aggOf_congr (a10_v72 m ρ c) (a10_v1 m ρ c) (a10_v3 m ρ c) (a10_v31 m ρ c))
theorem a11_v86 : W11 m ρ c (Proc.devRef .tc main_v86) = (shapeCast S1x64 (m ((c : Thread nD τ).loc main_arg7)) shapeCasts_S64_S1x64) :=
  (s5_v86 (W10 m ρ c)).trans (congrArg (fun v => shapeCast S1x64 v shapeCasts_S64_S1x64) (a10_arg7 m ρ c))
theorem a11_v87 : W11 m ρ c (Proc.devRef .tc main_v87) = (shapeCast S50000x1 (Cert.ReferenceIdeal.Read.val_main_v45 (F := Ideal) (m ((c : Thread nD τ).loc main_arg1))) shapeCasts_S50000_S50000x1) :=
  (s5_v87 (W10 m ρ c)).trans (congrArg (fun v => shapeCast S50000x1 v shapeCasts_S50000_S50000x1) (a10_v16 m ρ c))
theorem a11_v72 : W11 m ρ c (Proc.devRef .tc main_v72) = (Cert.ReferenceIdeal.Read.val_main_v92 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) :=
  (s5_v72 (W10 m ρ c)).trans (a10_v72 m ρ c)
theorem a11_arg8 : W11 m ρ c (Proc.devRef .tc main_arg8) = (m ((c : Thread nD τ).loc main_arg8)) :=
  (s5_arg8 (W10 m ρ c)).trans (a10_arg8 m ρ c)
theorem a11_arg9 : W11 m ρ c (Proc.devRef .tc main_arg9) = (m ((c : Thread nD τ).loc main_arg9)) :=
  (s5_arg9 (W10 m ρ c)).trans (a10_arg9 m ρ c)
/-- The third layer's output. -/
theorem a12_v88 : W12 m ρ c (Proc.devRef .tc main_v88) = (Cert.ReferenceIdeal.Read.val_main_v129 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) :=
  (W12_arr m ρ c 4).trans ((Region5.final (V11 m ρ) c).trans
    ((selfLoop_congr (a11_v85 m ρ c) (a11_v72 m ρ c) (a11_v87 m ρ c) (a11_v86 m ρ c)).trans
      (selfLoop_hostOps (Cert.ReferenceIdeal.Read.val_main_v120 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) (Cert.ReferenceIdeal.Read.val_main_v92 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) (Cert.ReferenceIdeal.Read.val_main_v45 (F := Ideal) (m ((c : Thread nD τ).loc main_arg1))) (m ((c : Thread nD τ).loc main_arg7)) Cert.ReferenceIdeal.Facts₀.bcast_S50000_S50000x1_0 Cert.ReferenceIdeal.Facts₀.bcast_S50000x1_S50000x64_0_1
        Cert.ReferenceIdeal.Facts₀.bcast_S64_S1x64_1 Cert.ReferenceIdeal.Facts₀.bcast_S1x64_S50000x64_0_1 Cert.ReferenceIdeal.Facts₀.bcast_S_S50000x64 shapeCasts_S50000_S50000x1 shapeCasts_S64_S1x64).symm))
theorem a12_arg8 : W12 m ρ c (Proc.devRef .tc main_arg8) = (m ((c : Thread nD τ).loc main_arg8)) :=
  (W12_of_ne m ρ c main_arg8 (by decide)).trans (a11_arg8 m ρ c)
theorem a12_arg9 : W12 m ρ c (Proc.devRef .tc main_arg9) = (m ((c : Thread nD τ).loc main_arg9)) :=
  (W12_of_ne m ρ c main_arg9 (by decide)).trans (a11_arg9 m ρ c)
theorem a13_v89 : W13 m ρ c (Proc.devRef .tc main_v89) = (shapeCast S1x1 (m ((c : Thread nD τ).loc main_arg9)) shapeCasts_S1_S1x1) :=
  (s6_v89 (W12 m ρ c)).trans (congrArg (fun v => shapeCast S1x1 v shapeCasts_S1_S1x1) (a12_arg9 m ρ c))
theorem a13_v88 : W13 m ρ c (Proc.devRef .tc main_v88) = (Cert.ReferenceIdeal.Read.val_main_v129 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) :=
  (s6_v88 (W12 m ρ c)).trans (a12_v88 m ρ c)
theorem a13_arg8 : W13 m ρ c (Proc.devRef .tc main_arg8) = (m ((c : Thread nD τ).loc main_arg8)) :=
  (s6_arg8 (W12 m ρ c)).trans (a12_arg8 m ρ c)
/-- THE RESULT: the output projection of the third layer's output, which is the reference's result term. -/
theorem a14_v90 : W14 m ρ c (Proc.devRef .tc main_v90) = (Cert.ReferenceIdeal.Read.val_main_v133 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))) :=
  (W14_arr m ρ c 3).trans ((Region6.final (V13 m ρ) c).trans
    ((denseBias_congr (a13_v88 m ρ c) (a13_arg8 m ρ c) (a13_v89 m ρ c)).trans
      (denseBias_hostOps (Cert.ReferenceIdeal.Read.val_main_v129 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) (m ((c : Thread nD τ).loc main_arg8)) (m ((c : Thread nD τ).loc main_arg9)) Cert.ReferenceIdeal.Facts₀.bcast_S1_S1x1_1 Cert.ReferenceIdeal.Facts₀.bcast_S1x1_S50000x1_0_1 shapeCasts_S1_S1x1).symm))

end Cert.KernelIdeal.Chain

end
-- ==== Proof.lean ====
/-
  A three-layer graph convolution followed by a linear output layer, computed two ways on the extended reals.

  For node features `x`, an edge list (sources and destinations), weight arrays `W0, W1, W2, Wout` and biases, with
  `s` the per-node scale `1/sqrt(1 + indegree)`, a layer maps `x` to

      max (A(x·W) + (x·W) · s² + b) 0,    A(h)(v) = ∑ over edges (u → v) of s(u) · s(v) · h(u),

  and the result is `h₃ · Wout + bout`. The reference computes every step with host operations. The kernel program
  keeps the gather and scatter-add that form `A` on the host — the very operations the reference applies — and
  computes each product `x·W` (+ a zero bias row) and each `max (A + h·s² + b) 0` in a kernel launched over ten blocks
  of 5000 rows. Rounding to bf16 is the identity on the extended reals, a product into a zero accumulator is the plain
  sum of products, a row of either map depends on the same row of its row-indexed operands only, and `y + 0 = y`; so
  the two programs compute the same term step by step. No law used here needs the inputs to be finite.

  The three frame claims are the generated ones (the reference's from its generated run); the idealization rewrote
  nothing, so `preserves` is trivial.
-/
import proofs.«112631_j35502199669066_1_alg».proof.Defs
import proofs.«112631_j35502199669066_1_alg».proof.Proof.Gen.Kernel
import proofs.«112631_j35502199669066_1_alg».proof.Proof.Gen.Kernel.Skeleton
import proofs.«112631_j35502199669066_1_alg».proof.Proof.Gen.Kernel.Launch
import proofs.«112631_j35502199669066_1_alg».proof.Proof.Gen.Kernel.Points
import proofs.«112631_j35502199669066_1_alg».proof.Proof.Gen.Kernel.Frame
import proofs.«112631_j35502199669066_1_alg».proof.Proof.Gen.KernelIdeal
import proofs.«112631_j35502199669066_1_alg».proof.Proof.Gen.KernelIdeal.Skeleton
import proofs.«112631_j35502199669066_1_alg».proof.Proof.Gen.KernelIdeal.Launch
import proofs.«112631_j35502199669066_1_alg».proof.Proof.Gen.KernelIdeal.Points
import proofs.«112631_j35502199669066_1_alg».proof.Proof.Gen.KernelIdeal.Frame
import proofs.«112631_j35502199669066_1_alg».proof.Proof.Gen.ReferenceIdeal
import proofs.«112631_j35502199669066_1_alg».proof.Proof.Gen.Pre_finite_inputs
import proofs.«112631_j35502199669066_1_alg».proof.Proof.Gen.ReferenceIdeal.Run
import proofs.«112631_j35502199669066_1_alg».proof.Proof.Gen.ReferenceIdeal.Read
import proofs.«112631_j35502199669066_1_alg».proof.Proof.KernelRun
import proofs.«112631_j35502199669066_1_alg».proof.Proof.Chain
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- From memories agreeing on the arguments both programs end with the result buffer at the reference's term of
    the arguments: the kernel's by the walk through its boundaries, the reference's by its run. -/
theorem algebraic : Cert.algebraic_KernelIdeal_ReferenceIdeal := by
  intro m ρ m' ρ' _ hagree
  refine ⟨fun c => Cert.KernelIdeal.Gen.W14 m ρ c (Proc.devRef .tc Cert.KernelIdeal.main_v90),
    Cert.KernelIdeal.RunValue.run (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9⟩ := hagree c
  rw [Cert.ReferenceIdeal.Read.val_main_v133_eq, h0, h1, h2, h3, h4, h5, h6, h7, h8, h9]
  exact (Cert.KernelIdeal.Chain.a14_v90 m ρ c).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
